-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S1024x512 : Shape := ⟨2, ![1024, 512]⟩
abbrev S512 : Shape := ⟨1, ![512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_arg6 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S4096x512 .f32) (main_arg1 : FVec F S4096x512 .f32) (main_arg2 : FVec F S4096x4096 .f32) (main_arg3 : FVec F S1024x512 .f32) (main_arg4 : FVec F S512 .f32) (main_arg5 : FVec F S512 .f32) (main_arg6 : FVec F S512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_v13 main_v16
-- ==== Kernel.lean ====
abbrev S4096x512 : Shape := ⟨2, ![4096, 512]⟩
abbrev S4096x4096 : Shape := ⟨2, ![4096, 4096]⟩
abbrev S1024x512 : Shape := ⟨2, ![1024, 512]⟩
abbrev S512 : Shape := ⟨1, ![512]⟩
abbrev S1x512 : Shape := ⟨2, ![1, 512]⟩
abbrev S512x4096 : Shape := ⟨2, ![512, 4096]⟩
abbrev S512x512 : Shape := ⟨2, ![512, 512]⟩

abbrev nBuf : Space → Nat
  | .hbm => 11
  | .vmem => 13
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x4096, .f32⟩
  | .hbm, ⟨3, _⟩ => ⟨S1024x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S4096x512, .f32⟩
  | .local _ .vmem, ⟨0, _⟩ => ⟨S512x4096, .f32⟩
  | .local _ .vmem, ⟨1, _⟩ => ⟨S512x4096, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S4096x512, .f32⟩
  | .local _ .vmem, ⟨10, _⟩ => ⟨S4096x512, .bf16⟩
  | .local _ .vmem, ⟨11, _⟩ => ⟨S1x512, .f32⟩
  | .local _ .vmem, ⟨12, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v17 : BitVec 32 := Scalar.muli arg0 c512_i32
  let v18 : Index := Scalar.indexCast v17
  let c0_10 : Index := 0#32
  ![v18.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  shapeCasts_S512_S1x512 : S512.ShapeCasts S1x512
  inb_S1024x512_S512x512_0_0 : ∀ a, (![0, 0] : Fin 2 → Nat) a + S512x512.size a ≤ S1024x512.size a
  h_S512x512 : 0 < S512x512.numel
  bitsLt_bf16_f32 : FTy.bits .bf16 < FTy.bits .f32
  inb_S4096x512_S512x512_0_0 : ∀ a, (![0, 0] : Fin 2 → Nat) a + S512x512.size a ≤ S4096x512.size a
  shapeCasts_S512x512_S512x512 : S512x512.ShapeCasts S512x512
  packedbf16_S4096x512_S512x512_0_0 : (Rect.unit (s := S4096x512) ![0, 0] S512x512.size inb_S4096x512_S512x512_0_0).PackedRows (EltTy.packing .bf16)
  inb_S4096x512_S512x512_512_0 : ∀ a, (![512, 0] : Fin 2 → Nat) a + S512x512.size a ≤ S4096x512.size a
  packedbf16_S4096x512_S512x512_512_0 : (Rect.unit (s := S4096x512) ![512, 0] S512x512.size inb_S4096x512_S512x512_512_0).PackedRows (EltTy.packing .bf16)
  inb_S4096x512_S512x512_1024_0 : ∀ a, (![1024, 0] : Fin 2 → Nat) a + S512x512.size a ≤ S4096x512.size a
  packedbf16_S4096x512_S512x512_1024_0 : (Rect.unit (s := S4096x512) ![1024, 0] S512x512.size inb_S4096x512_S512x512_1024_0).PackedRows (EltTy.packing .bf16)
  inb_S4096x512_S512x512_1536_0 : ∀ a, (![1536, 0] : Fin 2 → Nat) a + S512x512.size a ≤ S4096x512.size a
  packedbf16_S4096x512_S512x512_1536_0 : (Rect.unit (s := S4096x512) ![1536, 0] S512x512.size inb_S4096x512_S512x512_1536_0).PackedRows (EltTy.packing .bf16)
  inb_S4096x512_S512x512_2048_0 : ∀ a, (![2048, 0] : Fin 2 → Nat) a + S512x512.size a ≤ S4096x512.size a
  packedbf16_S4096x512_S512x512_2048_0 : (Rect.unit (s := S4096x512) ![2048, 0] S512x512.size inb_S4096x512_S512x512_2048_0).PackedRows (EltTy.packing .bf16)
  inb_S4096x512_S512x512_2560_0 : ∀ a, (![2560, 0] : Fin 2 → Nat) a + S512x512.size a ≤ S4096x512.size a
  packedbf16_S4096x512_S512x512_2560_0 : (Rect.unit (s := S4096x512) ![2560, 0] S512x512.size inb_S4096x512_S512x512_2560_0).PackedRows (EltTy.packing .bf16)
  inb_S4096x512_S512x512_3072_0 : ∀ a, (![3072, 0] : Fin 2 → Nat) a + S512x512.size a ≤ S4096x512.size a
  packedbf16_S4096x512_S512x512_3072_0 : (Rect.unit (s := S4096x512) ![3072, 0] S512x512.size inb_S4096x512_S512x512_3072_0).PackedRows (EltTy.packing .bf16)
  inb_S4096x512_S512x512_3584_0 : ∀ a, (![3584, 0] : Fin 2 → Nat) a + S512x512.size a ≤ S4096x512.size a
  packedbf16_S4096x512_S512x512_3584_0 : (Rect.unit (s := S4096x512) ![3584, 0] S512x512.size inb_S4096x512_S512x512_3584_0).PackedRows (EltTy.packing .bf16)
  inb_S512x4096_S512x4096_0_0 : ∀ a, (![0, 0] : Fin 2 → Nat) a + S512x4096.size a ≤ S512x4096.size a
  h_S512x4096 : 0 < S512x4096.numel
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  inb_S1024x512_S512x512_512_0 : ∀ a, (![512, 0] : Fin 2 → Nat) a + S512x512.size a ≤ S1024x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [0] S512
  dot_S512x512_S512x512_S512x512_1_0_0_1_n_n_wf : DotDims.WF S512x512 S512x512 S512x512 [1] [0] [0] [1] [] []
  dot_S512x4096_S4096x512_S512x512_1_0_0_1_n_n_wf : DotDims.WF S512x4096 S4096x512 S512x512 [1] [0] [0] [1] [] []
  hrank0 : 0 < grid0.rank
  k0_off1_inb : ∀ i : grid0.Coords, ∀ a, (k0_off1 i) a + S512x512.size a ≤ S4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x512.size a ≤ S4096x512.size a
  hwx0_7 : ∀ i : grid0.Coords, EltTy.bits .f32 = 32 ∨ (Rect.block (s := S4096x512) S4096x512.size (cc0_transform_7 i) (hinb0_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_arg2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S4096x512.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S1024x512 : Shape := ⟨2, ![1024, 512]⟩
abbrev S512 : Shape := ⟨1, ![512]⟩
abbrev S4096x1024 : Shape := ⟨2, ![4096, 1024]⟩
abbrev S1x512 : Shape := ⟨2, ![1, 512]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x4096, .f32⟩
  | .hbm, ⟨3, _⟩ => ⟨S1024x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4096x512, .f32⟩
  | .hbm, ⟨8, _⟩ => ⟨S4096x1024, .f32⟩
  | .hbm, ⟨9, _⟩ => ⟨S4096x512, .f32⟩
  | .hbm, ⟨10, _⟩ => ⟨S1x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .i32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S1x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S1x512, .f32⟩
  | .hbm, ⟨49, _⟩ => ⟨S4096x512, .f32⟩
  | .hbm, ⟨50, _⟩ => ⟨S4096x512, .f32⟩
  | .hbm, ⟨51, _⟩ => ⟨S1x512, .f32⟩
  | .hbm, ⟨52, _⟩ => ⟨S4096x512, .f32⟩
  | .hbm, ⟨53, _⟩ => ⟨S4096x512, .f32⟩
  | .hbm, ⟨54, _⟩ => ⟨S1x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096x512, .f32⟩
  | .hbm, ⟨59, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_cst_1 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_2 : Ref sig .tc := ⟨.hbm, 57, rfl⟩
abbrev main_v25 : Ref sig .tc := ⟨.hbm, 58, rfl⟩
abbrev main_v26 : Ref sig .tc := ⟨.hbm, 59, rfl⟩

abbrev nD : Nat := 1
abbrev τ : Topo := Topo.v7x

variable {F : FTy → Type} [FloatOps F]

class Facts₀ : Prop where
  concatenates_S4096x512_S4096x512_S4096x1024_d1 : Shape.Concatenates [S4096x512, S4096x512] S4096x1024 1
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S512_d0 : S4096x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S4096x512 : S_.BroadcastsInDim S4096x512 (![] : Fin 0 → Fin S4096x512.rank)
  dot_S4096x4096_S4096x512_S4096x512_1_0_0_1_n_n_wf : DotDims.WF S4096x4096 S4096x512 S4096x512 [1] [0] [0] [1] [] []
  dot_S4096x1024_S1024x512_S4096x512_1_0_0_1_n_n_wf : DotDims.WF S4096x1024 S1024x512 S4096x512 [1] [0] [0] [1] [] []

variable [Facts₀]

def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf

class Facts : Prop extends Facts₀ where

variable [Facts]
-- ==== Proof.KBodyCommon.lean ====
/-
  The branch conditions of the fused body, decided over the eight grid points, and the memrefs the pipeline
  hands the body at a point. The body stages t = x1 · W_top at the first point only, accumulates the column
  sums at the first point (store) and at every later one (add), and normalises the whole output at the
  last point only.
-/
import proofs.«148319_g18880676233904_cont_8to1_729_7_alg».proof.Proof.Gen.Kernel.Frame
import proofs.«148319_g18880676233904_cont_8to1_729_7_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

/-- "This is the first grid point", as the body's first conditional computes it from the grid coordinate. -/
abbrev condFirst (i : grid0.Coords) : Prop := (Scalar.cmpi .ne (Scalar.extui (Scalar.cmpi .eq (BitVec.ofNat 32 (i 0).val) 0#32)) 0#32) = 1#1
theorem condFirst_iff : ∀ t : Fin cfg0.N, condFirst (grid0.coords t) ↔ t.val = 0 :=
  (by decide +kernel : ∀ t : Fin grid0.N, condFirst (grid0.coords t) ↔ t.val = 0)

/-- "This is a later grid point" (coordinate > 0, signed). -/
abbrev condLater (i : grid0.Coords) : Prop := (Scalar.cmpi .ne (Scalar.extui (Scalar.cmpi .sgt (BitVec.ofNat 32 (i 0).val) 0#32)) 0#32) = 1#1
theorem condLater_iff : ∀ t : Fin cfg0.N, condLater (grid0.coords t) ↔ 1 ≤ t.val :=
  (by decide +kernel : ∀ t : Fin grid0.N, condLater (grid0.coords t) ↔ 1 ≤ t.val)

/-- "This is the last grid point" (coordinate = 7). -/
abbrev condLast (i : grid0.Coords) : Prop := (Scalar.cmpi .ne (Scalar.extui (Scalar.cmpi .eq (BitVec.ofNat 32 (i 0).val) 7#32)) 0#32) = 1#1
theorem condLast_iff : ∀ t : Fin cfg0.N, condLast (grid0.coords t) ↔ t.val = 7 :=
  (by decide +kernel : ∀ t : Fin grid0.N, condLast (grid0.coords t) ↔ t.val = 7)

/-- Each window's current staging memref at point `t`, as the pipeline passes it to the body, and its wholeness. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x512 .f32 := win0_7.stage (cfg0.slots t 7)
abbrev hs7 (t : Fin cfg0.N) : (ms7 t).IsWhole := hstage0_7 ((cfg0.slots t 7).cast nbuf0_7)

/-- The three scratch operands: the staged product t, the running column sum, the running column sum of squares. -/
abbrev scT : Memref sig .tc .vmem S4096x512 .bf16 := Memref.whole cc0_scratch0
abbrev scS : Memref sig .tc .vmem S1x512 .f32 := Memref.whole cc0_scratch1
abbrev scQ : Memref sig .tc .vmem S1x512 .f32 := Memref.whole cc0_scratch2

/-- What the launch lends the region besides the windows: the three scratch buffers at some contents and the
    generator register at some state. -/
theorem PhiA_eq (c : Dev nD) :
    (Pipeline.ΦA spec0 c : sProp 𝕄)
      = iprop(iprop((∃ d, owns (c : Thread nD τ) scT fullShare d) ∗ (∃ d, owns (c : Thread nD τ) scS fullShare d) ∗ (∃ d, owns (c : Thread nD τ) scQ fullShare d)) ∗ (∃ r, prngReg c r)) := by
  unfold Pipeline.ΦA; rw [scopedRest0_eq]; simp only [scT, scS, scQ, owns_whole]; try rfl

end Cert.Kernel.Body

end
-- ==== Proof.KBodyFirst.lean ====
/-
  The body at the first grid point: it stages t = x1 · W_top into the first scratch (eight row blocks of 512),
  stores its 512 rows of y into rows 0 … 511 of the resident output, and initialises the two running column sums
  with this block's sums of y and of y².
-/
import proofs.«148319_g18880676233904_cont_8to1_729_7_alg».proof.Proof.KBodyCommon

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

set_option maxHeartbeats 2000000 in
/-- The body's run at the first point, on whole memrefs: the inputs at their blocks, the three scratch buffers at
    anything, the output buffer at any contents `xo`. It ends with the inputs as they were, each scratch rewritten
    whole (pieces `LT`, `LS`, `LQ`, found by the run), and the output buffer with the pieces `LO xo` over `xo`. -/
noncomputable def runFirst (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : condFirst i) (hc2 : ¬condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) :
    Σ' (LT : List (View.Piece (Elt F) S4096x512 .bf16)), Σ' (LS : List (View.Piece (Elt F) S1x512 .f32)), Σ' (LQ : List (View.Piece (Elt F) S1x512 .f32)), { LO : Vec F S4096x512 .f32 → List (View.Piece (Elt F) S4096x512 .f32) //
      ∀ (xo : Vec F S4096x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (arg8.view.read (Elt F) (arg8.view.writes (Elt F) (harg8.unread xo) (LO xo)))
              ∗ (∃ f, arg9.view.loc (c : Thread nD τ) ↦[arg9.view.set]{fullShare} arg9.view.writes (Elt F) f LT) ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LQ)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, ?_, fun xo E K => ?run⟩
  case run =>
    simp only [cc0__fused_kernel_eq_skeleton]; unfold cc0__fused_kernel_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; rfl
    isplitl [HS0]; · iexists _; iexact HS0
    isplitl [HS1]; · iexists _; iexact HS1
    iexists _; iexact HS2

end Cert.Kernel.Body

end
-- ==== Proof.KBodyMiddle.lean ====
/-
  The body at a middle grid point (neither the first nor the last): it stores its 512 rows of
  y = am_block · t + x2_block · W_bottom + b into the resident output at the rows of its block, and adds the
  block's column sums of y and of y² to the two running sums. The staged product t is only read.
-/
import proofs.«148319_g18880676233904_cont_8to1_729_7_alg».proof.Proof.KBodyCommon

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

set_option maxHeartbeats 1000000 in
/-- The body's run at a middle point, on whole memrefs: the inputs at their blocks, the staged product at `xt`, the
    running sums at `xs`, `xq`, the output buffer at any contents `xo`. It ends with the inputs and the staged
    product as they were, each running sum rewritten whole (pieces `LS`, `LQ`: found by the run, they do not depend
    on `xo`), and the output buffer with the pieces `LO xo` written over `xo`. -/
noncomputable def runMiddle (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs : Vec F S1x512 .f32) (xq : Vec F S1x512 .f32) :
    Σ' (LS : List (View.Piece (Elt F) S1x512 .f32)), Σ' (LQ : List (View.Piece (Elt F) S1x512 .f32)), { LO : Vec F S4096x512 .f32 → List (View.Piece (Elt F) S4096x512 .f32) //
      ∀ (xo : Vec F S4096x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare xt ∗ owns (c : Thread nD τ) arg10 fullShare xs ∗ owns (c : Thread nD τ) arg11 fullShare xq
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (arg8.view.read (Elt F) (arg8.view.writes (Elt F) (harg8.unread xo) (LO xo)))
              ∗ owns (c : Thread nD τ) arg9 fullShare xt ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LQ)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, fun xo E K => ?run⟩
  case run =>
    simp only [cc0__fused_kernel_eq_skeleton]; unfold cc0__fused_kernel_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2
    sl_exec (disch := first | exact hc0 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; rfl
    isplitl [HS0]
    · iexists _; isplitr; · ipureintro; exact harg9.read_unread _
      iexact HS0
    isplitl [HS1]; · iexists _; iexact HS1
    iexists _; iexact HS2

end Cert.Kernel.Body

end
-- ==== Proof.KBodyLast.lean ====
/-
  The body at the last grid point: as at a middle point it stores its rows of y and adds its column sums to the
  running sums; then it forms mean = sum · 2⁻¹², var = sumsq · 2⁻¹² − mean², scale = rsqrt(var + ε) · γ,
  shift = β − mean · scale, and rewrites every row block of the resident output as max(block · scale + shift, 0).
-/
import proofs.«148319_g18880676233904_cont_8to1_729_7_alg».proof.Proof.KBodyCommon

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

set_option maxHeartbeats 2000000 in
/-- The body's run at the last point, on whole memrefs: the inputs at their blocks, the staged product at `xt`, the
    running sums at `xs`, `xq`, the output buffer at any contents `xo`. It ends with the inputs and the staged
    product as they were, each running sum rewritten whole (pieces `LS`, `LQ`), and the output buffer with the
    pieces `LO xo` written over `xo`: this block's rows of y, then the eight normalised row blocks. -/
noncomputable def runLast (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs : Vec F S1x512 .f32) (xq : Vec F S1x512 .f32) :
    Σ' (LS : List (View.Piece (Elt F) S1x512 .f32)), Σ' (LQ : List (View.Piece (Elt F) S1x512 .f32)), { LO : Vec F S4096x512 .f32 → List (View.Piece (Elt F) S4096x512 .f32) //
      ∀ (xo : Vec F S4096x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare xt ∗ owns (c : Thread nD τ) arg10 fullShare xs ∗ owns (c : Thread nD τ) arg11 fullShare xq
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (arg8.view.read (Elt F) (arg8.view.writes (Elt F) (harg8.unread xo) (LO xo)))
              ∗ owns (c : Thread nD τ) arg9 fullShare xt ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LQ)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, fun xo E K => ?run⟩
  case run =>
    simp only [cc0__fused_kernel_eq_skeleton]; unfold cc0__fused_kernel_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2
    sl_exec (disch := first | exact hc0 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; rfl
    isplitl [HS0]
    · iexists _; isplitr; · ipureintro; exact harg9.read_unread _
      iexact HS0
    isplitl [HS1]; · iexists _; iexact HS1
    iexists _; iexact HS2

end Cert.Kernel.Body

end
-- ==== Proof.KData.lean ====
/-
  The proof data of the fused kernel's pipeline. The three scratch buffers are carried from grid point to grid
  point: the staged product t is written at the first point and only read afterwards; the two running column
  sums are rewritten at every point. Their contents after each point are named by recursion on the point. The
  resident output buffer is written 512 rows at a time and is never whole before the last point, so what a point
  leaves in it is stated as a relation between what the point found there and what it left: the found contents
  with the point's pieces written over them.
-/
import proofs.«148319_g18880676233904_cont_8to1_729_7_alg».proof.Proof.KBodyFirst
import proofs.«148319_g18880676233904_cont_8to1_729_7_alg».proof.Proof.KBodyMiddle
import proofs.«148319_g18880676233904_cont_8to1_729_7_alg».proof.Proof.KBodyLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-- The run of the first point on the pipeline's memrefs and the windows' blocks. -/
abbrev firstAt (c : Dev nD) (t : Fin cfg0.N) (h0 : t.val = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _)
    ((condFirst_iff t).mpr h0) (fun h => absurd ((condLater_iff t).mp h) (by omega)) (fun h => absurd ((condLast_iff t).mp h) (by omega))
    (iblk m c 0 t) (iblk m c 1 t) (iblk m c 2 t) (iblk m c 3 t) (iblk m c 4 t) (iblk m c 5 t) (iblk m c 6 t)

/-- The run of a middle point on the pipeline's memrefs and the windows' blocks, the scratch at given contents. -/
abbrev middleAt (c : Dev nD) (t : Fin cfg0.N) (h0 : t.val ≠ 0) (h7 : t.val ≠ 7) (xt : Vec F S4096x512 .bf16) (xs xq : Vec F S1x512 .f32) :=
  runMiddle (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _)
    (fun h => h0 ((condFirst_iff t).mp h)) ((condLater_iff t).mpr (by omega)) (fun h => h7 ((condLast_iff t).mp h))
    (iblk m c 0 t) (iblk m c 1 t) (iblk m c 2 t) (iblk m c 3 t) (iblk m c 4 t) (iblk m c 5 t) (iblk m c 6 t) xt xs xq

/-- The run of the last point on the pipeline's memrefs and the windows' blocks, the scratch at given contents. -/
abbrev lastAt (c : Dev nD) (t : Fin cfg0.N) (h7 : t.val = 7) (xt : Vec F S4096x512 .bf16) (xs xq : Vec F S1x512 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _)
    (fun h => absurd ((condFirst_iff t).mp h) (by omega)) ((condLater_iff t).mpr (by omega)) ((condLast_iff t).mpr h7)
    (iblk m c 0 t) (iblk m c 1 t) (iblk m c 2 t) (iblk m c 3 t) (iblk m c 4 t) (iblk m c 5 t) (iblk m c 6 t) xt xs xq

/-- What the three scratch buffers (the staged product, the running sum, the running sum of squares) hold after
    the body at position `n`: the pieces that point's run wrote, read back (they cover each buffer it rewrites). -/
def scrAt (c : Dev nD) : (n : ℕ) → n < cfg0.N → Vec F S4096x512 .bf16 × Vec F S1x512 .f32 × Vec F S1x512 .f32
  | 0, hn =>
    (scT.view.read (Elt F) (scT.view.writes (Elt F) scT.view.junk (firstAt m c ⟨0, hn⟩ rfl).1),
     scS.view.read (Elt F) (scS.view.writes (Elt F) scS.view.junk (firstAt m c ⟨0, hn⟩ rfl).2.1),
     scQ.view.read (Elt F) (scQ.view.writes (Elt F) scQ.view.junk (firstAt m c ⟨0, hn⟩ rfl).2.2.1))
  | n + 1, hn =>
    if h7 : n + 1 = 7 then
      ((scrAt c n (Nat.lt_of_succ_lt hn)).1,
       scS.view.read (Elt F) (scS.view.writes (Elt F) scS.view.junk (lastAt m c ⟨n + 1, hn⟩ h7 (scrAt c n (Nat.lt_of_succ_lt hn)).1 (scrAt c n (Nat.lt_of_succ_lt hn)).2.1 (scrAt c n (Nat.lt_of_succ_lt hn)).2.2).1),
       scQ.view.read (Elt F) (scQ.view.writes (Elt F) scQ.view.junk (lastAt m c ⟨n + 1, hn⟩ h7 (scrAt c n (Nat.lt_of_succ_lt hn)).1 (scrAt c n (Nat.lt_of_succ_lt hn)).2.1 (scrAt c n (Nat.lt_of_succ_lt hn)).2.2).2.1))
    else
      ((scrAt c n (Nat.lt_of_succ_lt hn)).1,
       scS.view.read (Elt F) (scS.view.writes (Elt F) scS.view.junk (middleAt m c ⟨n + 1, hn⟩ (Nat.succ_ne_zero n) h7 (scrAt c n (Nat.lt_of_succ_lt hn)).1 (scrAt c n (Nat.lt_of_succ_lt hn)).2.1 (scrAt c n (Nat.lt_of_succ_lt hn)).2.2).1),
       scQ.view.read (Elt F) (scQ.view.writes (Elt F) scQ.view.junk (middleAt m c ⟨n + 1, hn⟩ (Nat.succ_ne_zero n) h7 (scrAt c n (Nat.lt_of_succ_lt hn)).1 (scrAt c n (Nat.lt_of_succ_lt hn)).2.1 (scrAt c n (Nat.lt_of_succ_lt hn)).2.2).2.1))

/-- The scratch as a point other than the first finds it: what the point before left. -/
abbrev scrBefore (c : Dev nD) (t : Fin cfg0.N) (h0 : t.val ≠ 0) := scrAt m c (t.val - 1) (Nat.lt_of_le_of_lt (Nat.sub_le _ _) t.isLt)

theorem scrAt_first (c : Dev nD) (t : Fin cfg0.N) (h0 : t.val = 0) :
    scrAt m c t.val t.isLt =
      (scT.view.read (Elt F) (scT.view.writes (Elt F) scT.view.junk (firstAt m c t h0).1),
       scS.view.read (Elt F) (scS.view.writes (Elt F) scS.view.junk (firstAt m c t h0).2.1),
       scQ.view.read (Elt F) (scQ.view.writes (Elt F) scQ.view.junk (firstAt m c t h0).2.2.1)) := by
  obtain ⟨n, hn⟩ := t
  cases n with
  | zero => rfl
  | succ n => exact absurd h0 (Nat.succ_ne_zero n)

theorem scrAt_middle (c : Dev nD) (t : Fin cfg0.N) (h0 : t.val ≠ 0) (h7 : t.val ≠ 7) :
    scrAt m c t.val t.isLt =
      ((scrBefore m c t h0).1,
       scS.view.read (Elt F) (scS.view.writes (Elt F) scS.view.junk (middleAt m c t h0 h7 (scrBefore m c t h0).1 (scrBefore m c t h0).2.1 (scrBefore m c t h0).2.2).1),
       scQ.view.read (Elt F) (scQ.view.writes (Elt F) scQ.view.junk (middleAt m c t h0 h7 (scrBefore m c t h0).1 (scrBefore m c t h0).2.1 (scrBefore m c t h0).2.2).2.1)) := by
  obtain ⟨n, hn⟩ := t
  cases n with
  | zero => exact absurd rfl h0
  | succ n => exact (dif_neg h7).trans rfl

theorem scrAt_last (c : Dev nD) (t : Fin cfg0.N) (h7 : t.val = 7) :
    scrAt m c t.val t.isLt =
      ((scrBefore m c t (by omega)).1,
       scS.view.read (Elt F) (scS.view.writes (Elt F) scS.view.junk (lastAt m c t h7 (scrBefore m c t (by omega)).1 (scrBefore m c t (by omega)).2.1 (scrBefore m c t (by omega)).2.2).1),
       scQ.view.read (Elt F) (scQ.view.writes (Elt F) scQ.view.junk (lastAt m c t h7 (scrBefore m c t (by omega)).1 (scrBefore m c t (by omega)).2.1 (scrBefore m c t (by omega)).2.2).2.1)) := by
  obtain ⟨n, hn⟩ := t
  cases n with
  | zero => exact (by simp at h7)
  | succ n => exact (dif_pos h7).trans rfl

/-- The pieces the body writes into the resident output buffer at point `t`, as a function of what it found there. -/
def outPieces (c : Dev nD) (t : Fin cfg0.N) : Vec F S4096x512 .f32 → List (View.Piece (Elt F) S4096x512 .f32) :=
  if h0 : t.val = 0 then (firstAt m c t h0).2.2.2.1
  else if h7 : t.val = 7 then (lastAt m c t h7 (scrBefore m c t h0).1 (scrBefore m c t h0).2.1 (scrBefore m c t h0).2.2).2.2.1
  else (middleAt m c t h0 h7 (scrBefore m c t h0).1 (scrBefore m c t h0).2.1 (scrBefore m c t h0).2.2).2.2.1

/-- What the body leaves in the resident output buffer at point `t`, given what it found there. -/
def outAfter (c : Dev nD) (t : Fin cfg0.N) (Y : Vec F S4096x512 .f32) : Vec F S4096x512 .f32 :=
  (ms7 t).view.read (Elt F) ((ms7 t).view.writes (Elt F) ((hs7 t).unread Y) (outPieces m c t Y))

/-- The region's invariant before position `n`: before the first point what the launch lends (every scratch at
    anything); afterwards the three scratch buffers at what the point before left, and the generator register. -/
def PhiS (c : Dev nD) : (n : ℕ) → n ≤ cfg0.N → sProp 𝕄
  | 0, _ => Pipeline.ΦA spec0 c
  | n + 1, hn => iprop(iprop(owns (c : Thread nD τ) scT fullShare ((scrAt m c n hn).1) ∗ owns (c : Thread nD τ) scS fullShare ((scrAt m c n hn).2.1) ∗ owns (c : Thread nD τ) scQ fullShare ((scrAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scT fullShare ((scrAt m c n hn).1) ∗ owns (c : Thread nD τ) scS fullShare ((scrAt m c n hn).2.1) ∗ owns (c : Thread nD τ) scQ fullShare ((scrAt m c n hn).2.2)) ∗ (∃ r, prngReg c r)) := rfl

theorem PhiS_pos (c : Dev nD) (n : ℕ) (h : n ≤ cfg0.N) (hz : n ≠ 0) :
    PhiS m c n h = iprop(iprop(owns (c : Thread nD τ) scT fullShare ((scrAt m c (n - 1) (by omega)).1) ∗ owns (c : Thread nD τ) scS fullShare ((scrAt m c (n - 1) (by omega)).2.1) ∗ owns (c : Thread nD τ) scQ fullShare ((scrAt m c (n - 1) (by omega)).2.2)) ∗ (∃ r, prngReg c r)) := by
  cases n with
  | zero => exact absurd rfl hz
  | succ n => rfl

/-- The exact part of the proof data: the arrays as the region finds them; each input's buffer at its block after the
    body; the invariant above; nothing owed. (The output window's entry here is never read: its relation is stated
    below.) -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := PhiS m c t.val (Nat.le_of_lt_succ t.isLt)
  q _ := fullShare
  owed _ := 0

/-- The output window's relation: what the body leaves is what it found with its pieces written over it. -/
def outRel (c : Dev nD) (t : Fin cfg0.N) (Y X : Vec F S4096x512 .f32) : Prop := X = outAfter m c t Y

/-- The proof data, relational at the output window. -/
def rdat (c : Dev nD) : RDat τ (Elt F) Unit ℕ (UR sig nD τ) ℕ cfg0 c :=
  (dats m 0 c).toR.override fun w => match w with
    | ⟨0, _⟩ => none
    | ⟨1, _⟩ => none
    | ⟨2, _⟩ => none
    | ⟨3, _⟩ => none
    | ⟨4, _⟩ => none
    | ⟨5, _⟩ => none
    | ⟨6, _⟩ => none
    | ⟨7, _⟩ => some (outRel m c)

end Cert.Kernel.Body

end
-- ==== Proof.KCovers.lean ====
/-
  The pieces a point's run writes into a scratch buffer it rewrites tile that buffer: eight row blocks of 512 for
  the staged product at the first point, one whole-row piece for each running sum at every point.
-/
import proofs.«148319_g18880676233904_cont_8to1_729_7_alg».proof.Proof.KBodyFirst
import proofs.«148319_g18880676233904_cont_8to1_729_7_alg».proof.Proof.KBodyMiddle
import proofs.«148319_g18880676233904_cont_8to1_729_7_alg».proof.Proof.KBodyLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

theorem coverT_first (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : condFirst i) (hc2 : ¬condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (y : S4096x512.Idx) :
    ∃ pc ∈ (runFirst c i arg1 harg1 arg2 harg2 arg3 harg3 arg4 harg4 arg5 harg5 arg6 harg6 arg7 harg7 arg8 harg8 arg9 harg9 arg10 harg10 arg11 harg11 hc0 hc2 hc3 x0 x1 x2 x3 x4 x5 x6).1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc0 hc2 hc3 x0 x1 x2 x3 x4 x5 x6).1 S512x512.size (by sl_kernel_rfl) y

theorem coverS_first (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : condFirst i) (hc2 : ¬condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (y : S1x512.Idx) :
    ∃ pc ∈ (runFirst c i arg1 harg1 arg2 harg2 arg3 harg3 arg4 harg4 arg5 harg5 arg6 harg6 arg7 harg7 arg8 harg8 arg9 harg9 arg10 harg10 arg11 harg11 hc0 hc2 hc3 x0 x1 x2 x3 x4 x5 x6).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc0 hc2 hc3 x0 x1 x2 x3 x4 x5 x6).2.1 S1x512.size (by sl_kernel_rfl) y

theorem coverQ_first (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : condFirst i) (hc2 : ¬condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (y : S1x512.Idx) :
    ∃ pc ∈ (runFirst c i arg1 harg1 arg2 harg2 arg3 harg3 arg4 harg4 arg5 harg5 arg6 harg6 arg7 harg7 arg8 harg8 arg9 harg9 arg10 harg10 arg11 harg11 hc0 hc2 hc3 x0 x1 x2 x3 x4 x5 x6).2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc0 hc2 hc3 x0 x1 x2 x3 x4 x5 x6).2.2.1 S1x512.size (by sl_kernel_rfl) y

theorem coverS_middle (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs xq : Vec F S1x512 .f32) (y : S1x512.Idx) :
    ∃ pc ∈ (runMiddle c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).1, y ∈ pc.1.set :=
  View.cover_of_tiledL (runMiddle c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).1 S1x512.size (by sl_kernel_rfl) y

theorem coverQ_middle (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs xq : Vec F S1x512 .f32) (y : S1x512.Idx) :
    ∃ pc ∈ (runMiddle c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).2.1, y ∈ pc.1.set :=
  View.cover_of_tiledL (runMiddle c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).2.1 S1x512.size (by sl_kernel_rfl) y

theorem coverS_last (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs xq : Vec F S1x512 .f32) (y : S1x512.Idx) :
    ∃ pc ∈ (runLast c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).1, y ∈ pc.1.set :=
  View.cover_of_tiledL (runLast c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).1 S1x512.size (by sl_kernel_rfl) y

theorem coverQ_last (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs xq : Vec F S1x512 .f32) (y : S1x512.Idx) :
    ∃ pc ∈ (runLast c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).2.1, y ∈ pc.1.set :=
  View.cover_of_tiledL (runLast c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).2.1 S1x512.size (by sl_kernel_rfl) y

end Cert.Kernel.Body

end
-- ==== Proof.KObligation.lean ====
/-
  The body obligation of the fused kernel's pipeline, the launch, and the frame: every weakly fair execution of
  the program terminates without a fault and leaves the argument arrays unchanged; the output array ends at some
  contents related, point by point, to what each point found in the resident buffer.
-/
import proofs.«148319_g18880676233904_cont_8to1_729_7_alg».proof.Proof.KData
import proofs.«148319_g18880676233904_cont_8to1_729_7_alg».proof.Proof.KCovers

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]

/-- Each input's current staging buffer holds its block at every point, fetched there or not. -/
theorem before_in0 (c : Dev nD) (t : Fin cfg0.N) (d) : (dats m 0 c).before 0 t d = iblk m c 0 t := before0_0_of m (dats m 0 c) (A_eq m c 0) (after_in0 m c) t d
theorem before_in1 (c : Dev nD) (t : Fin cfg0.N) (d) : (dats m 0 c).before 1 t d = iblk m c 1 t := before0_1_of m (dats m 0 c) (A_eq m c 1) (after_in1 m c) t d
theorem before_in2 (c : Dev nD) (t : Fin cfg0.N) (d) : (dats m 0 c).before 2 t d = iblk m c 2 t := before0_2_of m (dats m 0 c) (A_eq m c 2) (after_in2 m c) t d
theorem before_in3 (c : Dev nD) (t : Fin cfg0.N) (d) : (dats m 0 c).before 3 t d = iblk m c 3 t := before0_3_of m (dats m 0 c) (A_eq m c 3) (after_in3 m c) t d
theorem before_in4 (c : Dev nD) (t : Fin cfg0.N) (d) : (dats m 0 c).before 4 t d = iblk m c 4 t := before0_4_of m (dats m 0 c) (A_eq m c 4) (after_in4 m c) t d
theorem before_in5 (c : Dev nD) (t : Fin cfg0.N) (d) : (dats m 0 c).before 5 t d = iblk m c 5 t := before0_5_of m (dats m 0 c) (A_eq m c 5) (after_in5 m c) t d
theorem before_in6 (c : Dev nD) (t : Fin cfg0.N) (d) : (dats m 0 c).before 6 t d = iblk m c 6 t := before0_6_of m (dats m 0 c) (A_eq m c 6) (after_in6 m c) t d

set_option maxHeartbeats 4000000 in
/-- The body at any point, the inputs' buffers at their blocks and the resident output buffer at any contents `Y7`:
    the point's case is decided by its position; the invariant hands the scratch over at what the point before left
    (at anything before the first point) and takes it back at this point's contents; the output buffer comes back
    at `outAfter t Y7`. -/
theorem sound_body (c : Dev nD) (t : Fin cfg0.N) (Y7 : Vec F S4096x512 .f32) :
    iprop(PhiS m c t.val (Nat.le_of_lt t.isLt) ∗ (rdat m c).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare Y7)
      ⊢ wp frame (wpE (defs₀ (F := F)) Variants.none c none) Set.univ (bodyAt0 t) (fun _ =>
        iprop(PhiS m c (t.val + 1) t.isLt ∗ (rdat m c).owesAt () t.castSucc
          ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (outAfter m c t Y7))) := by
  unfold bodyAt0
  rw [PhiS_succ]
  by_cases h0 : t.val = 0
  · rw [PhiS_zero m c _ _ h0, PhiA_eq, scrAt_first m c t h0]; dsimp only
    have hO : outAfter m c t Y7 = (ms7 t).view.read (Elt F) ((ms7 t).view.writes (Elt F) ((hs7 t).unread Y7) ((firstAt m c t h0).2.2.2.1 Y7)) := by
      unfold outAfter outPieces; rw [dif_pos h0]
    rw [hO]
    iintro ⟨⟨⟨HS0, HS1, HS2⟩, Hg⟩, Ho, H0, H1, H2, H3, H4, H5, H6, H7⟩
    iapply ((firstAt m c t h0).2.2.2.2 Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverT_first (F := F) c _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverS_first (F := F) c _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (coverQ_first (F := F) c _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m c _ _ h0]
    by_cases h7 : t.val = 7
    · rw [scrAt_last m c t h7]; dsimp only
      have hO : outAfter m c t Y7 = (ms7 t).view.read (Elt F) ((ms7 t).view.writes (Elt F) ((hs7 t).unread Y7) ((lastAt m c t h7 (scrBefore m c t h0).1 (scrBefore m c t h0).2.1 (scrBefore m c t h0).2.2).2.2.1 Y7)) := by
        unfold outAfter outPieces; rw [dif_neg h0, dif_pos h7]
      rw [hO]
      iintro ⟨⟨⟨HS0, HS1, HS2⟩, Hg⟩, Ho, H0, H1, H2, H3, H4, H5, H6, H7⟩
      iapply ((lastAt m c t h7 (scrBefore m c t h0).1 (scrBefore m c t h0).2.1 (scrBefore m c t h0).2.2).2.2.2 Y7 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, ⟨%es1, HS1⟩, ⟨%es2, HS2⟩⟩
      isplitl [HS0 HS1 HS2 Hg]
      · isplitl [HS0 HS1 HS2]
        · isplitl [HS0]
          · iexact HS0
          isplitl [HS1]
          · unfold owns; iexists _; isplitr
            swap; · iexact HS1
            ipureintro; exact View.read_writes_of_cover _ _ _ _ _ (coverS_last (F := F) c _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (coverQ_last (F := F) c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [scrAt_middle m c t h0 h7]; dsimp only
      have hO : outAfter m c t Y7 = (ms7 t).view.read (Elt F) ((ms7 t).view.writes (Elt F) ((hs7 t).unread Y7) ((middleAt m c t h0 h7 (scrBefore m c t h0).1 (scrBefore m c t h0).2.1 (scrBefore m c t h0).2.2).2.2.1 Y7)) := by
        unfold outAfter outPieces; rw [dif_neg h0, dif_neg h7]
      rw [hO]
      iintro ⟨⟨⟨HS0, HS1, HS2⟩, Hg⟩, Ho, H0, H1, H2, H3, H4, H5, H6, H7⟩
      iapply ((middleAt m c t h0 h7 (scrBefore m c t h0).1 (scrBefore m c t h0).2.1 (scrBefore m c t h0).2.2).2.2.2 Y7 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, ⟨%es1, HS1⟩, ⟨%es2, HS2⟩⟩
      isplitl [HS0 HS1 HS2 Hg]
      · isplitl [HS0 HS1 HS2]
        · isplitl [HS0]
          · iexact HS0
          isplitl [HS1]
          · unfold owns; iexists _; isplitr
            swap; · iexact HS1
            ipureintro; exact View.read_writes_of_cover _ _ _ _ _ (coverS_middle (F := F) c _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (coverQ_middle (F := F) c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

end Cert.Kernel.Body

end
-- ==== Proof.KFrame.lean ====
/-
  From the body at a point to the launch: the relational body obligation of the pipeline, what the invariant is
  at the region's entry and exit, the run of the whole program, and its frame.
-/
import proofs.«148319_g18880676233904_cont_8to1_729_7_alg».proof.Proof.KObligation

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! An input window's current buffer is found at its block, and left there. -/
theorem found_in0 (c : Dev nD) (t : Fin cfg0.N) (X) (h : (rdat m c).Finds 0 t X) : X = iblk m c 0 t := by
  obtain ⟨d, rfl⟩ := (dats m 0 c).toR_finds 0 t X ((RDat.override_finds (rd := (dats m 0 c).toR) (w := (0 : Fin cfg0.W)) rfl t X).mp h)
  exact before_in0 m c t d
theorem leaves_in0 (c : Dev nD) (t : Fin cfg0.N) (Y) : (rdat m c).after 0 t Y (iblk m c 0 t) := by
  show (dats m 0 c).Leaves 0 t (iblk m c 0 t)
  exact (after_in0 m c t).symm
theorem found_in1 (c : Dev nD) (t : Fin cfg0.N) (X) (h : (rdat m c).Finds 1 t X) : X = iblk m c 1 t := by
  obtain ⟨d, rfl⟩ := (dats m 0 c).toR_finds 1 t X ((RDat.override_finds (rd := (dats m 0 c).toR) (w := (1 : Fin cfg0.W)) rfl t X).mp h)
  exact before_in1 m c t d
theorem leaves_in1 (c : Dev nD) (t : Fin cfg0.N) (Y) : (rdat m c).after 1 t Y (iblk m c 1 t) := by
  show (dats m 0 c).Leaves 1 t (iblk m c 1 t)
  exact (after_in1 m c t).symm
theorem found_in2 (c : Dev nD) (t : Fin cfg0.N) (X) (h : (rdat m c).Finds 2 t X) : X = iblk m c 2 t := by
  obtain ⟨d, rfl⟩ := (dats m 0 c).toR_finds 2 t X ((RDat.override_finds (rd := (dats m 0 c).toR) (w := (2 : Fin cfg0.W)) rfl t X).mp h)
  exact before_in2 m c t d
theorem leaves_in2 (c : Dev nD) (t : Fin cfg0.N) (Y) : (rdat m c).after 2 t Y (iblk m c 2 t) := by
  show (dats m 0 c).Leaves 2 t (iblk m c 2 t)
  exact (after_in2 m c t).symm
theorem found_in3 (c : Dev nD) (t : Fin cfg0.N) (X) (h : (rdat m c).Finds 3 t X) : X = iblk m c 3 t := by
  obtain ⟨d, rfl⟩ := (dats m 0 c).toR_finds 3 t X ((RDat.override_finds (rd := (dats m 0 c).toR) (w := (3 : Fin cfg0.W)) rfl t X).mp h)
  exact before_in3 m c t d
theorem leaves_in3 (c : Dev nD) (t : Fin cfg0.N) (Y) : (rdat m c).after 3 t Y (iblk m c 3 t) := by
  show (dats m 0 c).Leaves 3 t (iblk m c 3 t)
  exact (after_in3 m c t).symm
theorem found_in4 (c : Dev nD) (t : Fin cfg0.N) (X) (h : (rdat m c).Finds 4 t X) : X = iblk m c 4 t := by
  obtain ⟨d, rfl⟩ := (dats m 0 c).toR_finds 4 t X ((RDat.override_finds (rd := (dats m 0 c).toR) (w := (4 : Fin cfg0.W)) rfl t X).mp h)
  exact before_in4 m c t d
theorem leaves_in4 (c : Dev nD) (t : Fin cfg0.N) (Y) : (rdat m c).after 4 t Y (iblk m c 4 t) := by
  show (dats m 0 c).Leaves 4 t (iblk m c 4 t)
  exact (after_in4 m c t).symm
theorem found_in5 (c : Dev nD) (t : Fin cfg0.N) (X) (h : (rdat m c).Finds 5 t X) : X = iblk m c 5 t := by
  obtain ⟨d, rfl⟩ := (dats m 0 c).toR_finds 5 t X ((RDat.override_finds (rd := (dats m 0 c).toR) (w := (5 : Fin cfg0.W)) rfl t X).mp h)
  exact before_in5 m c t d
theorem leaves_in5 (c : Dev nD) (t : Fin cfg0.N) (Y) : (rdat m c).after 5 t Y (iblk m c 5 t) := by
  show (dats m 0 c).Leaves 5 t (iblk m c 5 t)
  exact (after_in5 m c t).symm
theorem found_in6 (c : Dev nD) (t : Fin cfg0.N) (X) (h : (rdat m c).Finds 6 t X) : X = iblk m c 6 t := by
  obtain ⟨d, rfl⟩ := (dats m 0 c).toR_finds 6 t X ((RDat.override_finds (rd := (dats m 0 c).toR) (w := (6 : Fin cfg0.W)) rfl t X).mp h)
  exact before_in6 m c t d
theorem leaves_in6 (c : Dev nD) (t : Fin cfg0.N) (Y) : (rdat m c).after 6 t Y (iblk m c 6 t) := by
  show (dats m 0 c).Leaves 6 t (iblk m c 6 t)
  exact (after_in6 m c t).symm

/-- The output window's relation is `outRel`. -/
theorem after_out (c : Dev nD) (t : Fin cfg0.N) (Y X) : (rdat m c).after 7 t Y X ↔ X = outAfter m c t Y := Iff.rfl

set_option maxHeartbeats 2000000 in
/-- The relational body obligation, at every point: whatever the windows' buffers may hold there (the inputs: their
    blocks; the resident output: anything it may hold), the body runs to the next point's invariant and leaves
    every buffer in its relation to what it found. -/
theorem body_obligation (c : Dev nD) : (rdat m c).BodyObligation (defs₀ (F := F)) Variants.none () Set.univ := fun t Y hY => by
  have e0 := found_in0 m c t (Y 0) (hY 0)
  have e1 := found_in1 m c t (Y 1) (hY 1)
  have e2 := found_in2 m c t (Y 2) (hY 2)
  have e3 := found_in3 m c t (Y 3) (hY 3)
  have e4 := found_in4 m c t (Y 4) (hY 4)
  have e5 := found_in5 m c t (Y 5) (hY 5)
  have e6 := found_in6 m c t (Y 6) (hY 6)
  rw [bigSep_W0, bigSep_W0, e0, e1, e2, e3, e4, e5, e6]
  rw [show (rdat m c).Φ t.castSucc = PhiS m c t.val (Nat.le_of_lt t.isLt) from rfl, show (rdat m c).Φ t.succ = PhiS m c (t.val + 1) t.isLt from rfl,
    show (rdat m c).owesAt () t.succ = (rdat m c).owesAt () t.castSucc from rfl]
  refine BIBase.Entails.trans ?_ ((sound_body m c t (Y 7)).trans (wp_mono _ _ _ fun _ => ?_))
  · iintro ⟨HΦ, Ho, H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨HΦ, Ho, H0, H1, H2, H3, H4, H5, H6, H7⟩
    isplitl [HΦ]; · iexact HΦ
    isplitl [Ho]; · iexact Ho
    isplitl [H0]
    · iexists _; isplitr; · ipureintro; exact leaves_in0 m c t _
      iexact H0
    isplitl [H1]
    · iexists _; isplitr; · ipureintro; exact leaves_in1 m c t _
      iexact H1
    isplitl [H2]
    · iexists _; isplitr; · ipureintro; exact leaves_in2 m c t _
      iexact H2
    isplitl [H3]
    · iexists _; isplitr; · ipureintro; exact leaves_in3 m c t _
      iexact H3
    isplitl [H4]
    · iexists _; isplitr; · ipureintro; exact leaves_in4 m c t _
      iexact H4
    isplitl [H5]
    · iexists _; isplitr; · ipureintro; exact leaves_in5 m c t _
      iexact H5
    isplitl [H6]
    · iexists _; isplitr; · ipureintro; exact leaves_in6 m c t _
      iexact H6
    iexists _; isplitr; · ipureintro; exact rfl
    iexact H7

/-- What the launch hands the region is the invariant before the first point. -/
theorem hin (c : Dev nD) : Pipeline.ΦA spec0 c ⊢ (rdat m c).Φ 0 := by
  rw [show (rdat m c).Φ 0 = PhiS m c 0 (Nat.zero_le _) from rfl, PhiS_zero m c 0 _ rfl]
  try exact Idealize.SL.BI.Entails.refl _

/-- After any point but none the invariant gives back what the launch lent: the scratch's named contents are forgotten. -/
theorem Phi_out (c : Dev nD) (t : Fin (cfg0.N + 1)) (ht : t.val ≠ 0) : (rdat m c).Φ t ⊢ Pipeline.ΦA spec0 c := by
  rw [show (rdat m c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (rdat m c).Φ (Fin.last cfg0.N) ⊢ Pipeline.ΦA spec0 c :=
  Phi_out m c _ (by rw [Fin.val_last]; have : cfg0.N = 8 := N_0; omega)

set_option backward.isDefEq.respectTransparency.types false in
/-- The run: every weakly fair execution of the program terminates; every windowed array ends at contents the
    proof data allows (an input: its entry contents; the output: the chain of the points' relations), every
    other unscoped buffer as the region found it. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun c w => A_eq m c w) (hin := hin m) (hout := hout m)

/-- The run, restated at the program's own buffers: the output array ends at contents the chain of the points'
    relations allows, and the seven argument arrays end unchanged. -/
theorem run_out : θ_run defs (onTc (τ := τ) (main (F := F))) ⟨m, fun _ => 0, ρ⟩ (fun r => ∀ c : Dev nD,
      (rdat m c).ArrAt 7 cfg0.N (r.2.mem ((c.tc : Thread nD τ).loc main_v3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 7, (Eq.mp (congrFun ((rdat m c).ArrAt_in 1 rfl _) _) ((h c).1 1)).trans ((A_eq m c 1).trans (V_main_arg0 m c)),
      (Eq.mp (congrFun ((rdat m c).ArrAt_in 2 rfl _) _) ((h c).1 2)).trans ((A_eq m c 2).trans (V_main_arg1 m c)),
      (Eq.mp (congrFun ((rdat m c).ArrAt_in 0 rfl _) _) ((h c).1 0)).trans ((A_eq m c 0).trans (V_main_arg2 m c)),
      (Eq.mp (congrFun ((rdat m c).ArrAt_in 3 rfl _) _) ((h c).1 3)).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

/-- The frame: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_out m ρ)

end Cert.Kernel.Body

end
-- ==== Proof.KIBodyCommon.lean ====
/-
  The branch conditions of the fused body, decided over the eight grid points, and the memrefs the pipeline
  hands the body at a point. The body stages t = x1 · W_top at the first point only, accumulates the column
  sums at the first point (store) and at every later one (add), and normalises the whole output at the
  last point only.
-/
import proofs.«148319_g18880676233904_cont_8to1_729_7_alg».proof.Proof.Gen.KernelIdeal.Frame
import proofs.«148319_g18880676233904_cont_8to1_729_7_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

/-- "This is the first grid point", as the body's first conditional computes it from the grid coordinate. -/
abbrev condFirst (i : grid0.Coords) : Prop := (Scalar.cmpi .ne (Scalar.extui (Scalar.cmpi .eq (BitVec.ofNat 32 (i 0).val) 0#32)) 0#32) = 1#1
theorem condFirst_iff : ∀ t : Fin cfg0.N, condFirst (grid0.coords t) ↔ t.val = 0 :=
  (by decide +kernel : ∀ t : Fin grid0.N, condFirst (grid0.coords t) ↔ t.val = 0)

/-- "This is a later grid point" (coordinate > 0, signed). -/
abbrev condLater (i : grid0.Coords) : Prop := (Scalar.cmpi .ne (Scalar.extui (Scalar.cmpi .sgt (BitVec.ofNat 32 (i 0).val) 0#32)) 0#32) = 1#1
theorem condLater_iff : ∀ t : Fin cfg0.N, condLater (grid0.coords t) ↔ 1 ≤ t.val :=
  (by decide +kernel : ∀ t : Fin grid0.N, condLater (grid0.coords t) ↔ 1 ≤ t.val)

/-- "This is the last grid point" (coordinate = 7). -/
abbrev condLast (i : grid0.Coords) : Prop := (Scalar.cmpi .ne (Scalar.extui (Scalar.cmpi .eq (BitVec.ofNat 32 (i 0).val) 7#32)) 0#32) = 1#1
theorem condLast_iff : ∀ t : Fin cfg0.N, condLast (grid0.coords t) ↔ t.val = 7 :=
  (by decide +kernel : ∀ t : Fin grid0.N, condLast (grid0.coords t) ↔ t.val = 7)

/-- Each window's current staging memref at point `t`, as the pipeline passes it to the body, and its wholeness. -/
abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x512 .f32 := win0_7.stage (cfg0.slots t 7)
abbrev hs7 (t : Fin cfg0.N) : (ms7 t).IsWhole := hstage0_7 ((cfg0.slots t 7).cast nbuf0_7)

/-- The three scratch operands: the staged product t, the running column sum, the running column sum of squares. -/
abbrev scT : Memref sig .tc .vmem S4096x512 .bf16 := Memref.whole cc0_scratch0
abbrev scS : Memref sig .tc .vmem S1x512 .f32 := Memref.whole cc0_scratch1
abbrev scQ : Memref sig .tc .vmem S1x512 .f32 := Memref.whole cc0_scratch2

/-- What the launch lends the region besides the windows: the three scratch buffers at some contents and the
    generator register at some state. -/
theorem PhiA_eq (c : Dev nD) :
    (Pipeline.ΦA spec0 c : sProp 𝕄)
      = iprop(iprop((∃ d, owns (c : Thread nD τ) scT fullShare d) ∗ (∃ d, owns (c : Thread nD τ) scS fullShare d) ∗ (∃ d, owns (c : Thread nD τ) scQ fullShare d)) ∗ (∃ r, prngReg c r)) := by
  unfold Pipeline.ΦA; rw [scopedRest0_eq]; simp only [scT, scS, scQ, owns_whole]; try rfl

end Cert.KernelIdeal.Body

end
-- ==== Proof.KIBodyFirst.lean ====
/-
  The body at the first grid point: it stages t = x1 · W_top into the first scratch (eight row blocks of 512),
  stores its 512 rows of y into rows 0 … 511 of the resident output, and initialises the two running column sums
  with this block's sums of y and of y².
-/
import proofs.«148319_g18880676233904_cont_8to1_729_7_alg».proof.Proof.KIBodyCommon

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

set_option maxHeartbeats 2000000 in
/-- The body's run at the first point, on whole memrefs: the inputs at their blocks, the three scratch buffers at
    anything, the output buffer at any contents `xo`. It ends with the inputs as they were, each scratch rewritten
    whole (pieces `LT`, `LS`, `LQ`, found by the run), and the output buffer with the pieces `LO xo` over `xo`. -/
noncomputable def runFirst (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : condFirst i) (hc2 : ¬condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) :
    Σ' (LT : List (View.Piece (Elt F) S4096x512 .bf16)), Σ' (LS : List (View.Piece (Elt F) S1x512 .f32)), Σ' (LQ : List (View.Piece (Elt F) S1x512 .f32)), { LO : Vec F S4096x512 .f32 → List (View.Piece (Elt F) S4096x512 .f32) //
      ∀ (xo : Vec F S4096x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (arg8.view.read (Elt F) (arg8.view.writes (Elt F) (harg8.unread xo) (LO xo)))
              ∗ (∃ f, arg9.view.loc (c : Thread nD τ) ↦[arg9.view.set]{fullShare} arg9.view.writes (Elt F) f LT) ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LQ)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, ?_, fun xo E K => ?run⟩
  case run =>
    simp only [cc0__fused_kernel_eq_skeleton]; unfold cc0__fused_kernel_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; rfl
    isplitl [HS0]; · iexists _; iexact HS0
    isplitl [HS1]; · iexists _; iexact HS1
    iexists _; iexact HS2

end Cert.KernelIdeal.Body

end
-- ==== Proof.KIBodyMiddle.lean ====
/-
  The body at a middle grid point (neither the first nor the last): it stores its 512 rows of
  y = am_block · t + x2_block · W_bottom + b into the resident output at the rows of its block, and adds the
  block's column sums of y and of y² to the two running sums. The staged product t is only read.
-/
import proofs.«148319_g18880676233904_cont_8to1_729_7_alg».proof.Proof.KIBodyCommon

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

set_option maxHeartbeats 1000000 in
/-- The body's run at a middle point, on whole memrefs: the inputs at their blocks, the staged product at `xt`, the
    running sums at `xs`, `xq`, the output buffer at any contents `xo`. It ends with the inputs and the staged
    product as they were, each running sum rewritten whole (pieces `LS`, `LQ`: found by the run, they do not depend
    on `xo`), and the output buffer with the pieces `LO xo` written over `xo`. -/
noncomputable def runMiddle (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs : Vec F S1x512 .f32) (xq : Vec F S1x512 .f32) :
    Σ' (LS : List (View.Piece (Elt F) S1x512 .f32)), Σ' (LQ : List (View.Piece (Elt F) S1x512 .f32)), { LO : Vec F S4096x512 .f32 → List (View.Piece (Elt F) S4096x512 .f32) //
      ∀ (xo : Vec F S4096x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare xt ∗ owns (c : Thread nD τ) arg10 fullShare xs ∗ owns (c : Thread nD τ) arg11 fullShare xq
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (arg8.view.read (Elt F) (arg8.view.writes (Elt F) (harg8.unread xo) (LO xo)))
              ∗ owns (c : Thread nD τ) arg9 fullShare xt ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LQ)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, fun xo E K => ?run⟩
  case run =>
    simp only [cc0__fused_kernel_eq_skeleton]; unfold cc0__fused_kernel_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2
    sl_exec (disch := first | exact hc0 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; rfl
    isplitl [HS0]
    · iexists _; isplitr; · ipureintro; exact harg9.read_unread _
      iexact HS0
    isplitl [HS1]; · iexists _; iexact HS1
    iexists _; iexact HS2

end Cert.KernelIdeal.Body

end
-- ==== Proof.KIBodyLast.lean ====
/-
  The body at the last grid point: as at a middle point it stores its rows of y and adds its column sums to the
  running sums; then it forms mean = sum · 2⁻¹², var = sumsq · 2⁻¹² − mean², scale = rsqrt(var + ε) · γ,
  shift = β − mean · scale, and rewrites every row block of the resident output as max(block · scale + shift, 0).
-/
import proofs.«148319_g18880676233904_cont_8to1_729_7_alg».proof.Proof.KIBodyCommon

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

set_option maxHeartbeats 2000000 in
/-- The body's run at the last point, on whole memrefs: the inputs at their blocks, the staged product at `xt`, the
    running sums at `xs`, `xq`, the output buffer at any contents `xo`. It ends with the inputs and the staged
    product as they were, each running sum rewritten whole (pieces `LS`, `LQ`), and the output buffer with the
    pieces `LO xo` written over `xo`: this block's rows of y, then the eight normalised row blocks. -/
noncomputable def runLast (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs : Vec F S1x512 .f32) (xq : Vec F S1x512 .f32) :
    Σ' (LS : List (View.Piece (Elt F) S1x512 .f32)), Σ' (LQ : List (View.Piece (Elt F) S1x512 .f32)), { LO : Vec F S4096x512 .f32 → List (View.Piece (Elt F) S4096x512 .f32) //
      ∀ (xo : Vec F S4096x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare xt ∗ owns (c : Thread nD τ) arg10 fullShare xs ∗ owns (c : Thread nD τ) arg11 fullShare xq
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (arg8.view.read (Elt F) (arg8.view.writes (Elt F) (harg8.unread xo) (LO xo)))
              ∗ owns (c : Thread nD τ) arg9 fullShare xt ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LQ)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K } := by
  refine ⟨?_, ?_, ?_, fun xo E K => ?run⟩
  case run =>
    simp only [cc0__fused_kernel_eq_skeleton]; unfold cc0__fused_kernel_skel
    simp only [k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0; obtain rfl := harg10.eq_unread hfs1; obtain rfl := harg11.eq_unread hfs2
    sl_exec (disch := first | exact hc0 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; swap; · iexact H7
      ipureintro; rfl
    isplitl [HS0]
    · iexists _; isplitr; · ipureintro; exact harg9.read_unread _
      iexact HS0
    isplitl [HS1]; · iexists _; iexact HS1
    iexists _; iexact HS2

end Cert.KernelIdeal.Body

end
-- ==== Proof.KIData.lean ====
/-
  The proof data of the fused kernel's pipeline. The three scratch buffers are carried from grid point to grid
  point: the staged product t is written at the first point and only read afterwards; the two running column
  sums are rewritten at every point. Their contents after each point are named by recursion on the point. The
  resident output buffer is written 512 rows at a time and is never whole before the last point, so what a point
  leaves in it is stated as a relation between what the point found there and what it left: the found contents
  with the point's pieces written over them.
-/
import proofs.«148319_g18880676233904_cont_8to1_729_7_alg».proof.Proof.KIBodyFirst
import proofs.«148319_g18880676233904_cont_8to1_729_7_alg».proof.Proof.KIBodyMiddle
import proofs.«148319_g18880676233904_cont_8to1_729_7_alg».proof.Proof.KIBodyLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-- The run of the first point on the pipeline's memrefs and the windows' blocks. -/
abbrev firstAt (c : Dev nD) (t : Fin cfg0.N) (h0 : t.val = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _)
    ((condFirst_iff t).mpr h0) (fun h => absurd ((condLater_iff t).mp h) (by omega)) (fun h => absurd ((condLast_iff t).mp h) (by omega))
    (iblk m c 0 t) (iblk m c 1 t) (iblk m c 2 t) (iblk m c 3 t) (iblk m c 4 t) (iblk m c 5 t) (iblk m c 6 t)

/-- The run of a middle point on the pipeline's memrefs and the windows' blocks, the scratch at given contents. -/
abbrev middleAt (c : Dev nD) (t : Fin cfg0.N) (h0 : t.val ≠ 0) (h7 : t.val ≠ 7) (xt : Vec F S4096x512 .bf16) (xs xq : Vec F S1x512 .f32) :=
  runMiddle (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _)
    (fun h => h0 ((condFirst_iff t).mp h)) ((condLater_iff t).mpr (by omega)) (fun h => h7 ((condLast_iff t).mp h))
    (iblk m c 0 t) (iblk m c 1 t) (iblk m c 2 t) (iblk m c 3 t) (iblk m c 4 t) (iblk m c 5 t) (iblk m c 6 t) xt xs xq

/-- The run of the last point on the pipeline's memrefs and the windows' blocks, the scratch at given contents. -/
abbrev lastAt (c : Dev nD) (t : Fin cfg0.N) (h7 : t.val = 7) (xt : Vec F S4096x512 .bf16) (xs xq : Vec F S1x512 .f32) :=
  runLast (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _)
    (fun h => absurd ((condFirst_iff t).mp h) (by omega)) ((condLater_iff t).mpr (by omega)) ((condLast_iff t).mpr h7)
    (iblk m c 0 t) (iblk m c 1 t) (iblk m c 2 t) (iblk m c 3 t) (iblk m c 4 t) (iblk m c 5 t) (iblk m c 6 t) xt xs xq

/-- What the three scratch buffers (the staged product, the running sum, the running sum of squares) hold after
    the body at position `n`: the pieces that point's run wrote, read back (they cover each buffer it rewrites). -/
def scrAt (c : Dev nD) : (n : ℕ) → n < cfg0.N → Vec F S4096x512 .bf16 × Vec F S1x512 .f32 × Vec F S1x512 .f32
  | 0, hn =>
    (scT.view.read (Elt F) (scT.view.writes (Elt F) scT.view.junk (firstAt m c ⟨0, hn⟩ rfl).1),
     scS.view.read (Elt F) (scS.view.writes (Elt F) scS.view.junk (firstAt m c ⟨0, hn⟩ rfl).2.1),
     scQ.view.read (Elt F) (scQ.view.writes (Elt F) scQ.view.junk (firstAt m c ⟨0, hn⟩ rfl).2.2.1))
  | n + 1, hn =>
    if h7 : n + 1 = 7 then
      ((scrAt c n (Nat.lt_of_succ_lt hn)).1,
       scS.view.read (Elt F) (scS.view.writes (Elt F) scS.view.junk (lastAt m c ⟨n + 1, hn⟩ h7 (scrAt c n (Nat.lt_of_succ_lt hn)).1 (scrAt c n (Nat.lt_of_succ_lt hn)).2.1 (scrAt c n (Nat.lt_of_succ_lt hn)).2.2).1),
       scQ.view.read (Elt F) (scQ.view.writes (Elt F) scQ.view.junk (lastAt m c ⟨n + 1, hn⟩ h7 (scrAt c n (Nat.lt_of_succ_lt hn)).1 (scrAt c n (Nat.lt_of_succ_lt hn)).2.1 (scrAt c n (Nat.lt_of_succ_lt hn)).2.2).2.1))
    else
      ((scrAt c n (Nat.lt_of_succ_lt hn)).1,
       scS.view.read (Elt F) (scS.view.writes (Elt F) scS.view.junk (middleAt m c ⟨n + 1, hn⟩ (Nat.succ_ne_zero n) h7 (scrAt c n (Nat.lt_of_succ_lt hn)).1 (scrAt c n (Nat.lt_of_succ_lt hn)).2.1 (scrAt c n (Nat.lt_of_succ_lt hn)).2.2).1),
       scQ.view.read (Elt F) (scQ.view.writes (Elt F) scQ.view.junk (middleAt m c ⟨n + 1, hn⟩ (Nat.succ_ne_zero n) h7 (scrAt c n (Nat.lt_of_succ_lt hn)).1 (scrAt c n (Nat.lt_of_succ_lt hn)).2.1 (scrAt c n (Nat.lt_of_succ_lt hn)).2.2).2.1))

/-- The scratch as a point other than the first finds it: what the point before left. -/
abbrev scrBefore (c : Dev nD) (t : Fin cfg0.N) (h0 : t.val ≠ 0) := scrAt m c (t.val - 1) (Nat.lt_of_le_of_lt (Nat.sub_le _ _) t.isLt)

theorem scrAt_first (c : Dev nD) (t : Fin cfg0.N) (h0 : t.val = 0) :
    scrAt m c t.val t.isLt =
      (scT.view.read (Elt F) (scT.view.writes (Elt F) scT.view.junk (firstAt m c t h0).1),
       scS.view.read (Elt F) (scS.view.writes (Elt F) scS.view.junk (firstAt m c t h0).2.1),
       scQ.view.read (Elt F) (scQ.view.writes (Elt F) scQ.view.junk (firstAt m c t h0).2.2.1)) := by
  obtain ⟨n, hn⟩ := t
  cases n with
  | zero => rfl
  | succ n => exact absurd h0 (Nat.succ_ne_zero n)

theorem scrAt_middle (c : Dev nD) (t : Fin cfg0.N) (h0 : t.val ≠ 0) (h7 : t.val ≠ 7) :
    scrAt m c t.val t.isLt =
      ((scrBefore m c t h0).1,
       scS.view.read (Elt F) (scS.view.writes (Elt F) scS.view.junk (middleAt m c t h0 h7 (scrBefore m c t h0).1 (scrBefore m c t h0).2.1 (scrBefore m c t h0).2.2).1),
       scQ.view.read (Elt F) (scQ.view.writes (Elt F) scQ.view.junk (middleAt m c t h0 h7 (scrBefore m c t h0).1 (scrBefore m c t h0).2.1 (scrBefore m c t h0).2.2).2.1)) := by
  obtain ⟨n, hn⟩ := t
  cases n with
  | zero => exact absurd rfl h0
  | succ n => exact (dif_neg h7).trans rfl

theorem scrAt_last (c : Dev nD) (t : Fin cfg0.N) (h7 : t.val = 7) :
    scrAt m c t.val t.isLt =
      ((scrBefore m c t (by omega)).1,
       scS.view.read (Elt F) (scS.view.writes (Elt F) scS.view.junk (lastAt m c t h7 (scrBefore m c t (by omega)).1 (scrBefore m c t (by omega)).2.1 (scrBefore m c t (by omega)).2.2).1),
       scQ.view.read (Elt F) (scQ.view.writes (Elt F) scQ.view.junk (lastAt m c t h7 (scrBefore m c t (by omega)).1 (scrBefore m c t (by omega)).2.1 (scrBefore m c t (by omega)).2.2).2.1)) := by
  obtain ⟨n, hn⟩ := t
  cases n with
  | zero => exact (by simp at h7)
  | succ n => exact (dif_pos h7).trans rfl

/-- The pieces the body writes into the resident output buffer at point `t`, as a function of what it found there. -/
def outPieces (c : Dev nD) (t : Fin cfg0.N) : Vec F S4096x512 .f32 → List (View.Piece (Elt F) S4096x512 .f32) :=
  if h0 : t.val = 0 then (firstAt m c t h0).2.2.2.1
  else if h7 : t.val = 7 then (lastAt m c t h7 (scrBefore m c t h0).1 (scrBefore m c t h0).2.1 (scrBefore m c t h0).2.2).2.2.1
  else (middleAt m c t h0 h7 (scrBefore m c t h0).1 (scrBefore m c t h0).2.1 (scrBefore m c t h0).2.2).2.2.1

/-- What the body leaves in the resident output buffer at point `t`, given what it found there. -/
def outAfter (c : Dev nD) (t : Fin cfg0.N) (Y : Vec F S4096x512 .f32) : Vec F S4096x512 .f32 :=
  (ms7 t).view.read (Elt F) ((ms7 t).view.writes (Elt F) ((hs7 t).unread Y) (outPieces m c t Y))

/-- The region's invariant before position `n`: before the first point what the launch lends (every scratch at
    anything); afterwards the three scratch buffers at what the point before left, and the generator register. -/
def PhiS (c : Dev nD) : (n : ℕ) → n ≤ cfg0.N → sProp 𝕄
  | 0, _ => Pipeline.ΦA spec0 c
  | n + 1, hn => iprop(iprop(owns (c : Thread nD τ) scT fullShare ((scrAt m c n hn).1) ∗ owns (c : Thread nD τ) scS fullShare ((scrAt m c n hn).2.1) ∗ owns (c : Thread nD τ) scQ fullShare ((scrAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scT fullShare ((scrAt m c n hn).1) ∗ owns (c : Thread nD τ) scS fullShare ((scrAt m c n hn).2.1) ∗ owns (c : Thread nD τ) scQ fullShare ((scrAt m c n hn).2.2)) ∗ (∃ r, prngReg c r)) := rfl

theorem PhiS_pos (c : Dev nD) (n : ℕ) (h : n ≤ cfg0.N) (hz : n ≠ 0) :
    PhiS m c n h = iprop(iprop(owns (c : Thread nD τ) scT fullShare ((scrAt m c (n - 1) (by omega)).1) ∗ owns (c : Thread nD τ) scS fullShare ((scrAt m c (n - 1) (by omega)).2.1) ∗ owns (c : Thread nD τ) scQ fullShare ((scrAt m c (n - 1) (by omega)).2.2)) ∗ (∃ r, prngReg c r)) := by
  cases n with
  | zero => exact absurd rfl hz
  | succ n => rfl

/-- The exact part of the proof data: the arrays as the region finds them; each input's buffer at its block after the
    body; the invariant above; nothing owed. (The output window's entry here is never read: its relation is stated
    below.) -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := PhiS m c t.val (Nat.le_of_lt_succ t.isLt)
  q _ := fullShare
  owed _ := 0

/-- The output window's relation: what the body leaves is what it found with its pieces written over it. -/
def outRel (c : Dev nD) (t : Fin cfg0.N) (Y X : Vec F S4096x512 .f32) : Prop := X = outAfter m c t Y

/-- The proof data, relational at the output window. -/
def rdat (c : Dev nD) : RDat τ (Elt F) Unit ℕ (UR sig nD τ) ℕ cfg0 c :=
  (dats m 0 c).toR.override fun w => match w with
    | ⟨0, _⟩ => none
    | ⟨1, _⟩ => none
    | ⟨2, _⟩ => none
    | ⟨3, _⟩ => none
    | ⟨4, _⟩ => none
    | ⟨5, _⟩ => none
    | ⟨6, _⟩ => none
    | ⟨7, _⟩ => some (outRel m c)

end Cert.KernelIdeal.Body

end
-- ==== Proof.KICovers.lean ====
/-
  The pieces a point's run writes into a scratch buffer it rewrites tile that buffer: eight row blocks of 512 for
  the staged product at the first point, one whole-row piece for each running sum at every point.
-/
import proofs.«148319_g18880676233904_cont_8to1_729_7_alg».proof.Proof.KIBodyFirst
import proofs.«148319_g18880676233904_cont_8to1_729_7_alg».proof.Proof.KIBodyMiddle
import proofs.«148319_g18880676233904_cont_8to1_729_7_alg».proof.Proof.KIBodyLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

theorem coverT_first (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : condFirst i) (hc2 : ¬condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (y : S4096x512.Idx) :
    ∃ pc ∈ (runFirst c i arg1 harg1 arg2 harg2 arg3 harg3 arg4 harg4 arg5 harg5 arg6 harg6 arg7 harg7 arg8 harg8 arg9 harg9 arg10 harg10 arg11 harg11 hc0 hc2 hc3 x0 x1 x2 x3 x4 x5 x6).1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc0 hc2 hc3 x0 x1 x2 x3 x4 x5 x6).1 S512x512.size (by sl_kernel_rfl) y

theorem coverS_first (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : condFirst i) (hc2 : ¬condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (y : S1x512.Idx) :
    ∃ pc ∈ (runFirst c i arg1 harg1 arg2 harg2 arg3 harg3 arg4 harg4 arg5 harg5 arg6 harg6 arg7 harg7 arg8 harg8 arg9 harg9 arg10 harg10 arg11 harg11 hc0 hc2 hc3 x0 x1 x2 x3 x4 x5 x6).2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc0 hc2 hc3 x0 x1 x2 x3 x4 x5 x6).2.1 S1x512.size (by sl_kernel_rfl) y

theorem coverQ_first (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : condFirst i) (hc2 : ¬condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (y : S1x512.Idx) :
    ∃ pc ∈ (runFirst c i arg1 harg1 arg2 harg2 arg3 harg3 arg4 harg4 arg5 harg5 arg6 harg6 arg7 harg7 arg8 harg8 arg9 harg9 arg10 harg10 arg11 harg11 hc0 hc2 hc3 x0 x1 x2 x3 x4 x5 x6).2.2.1, y ∈ pc.1.set :=
  View.cover_of_tiledL (runFirst c i arg1 harg1 arg2 harg2 arg3 harg3 arg4 harg4 arg5 harg5 arg6 harg6 arg7 harg7 arg8 harg8 arg9 harg9 arg10 harg10 arg11 harg11 hc0 hc2 hc3 x0 x1 x2 x3 x4 x5 x6).2.2.1 S1x512.size (by sl_kernel_rfl) y

theorem coverS_middle (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs xq : Vec F S1x512 .f32) (y : S1x512.Idx) :
    ∃ pc ∈ (runMiddle c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).1, y ∈ pc.1.set :=
  View.cover_of_tiledL (runMiddle c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).1 S1x512.size (by sl_kernel_rfl) y

theorem coverQ_middle (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : ¬condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs xq : Vec F S1x512 .f32) (y : S1x512.Idx) :
    ∃ pc ∈ (runMiddle c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).2.1, y ∈ pc.1.set :=
  View.cover_of_tiledL (runMiddle c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).2.1 S1x512.size (by sl_kernel_rfl) y

theorem coverS_last (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs xq : Vec F S1x512 .f32) (y : S1x512.Idx) :
    ∃ pc ∈ (runLast c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).1, y ∈ pc.1.set :=
  View.cover_of_tiledL (runLast c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).1 S1x512.size (by sl_kernel_rfl) y

theorem coverQ_last (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : condLast i)
    (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs xq : Vec F S1x512 .f32) (y : S1x512.Idx) :
    ∃ pc ∈ (runLast c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).2.1, y ∈ pc.1.set :=
  View.cover_of_tiledL (runLast c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).2.1 S1x512.size (by sl_kernel_rfl) y

end Cert.KernelIdeal.Body

end
-- ==== Proof.KIObligation.lean ====
/-
  The body obligation of the fused kernel's pipeline, the launch, and the frame: every weakly fair execution of
  the program terminates without a fault and leaves the argument arrays unchanged; the output array ends at some
  contents related, point by point, to what each point found in the resident buffer.
-/
import proofs.«148319_g18880676233904_cont_8to1_729_7_alg».proof.Proof.KIData
import proofs.«148319_g18880676233904_cont_8to1_729_7_alg».proof.Proof.KICovers

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]

/-- Each input's current staging buffer holds its block at every point, fetched there or not. -/
theorem before_in0 (c : Dev nD) (t : Fin cfg0.N) (d) : (dats m 0 c).before 0 t d = iblk m c 0 t := before0_0_of m (dats m 0 c) (A_eq m c 0) (after_in0 m c) t d
theorem before_in1 (c : Dev nD) (t : Fin cfg0.N) (d) : (dats m 0 c).before 1 t d = iblk m c 1 t := before0_1_of m (dats m 0 c) (A_eq m c 1) (after_in1 m c) t d
theorem before_in2 (c : Dev nD) (t : Fin cfg0.N) (d) : (dats m 0 c).before 2 t d = iblk m c 2 t := before0_2_of m (dats m 0 c) (A_eq m c 2) (after_in2 m c) t d
theorem before_in3 (c : Dev nD) (t : Fin cfg0.N) (d) : (dats m 0 c).before 3 t d = iblk m c 3 t := before0_3_of m (dats m 0 c) (A_eq m c 3) (after_in3 m c) t d
theorem before_in4 (c : Dev nD) (t : Fin cfg0.N) (d) : (dats m 0 c).before 4 t d = iblk m c 4 t := before0_4_of m (dats m 0 c) (A_eq m c 4) (after_in4 m c) t d
theorem before_in5 (c : Dev nD) (t : Fin cfg0.N) (d) : (dats m 0 c).before 5 t d = iblk m c 5 t := before0_5_of m (dats m 0 c) (A_eq m c 5) (after_in5 m c) t d
theorem before_in6 (c : Dev nD) (t : Fin cfg0.N) (d) : (dats m 0 c).before 6 t d = iblk m c 6 t := before0_6_of m (dats m 0 c) (A_eq m c 6) (after_in6 m c) t d

set_option maxHeartbeats 4000000 in
/-- The body at any point, the inputs' buffers at their blocks and the resident output buffer at any contents `Y7`:
    the point's case is decided by its position; the invariant hands the scratch over at what the point before left
    (at anything before the first point) and takes it back at this point's contents; the output buffer comes back
    at `outAfter t Y7`. -/
theorem sound_body (c : Dev nD) (t : Fin cfg0.N) (Y7 : Vec F S4096x512 .f32) :
    iprop(PhiS m c t.val (Nat.le_of_lt t.isLt) ∗ (rdat m c).owesAt () t.castSucc
        ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare Y7)
      ⊢ wp frame (wpE (defs₀ (F := F)) Variants.none c none) Set.univ (bodyAt0 t) (fun _ =>
        iprop(PhiS m c (t.val + 1) t.isLt ∗ (rdat m c).owesAt () t.castSucc
          ∗ owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (outAfter m c t Y7))) := by
  unfold bodyAt0
  rw [PhiS_succ]
  by_cases h0 : t.val = 0
  · rw [PhiS_zero m c _ _ h0, PhiA_eq, scrAt_first m c t h0]; dsimp only
    have hO : outAfter m c t Y7 = (ms7 t).view.read (Elt F) ((ms7 t).view.writes (Elt F) ((hs7 t).unread Y7) ((firstAt m c t h0).2.2.2.1 Y7)) := by
      unfold outAfter outPieces; rw [dif_pos h0]
    rw [hO]
    iintro ⟨⟨⟨HS0, HS1, HS2⟩, Hg⟩, Ho, H0, H1, H2, H3, H4, H5, H6, H7⟩
    iapply ((firstAt m c t h0).2.2.2.2 Y7 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; exact View.read_writes_of_cover _ _ _ _ _ (coverT_first (F := F) c _ _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (coverS_first (F := F) c _ _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (coverQ_first (F := F) c _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_pos m c _ _ h0]
    by_cases h7 : t.val = 7
    · rw [scrAt_last m c t h7]; dsimp only
      have hO : outAfter m c t Y7 = (ms7 t).view.read (Elt F) ((ms7 t).view.writes (Elt F) ((hs7 t).unread Y7) ((lastAt m c t h7 (scrBefore m c t h0).1 (scrBefore m c t h0).2.1 (scrBefore m c t h0).2.2).2.2.1 Y7)) := by
        unfold outAfter outPieces; rw [dif_neg h0, dif_pos h7]
      rw [hO]
      iintro ⟨⟨⟨HS0, HS1, HS2⟩, Hg⟩, Ho, H0, H1, H2, H3, H4, H5, H6, H7⟩
      iapply ((lastAt m c t h7 (scrBefore m c t h0).1 (scrBefore m c t h0).2.1 (scrBefore m c t h0).2.2).2.2.2 Y7 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, ⟨%es1, HS1⟩, ⟨%es2, HS2⟩⟩
      isplitl [HS0 HS1 HS2 Hg]
      · isplitl [HS0 HS1 HS2]
        · isplitl [HS0]
          · iexact HS0
          isplitl [HS1]
          · unfold owns; iexists _; isplitr
            swap; · iexact HS1
            ipureintro; exact View.read_writes_of_cover _ _ _ _ _ (coverS_last (F := F) c _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (coverQ_last (F := F) c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [scrAt_middle m c t h0 h7]; dsimp only
      have hO : outAfter m c t Y7 = (ms7 t).view.read (Elt F) ((ms7 t).view.writes (Elt F) ((hs7 t).unread Y7) ((middleAt m c t h0 h7 (scrBefore m c t h0).1 (scrBefore m c t h0).2.1 (scrBefore m c t h0).2.2).2.2.1 Y7)) := by
        unfold outAfter outPieces; rw [dif_neg h0, dif_neg h7]
      rw [hO]
      iintro ⟨⟨⟨HS0, HS1, HS2⟩, Hg⟩, Ho, H0, H1, H2, H3, H4, H5, H6, H7⟩
      iapply ((middleAt m c t h0 h7 (scrBefore m c t h0).1 (scrBefore m c t h0).2.1 (scrBefore m c t h0).2.2).2.2.2 Y7 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, ⟨%es1, HS1⟩, ⟨%es2, HS2⟩⟩
      isplitl [HS0 HS1 HS2 Hg]
      · isplitl [HS0 HS1 HS2]
        · isplitl [HS0]
          · iexact HS0
          isplitl [HS1]
          · unfold owns; iexists _; isplitr
            swap; · iexact HS1
            ipureintro; exact View.read_writes_of_cover _ _ _ _ _ (coverS_middle (F := F) c _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (coverQ_middle (F := F) c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

end Cert.KernelIdeal.Body

end
-- ==== Proof.KIFrame.lean ====
/-
  From the body at a point to the launch: the relational body obligation of the pipeline, what the invariant is
  at the region's entry and exit, the run of the whole program, and its frame.
-/
import proofs.«148319_g18880676233904_cont_8to1_729_7_alg».proof.Proof.KIObligation

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! An input window's current buffer is found at its block, and left there. -/
theorem found_in0 (c : Dev nD) (t : Fin cfg0.N) (X) (h : (rdat m c).Finds 0 t X) : X = iblk m c 0 t := by
  obtain ⟨d, rfl⟩ := (dats m 0 c).toR_finds 0 t X ((RDat.override_finds (rd := (dats m 0 c).toR) (w := (0 : Fin cfg0.W)) rfl t X).mp h)
  exact before_in0 m c t d
theorem leaves_in0 (c : Dev nD) (t : Fin cfg0.N) (Y) : (rdat m c).after 0 t Y (iblk m c 0 t) := by
  show (dats m 0 c).Leaves 0 t (iblk m c 0 t)
  exact (after_in0 m c t).symm
theorem found_in1 (c : Dev nD) (t : Fin cfg0.N) (X) (h : (rdat m c).Finds 1 t X) : X = iblk m c 1 t := by
  obtain ⟨d, rfl⟩ := (dats m 0 c).toR_finds 1 t X ((RDat.override_finds (rd := (dats m 0 c).toR) (w := (1 : Fin cfg0.W)) rfl t X).mp h)
  exact before_in1 m c t d
theorem leaves_in1 (c : Dev nD) (t : Fin cfg0.N) (Y) : (rdat m c).after 1 t Y (iblk m c 1 t) := by
  show (dats m 0 c).Leaves 1 t (iblk m c 1 t)
  exact (after_in1 m c t).symm
theorem found_in2 (c : Dev nD) (t : Fin cfg0.N) (X) (h : (rdat m c).Finds 2 t X) : X = iblk m c 2 t := by
  obtain ⟨d, rfl⟩ := (dats m 0 c).toR_finds 2 t X ((RDat.override_finds (rd := (dats m 0 c).toR) (w := (2 : Fin cfg0.W)) rfl t X).mp h)
  exact before_in2 m c t d
theorem leaves_in2 (c : Dev nD) (t : Fin cfg0.N) (Y) : (rdat m c).after 2 t Y (iblk m c 2 t) := by
  show (dats m 0 c).Leaves 2 t (iblk m c 2 t)
  exact (after_in2 m c t).symm
theorem found_in3 (c : Dev nD) (t : Fin cfg0.N) (X) (h : (rdat m c).Finds 3 t X) : X = iblk m c 3 t := by
  obtain ⟨d, rfl⟩ := (dats m 0 c).toR_finds 3 t X ((RDat.override_finds (rd := (dats m 0 c).toR) (w := (3 : Fin cfg0.W)) rfl t X).mp h)
  exact before_in3 m c t d
theorem leaves_in3 (c : Dev nD) (t : Fin cfg0.N) (Y) : (rdat m c).after 3 t Y (iblk m c 3 t) := by
  show (dats m 0 c).Leaves 3 t (iblk m c 3 t)
  exact (after_in3 m c t).symm
theorem found_in4 (c : Dev nD) (t : Fin cfg0.N) (X) (h : (rdat m c).Finds 4 t X) : X = iblk m c 4 t := by
  obtain ⟨d, rfl⟩ := (dats m 0 c).toR_finds 4 t X ((RDat.override_finds (rd := (dats m 0 c).toR) (w := (4 : Fin cfg0.W)) rfl t X).mp h)
  exact before_in4 m c t d
theorem leaves_in4 (c : Dev nD) (t : Fin cfg0.N) (Y) : (rdat m c).after 4 t Y (iblk m c 4 t) := by
  show (dats m 0 c).Leaves 4 t (iblk m c 4 t)
  exact (after_in4 m c t).symm
theorem found_in5 (c : Dev nD) (t : Fin cfg0.N) (X) (h : (rdat m c).Finds 5 t X) : X = iblk m c 5 t := by
  obtain ⟨d, rfl⟩ := (dats m 0 c).toR_finds 5 t X ((RDat.override_finds (rd := (dats m 0 c).toR) (w := (5 : Fin cfg0.W)) rfl t X).mp h)
  exact before_in5 m c t d
theorem leaves_in5 (c : Dev nD) (t : Fin cfg0.N) (Y) : (rdat m c).after 5 t Y (iblk m c 5 t) := by
  show (dats m 0 c).Leaves 5 t (iblk m c 5 t)
  exact (after_in5 m c t).symm
theorem found_in6 (c : Dev nD) (t : Fin cfg0.N) (X) (h : (rdat m c).Finds 6 t X) : X = iblk m c 6 t := by
  obtain ⟨d, rfl⟩ := (dats m 0 c).toR_finds 6 t X ((RDat.override_finds (rd := (dats m 0 c).toR) (w := (6 : Fin cfg0.W)) rfl t X).mp h)
  exact before_in6 m c t d
theorem leaves_in6 (c : Dev nD) (t : Fin cfg0.N) (Y) : (rdat m c).after 6 t Y (iblk m c 6 t) := by
  show (dats m 0 c).Leaves 6 t (iblk m c 6 t)
  exact (after_in6 m c t).symm

/-- The output window's relation is `outRel`. -/
theorem after_out (c : Dev nD) (t : Fin cfg0.N) (Y X) : (rdat m c).after 7 t Y X ↔ X = outAfter m c t Y := Iff.rfl

set_option maxHeartbeats 2000000 in
/-- The relational body obligation, at every point: whatever the windows' buffers may hold there (the inputs: their
    blocks; the resident output: anything it may hold), the body runs to the next point's invariant and leaves
    every buffer in its relation to what it found. -/
theorem body_obligation (c : Dev nD) : (rdat m c).BodyObligation (defs₀ (F := F)) Variants.none () Set.univ := fun t Y hY => by
  have e0 := found_in0 m c t (Y 0) (hY 0)
  have e1 := found_in1 m c t (Y 1) (hY 1)
  have e2 := found_in2 m c t (Y 2) (hY 2)
  have e3 := found_in3 m c t (Y 3) (hY 3)
  have e4 := found_in4 m c t (Y 4) (hY 4)
  have e5 := found_in5 m c t (Y 5) (hY 5)
  have e6 := found_in6 m c t (Y 6) (hY 6)
  rw [bigSep_W0, bigSep_W0, e0, e1, e2, e3, e4, e5, e6]
  rw [show (rdat m c).Φ t.castSucc = PhiS m c t.val (Nat.le_of_lt t.isLt) from rfl, show (rdat m c).Φ t.succ = PhiS m c (t.val + 1) t.isLt from rfl,
    show (rdat m c).owesAt () t.succ = (rdat m c).owesAt () t.castSucc from rfl]
  refine BIBase.Entails.trans ?_ ((sound_body m c t (Y 7)).trans (wp_mono _ _ _ fun _ => ?_))
  · iintro ⟨HΦ, Ho, H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨HΦ, Ho, H0, H1, H2, H3, H4, H5, H6, H7⟩
    isplitl [HΦ]; · iexact HΦ
    isplitl [Ho]; · iexact Ho
    isplitl [H0]
    · iexists _; isplitr; · ipureintro; exact leaves_in0 m c t _
      iexact H0
    isplitl [H1]
    · iexists _; isplitr; · ipureintro; exact leaves_in1 m c t _
      iexact H1
    isplitl [H2]
    · iexists _; isplitr; · ipureintro; exact leaves_in2 m c t _
      iexact H2
    isplitl [H3]
    · iexists _; isplitr; · ipureintro; exact leaves_in3 m c t _
      iexact H3
    isplitl [H4]
    · iexists _; isplitr; · ipureintro; exact leaves_in4 m c t _
      iexact H4
    isplitl [H5]
    · iexists _; isplitr; · ipureintro; exact leaves_in5 m c t _
      iexact H5
    isplitl [H6]
    · iexists _; isplitr; · ipureintro; exact leaves_in6 m c t _
      iexact H6
    iexists _; isplitr; · ipureintro; exact rfl
    iexact H7

/-- What the launch hands the region is the invariant before the first point. -/
theorem hin (c : Dev nD) : Pipeline.ΦA spec0 c ⊢ (rdat m c).Φ 0 := by
  rw [show (rdat m c).Φ 0 = PhiS m c 0 (Nat.zero_le _) from rfl, PhiS_zero m c 0 _ rfl]
  try exact Idealize.SL.BI.Entails.refl _

/-- After any point but none the invariant gives back what the launch lent: the scratch's named contents are forgotten. -/
theorem Phi_out (c : Dev nD) (t : Fin (cfg0.N + 1)) (ht : t.val ≠ 0) : (rdat m c).Φ t ⊢ Pipeline.ΦA spec0 c := by
  rw [show (rdat m c).Φ t = PhiS m c t.val (Nat.le_of_lt_succ t.isLt) from rfl, PhiS_pos m c _ _ ht, PhiA_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (rdat m c).Φ (Fin.last cfg0.N) ⊢ Pipeline.ΦA spec0 c :=
  Phi_out m c _ (by rw [Fin.val_last]; have : cfg0.N = 8 := N_0; omega)

set_option backward.isDefEq.respectTransparency.types false in
/-- The run: every weakly fair execution of the program terminates; every windowed array ends at contents the
    proof data allows (an input: its entry contents; the output: the chain of the points' relations), every
    other unscoped buffer as the region found it. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun c w => A_eq m c w) (hin := hin m) (hout := hout m)

/-- The run, restated at the program's own buffers: the output array ends at contents the chain of the points'
    relations allows, and the seven argument arrays end unchanged. -/
theorem run_out : θ_run defs (onTc (τ := τ) (main (F := F))) ⟨m, fun _ => 0, ρ⟩ (fun r => ∀ c : Dev nD,
      (rdat m c).ArrAt 7 cfg0.N (r.2.mem ((c.tc : Thread nD τ).loc main_v3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 7, (Eq.mp (congrFun ((rdat m c).ArrAt_in 1 rfl _) _) ((h c).1 1)).trans ((A_eq m c 1).trans (V_main_arg0 m c)),
      (Eq.mp (congrFun ((rdat m c).ArrAt_in 2 rfl _) _) ((h c).1 2)).trans ((A_eq m c 2).trans (V_main_arg1 m c)),
      (Eq.mp (congrFun ((rdat m c).ArrAt_in 0 rfl _) _) ((h c).1 0)).trans ((A_eq m c 0).trans (V_main_arg2 m c)),
      (Eq.mp (congrFun ((rdat m c).ArrAt_in 3 rfl _) _) ((h c).1 3)).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

/-- The frame: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_out m ρ)

end Cert.KernelIdeal.Body

end
-- ==== Proof.KIValueUnroll.lean ====
/-
  The output array after the run, unrolled. The output window is resident: its block is the whole [4096, 512] array at
  every grid point, it is never fetched, and it is written back once, after the last of the eight points. So the
  array ends holding what the last point left in the staging buffer, and what a point leaves is what it found —
  what the point before left — with its pieces written over it: a chain of eight overwrites of unknown initial
  contents. A property of the buffer that the first point establishes and each later point before the last keeps is
  therefore a property of what the last point finds.
-/
import proofs.«148319_g18880676233904_cont_8to1_729_7_alg».proof.Proof.KIData
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

open Cert.KernelIdeal Cert.KernelIdeal.Gen

variable (m : (ℓ : Loc nD τ sig) → Buf (Elt F) ℓ)

/-- The grid has eight points. -/
theorem N8 : cfg0.N = 8 := N_0

/-- The last grid point. -/
abbrev tL : Fin cfg0.N := ⟨7, by rw [N8]; decide⟩

/-- The output window is never fetched. -/
theorem fetch0_7 : ∀ t : Fin cfg0.N, (cfg0.win 7).fetch t = false :=
  (by decide +kernel : ∀ t : Fin grid0.N, win0_7.fetch t = false)

/-- The output window's relation is "the found contents with the point's pieces written over them". -/
theorem after7 (c : Dev nD) : (rdat (F := F) m c).after 7 = outRel m c :=
  RDat.override_after_of_eq_some (rd := (dats m 0 c).toR) rfl

/-- What a point may leave in the output buffer: what it may have found, overwritten. -/
theorem leaves7_iff (c : Dev nD) (t : Fin cfg0.N) (X : Vec F S4096x512 .f32) :
    (rdat (F := F) m c).Leaves 7 t X ↔ ∃ Y, (rdat (F := F) m c).Finds 7 t Y ∧ X = outAfter m c t Y := by
  unfold RDat.Leaves; rw [after7]; rfl

/-- What a point after the first may find in the output buffer is what the point before may have left there. -/
theorem finds7_pos (c : Dev nD) (t : Fin cfg0.N) (ht : t.val ≠ 0) (Y : Vec F S4096x512 .f32)
    (h : (rdat (F := F) m c).Finds 7 t Y) :
    (rdat (F := F) m c).Leaves 7 ⟨t.val - 1, Nat.lt_of_le_of_lt (Nat.sub_le _ _) t.isLt⟩ Y := by
  rcases ((rdat (F := F) m c).finds_of_pos (fetch0_7 t) ht Y).mp h with hfl | hl
  · have h7 := (flush0_7 _).mp hfl
    have := t.isLt; have := N8
    dsimp only at h7
    omega
  · exact hl

/-- The array after the run holds what the last point may have left in the staging buffer: the one write-back
    writes the whole array. -/
theorem arrAt_final (c : Dev nD) (G : Buf (Elt F) ((cfg0.win 7).arr.view.loc (c.tc : Thread nD τ)))
    (h : (rdat (F := F) m c).ArrAt 7 cfg0.N G) : (rdat (F := F) m c).Leaves 7 tL G := by
  have h8 : (rdat (F := F) m c).ArrAt 7 ((tL : Fin cfg0.N).val + 1) G :=
    (congrArg (fun n => (rdat (F := F) m c).ArrAt 7 n G) (show cfg0.N = (tL : Fin cfg0.N).val + 1 from N8)).mp h
  rw [RDat.ArrAt_succ, if_pos ((flush0_7 tL).mpr rfl)] at h8
  obtain ⟨G₀, X, -, hX, hG⟩ := h8
  have hz' : (fun a => win0_7.index tL a * main_v3.ty.shape.size a) = fun _ => 0 :=
    funext fun a => by fin_cases a <;> decide
  have hw : ((cfg0.win 7).blk tL).view.write (Elt F) G₀ ((cfg0.win 7).cut (cfg0.grid.coords tL) X) Finset.univ = X :=
    Memref.write_access_unit_zero_univ (Elt F) main_v3 hz' (fun a => by rw [congrFun hz' a]; simp) G₀ X
  rw [hG, hw]; exact hX

/-- A property of the output buffer that the first point establishes, whatever it finds, and that every later point
    before the last keeps, holds of what each point before the last may leave. -/
theorem leaves7_inv (c : Dev nD) (Inv : ℕ → Vec F S4096x512 .f32 → Prop)
    (base : ∀ (h0 : 0 < cfg0.N) (Y : Vec F S4096x512 .f32), Inv 0 (outAfter m c ⟨0, h0⟩ Y))
    (step : ∀ (n : ℕ) (hn : n + 1 < cfg0.N), n + 1 ≠ 7 → ∀ Y : Vec F S4096x512 .f32, Inv n Y → Inv (n + 1) (outAfter m c ⟨n + 1, hn⟩ Y)) :
    ∀ (n : ℕ) (hn : n < cfg0.N), n ≠ 7 → ∀ X : Vec F S4096x512 .f32, (rdat (F := F) m c).Leaves 7 ⟨n, hn⟩ X → Inv n X
  | 0, hn, _, X, hX => by
    obtain ⟨Y, -, rfl⟩ := (leaves7_iff m c ⟨0, hn⟩ X).mp hX
    exact base hn Y
  | n + 1, hn, h7, X, hX => by
    obtain ⟨Y, hY, rfl⟩ := (leaves7_iff m c ⟨n + 1, hn⟩ X).mp hX
    have hprev := finds7_pos m c ⟨n + 1, hn⟩ (Nat.succ_ne_zero n) Y hY
    have hN := N8
    exact step n hn h7 Y (leaves7_inv c Inv base step n (Nat.lt_of_succ_lt hn) (by omega) Y hprev)

/-- The array after the run: what the last point leaves over contents that have every property the first seven
    points establish in turn. -/
theorem arrAt_chain (c : Dev nD) (Inv : ℕ → Vec F S4096x512 .f32 → Prop)
    (base : ∀ (h0 : 0 < cfg0.N) (Y : Vec F S4096x512 .f32), Inv 0 (outAfter m c ⟨0, h0⟩ Y))
    (step : ∀ (n : ℕ) (hn : n + 1 < cfg0.N), n + 1 ≠ 7 → ∀ Y : Vec F S4096x512 .f32, Inv n Y → Inv (n + 1) (outAfter m c ⟨n + 1, hn⟩ Y))
    (G : Buf (Elt F) ((cfg0.win 7).arr.view.loc (c.tc : Thread nD τ))) (h : (rdat (F := F) m c).ArrAt 7 cfg0.N G) :
    ∃ Y : Vec F S4096x512 .f32, Inv 6 Y ∧ G = outAfter m c tL Y := by
  obtain ⟨Y, hY, hG⟩ := (leaves7_iff m c tL G).mp (arrAt_final m c G h)
  have hprev := finds7_pos m c tL (by decide) Y hY
  have hN := N8
  exact ⟨Y, leaves7_inv m c Inv base step 6 (by omega) (by decide) Y hprev, hG⟩

end Cert.KernelIdeal.Body

end
-- ==== Proof.KIValueReads.lean ====
/-
  Reading a [4096, 512] buffer after writes of [512, 512] row blocks. A row block written at rows 512·p … 512·p + 511
  reads back its payload there and leaves every other row as it was. The last grid point rewrites the eight row
  blocks one after the other, each with a pointwise function of the block it loads from the buffer as the earlier
  rewrites left it; since the blocks are disjoint, every row ends as that function of what it held before the
  first rewrite.
-/
import Idealize.ShloMosaic.Lib.Pipeline.Value
import Idealize.ShloMosaic.Lib.Writes
import Idealize.ShloMosaic.Lib.ValueIdx

noncomputable section

namespace Cert.KernelIdeal.Body

open Idealize.ShloMosaic Idealize.ShloMosaic.ValueIdx

/-- The [4096, 512] buffer's shape and a row block's. -/
abbrev SBuf : Shape := ⟨2, ![4096, 512]⟩
abbrev SBlk : Shape := ⟨2, ![512, 512]⟩

variable {sig : RefSig} {κ : Kind} {sp : Space} {Val : EltTy → Type}

/-- Row `r`, column `j` of the row block at rows 512·p … sits at row 512·p + r of the buffer. -/
theorem rowblk_emb {off : Fin 2 → ℕ} (inb : ∀ a, off a + SBlk.size a ≤ SBuf.size a) (p : ℕ) (hoff : off = ![512 * p, 0])
    (r j : Fin 512) (h : 512 * p + r.val < 4096) :
    (Rect.unit (s := SBuf) off SBlk.size inb).emb (ix2 r j) = ix2 (⟨512 * p + r.val, h⟩ : Fin 4096) j := by
  subst hoff
  funext a
  apply Fin.ext
  rw [Rect.emb_apply]
  match a with
  | ⟨0, _⟩ => show 512 * p + 1 * r.val = 512 * p + r.val; omega
  | ⟨1, _⟩ => show 0 + 1 * j.val = j.val; omega

/-- A row outside the block's 512 rows is not in its rectangle. -/
theorem not_mem_rowblk {off : Fin 2 → ℕ} (inb : ∀ a, off a + SBlk.size a ≤ SBuf.size a) (p : ℕ) (hoff : off = ![512 * p, 0])
    (i : Fin 4096) (j : Fin 512) (h : i.val < 512 * p ∨ 512 * p + 512 ≤ i.val) :
    (ix2 i j : SBuf.Idx) ∉ (Rect.unit (s := SBuf) off SBlk.size inb).set := by
  subst hoff
  rw [Rect.mem_set_unit]
  intro hm
  have h0 := hm ⟨0, by decide⟩
  have e1 : ((ix2 i j : SBuf.Idx) ⟨0, by decide⟩ : ℕ) = i.val := rfl
  have e2 : (![512 * p, 0] : Fin 2 → ℕ) ⟨0, by decide⟩ = 512 * p := rfl
  have e3 : SBlk.size ⟨0, by decide⟩ = 512 := rfl
  rw [e1, e2, e3] at h0
  omega

section
variable (v : View sig κ sp SBuf .f32) (f : v.ty.Contents Val)

/-- The last write's row block reads its payload. -/
theorem read_rowblk_in {off : Fin 2 → ℕ} (inb : ∀ a, off a + SBlk.size a ≤ SBuf.size a) (p : ℕ) (hoff : off = ![512 * p, 0])
    (P : SBlk.Idx → Val .f32) (L : List (View.Piece Val SBuf .f32)) (r j : Fin 512) (h : 512 * p + r.val < 4096) :
    v.read Val (v.writes Val f (⟨Rect.unit (s := SBuf) off SBlk.size inb, P⟩ :: L)) (ix2 (⟨512 * p + r.val, h⟩ : Fin 4096) j)
      = P (ix2 r j) := by
  rw [← rowblk_emb inb p hoff r j h]
  exact View.read_writes_cons_emb v f (Rect.unit (s := SBuf) off SBlk.size inb) P L (ix2 r j)

/-- The same, for a buffer row known to lie in the block. -/
theorem read_rowblk_in' {off : Fin 2 → ℕ} (inb : ∀ a, off a + SBlk.size a ≤ SBuf.size a) (p : ℕ) (hoff : off = ![512 * p, 0])
    (P : SBlk.Idx → Val .f32) (L : List (View.Piece Val SBuf .f32)) (i : Fin 4096) (j : Fin 512)
    (h1 : 512 * p ≤ i.val) (h2 : i.val < 512 * p + 512) :
    v.read Val (v.writes Val f (⟨Rect.unit (s := SBuf) off SBlk.size inb, P⟩ :: L)) (ix2 i j)
      = P (ix2 (⟨i.val - 512 * p, by omega⟩ : Fin 512) j) := by
  have e : i = (⟨512 * p + (⟨i.val - 512 * p, by omega⟩ : Fin 512).val, by have := i.isLt; dsimp only; omega⟩ : Fin 4096) :=
    Fin.ext (by dsimp only; omega)
  conv_lhs => rw [e]
  exact read_rowblk_in v f inb p hoff P L _ j _

/-- Every other row reads what the earlier writes left. -/
theorem read_rowblk_out {off : Fin 2 → ℕ} (inb : ∀ a, off a + SBlk.size a ≤ SBuf.size a) (p : ℕ) (hoff : off = ![512 * p, 0])
    (P : SBlk.Idx → Val .f32) (L : List (View.Piece Val SBuf .f32)) (i : Fin 4096) (j : Fin 512)
    (h : i.val < 512 * p ∨ 512 * p + 512 ≤ i.val) :
    v.read Val (v.writes Val f (⟨Rect.unit (s := SBuf) off SBlk.size inb, P⟩ :: L)) (ix2 i j)
      = v.read Val (v.writes Val f L) (ix2 i j) := by
  rw [View.writes_cons]
  exact View.read_slice_write_of_not_mem _ _ _ _ (by rw [Rect.map_emb_univ]; exact not_mem_rowblk inb p hoff i j h)

/-- One more row block rewritten: the block at `off` loaded from the buffer as the writes `L` left it, passed through
    `P`, and stored back over it. -/
def normStep (off : Fin 2 → ℕ) (inb : ∀ a, off a + SBlk.size a ≤ SBuf.size a) (P : (SBlk.Idx → Val .f32) → SBlk.Idx → Val .f32)
    (L : List (View.Piece Val SBuf .f32)) : List (View.Piece Val SBuf .f32) :=
  ⟨Rect.unit (s := SBuf) off SBlk.size inb,
    P (View.readAt Val v (Rect.unit (s := SBuf) off SBlk.size inb).toLoadRect (v.writes Val f L))⟩ :: L

/-- After the row blocks below `p` have been rewritten: rows at or above 512·p still read `base`, rows below read the
    pointwise function `φ` (of the column) of `base`. -/
structure NormInv (base : SBuf.Idx → Val .f32) (φ : Fin 512 → Val .f32 → Val .f32) (p : ℕ) (L : List (View.Piece Val SBuf .f32)) : Prop where
  hi : ∀ (i : Fin 4096) (j : Fin 512), 512 * p ≤ i.val → v.read Val (v.writes Val f L) (ix2 i j) = base (ix2 i j)
  lo : ∀ (i : Fin 4096) (j : Fin 512), i.val < 512 * p → v.read Val (v.writes Val f L) (ix2 i j) = φ j (base (ix2 i j))

/-- Before any rewrite every row reads what the writes so far left. -/
theorem normInv_zero (φ : Fin 512 → Val .f32 → Val .f32) (L : List (View.Piece Val SBuf .f32)) :
    NormInv v f (fun y => v.read Val (v.writes Val f L) y) φ 0 L :=
  ⟨fun _ _ _ => rfl, fun i _ h => absurd h (by omega)⟩

/-- Rewriting row block `p` with a payload that is `φ` of the loaded block, entry by entry, advances the invariant. -/
theorem NormInv.step {base : SBuf.Idx → Val .f32} {φ : Fin 512 → Val .f32 → Val .f32} {p : ℕ} {L : List (View.Piece Val SBuf .f32)}
    (H : NormInv v f base φ p L) {off : Fin 2 → ℕ} (inb : ∀ a, off a + SBlk.size a ≤ SBuf.size a) (hoff : off = ![512 * p, 0])
    (P : (SBlk.Idx → Val .f32) → SBlk.Idx → Val .f32)
    (hP : ∀ (blk : SBlk.Idx → Val .f32) (r j : Fin 512), P blk (ix2 r j) = φ j (blk (ix2 r j))) :
    NormInv v f base φ (p + 1) (normStep v f off inb P L) := by
  constructor
  · intro i j h
    unfold normStep
    rw [read_rowblk_out v f inb p hoff _ L i j (Or.inr (by omega))]
    exact H.hi i j (by omega)
  · intro i j h
    unfold normStep
    by_cases hb : 512 * p ≤ i.val
    · rw [read_rowblk_in' v f inb p hoff _ L i j hb (by omega), hP, View.readAt_apply]
      have e : (Rect.unit (s := SBuf) off SBlk.size inb).toLoadRect.idx (ix2 (⟨i.val - 512 * p, by omega⟩ : Fin 512) j) = ix2 i j := by
        have := rowblk_emb inb p hoff (⟨i.val - 512 * p, by omega⟩ : Fin 512) j (by have := i.isLt; dsimp only; omega)
        refine this.trans ?_
        congr 1
        exact Fin.ext (by dsimp only; omega)
      rw [e, H.hi i j hb]
    · rw [read_rowblk_out v f inb p hoff _ L i j (Or.inl (by omega))]
      exact H.lo i j (by omega)

/-- After all eight row blocks every row reads `φ` of `base`. -/
theorem NormInv.done {base : SBuf.Idx → Val .f32} {φ : Fin 512 → Val .f32 → Val .f32} {L : List (View.Piece Val SBuf .f32)}
    (H : NormInv v f base φ 8 L) (i : Fin 4096) (j : Fin 512) :
    v.read Val (v.writes Val f L) (ix2 i j) = φ j (base (ix2 i j)) :=
  H.lo i j (by have := i.isLt; omega)

end

end Cert.KernelIdeal.Body

end
-- ==== Proof.KIPiecesCommon.lean ====
/-
  Shared by the three readings of what the body writes at a grid point: the row offset of the point's block of `y`
  in closed form, and the lower half of the weight array as the body loads it.
-/
import proofs.«148319_g18880676233904_cont_8to1_729_7_alg».proof.Proof.KIBodyCommon
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

open Cert.KernelIdeal Cert.KernelIdeal.Gen

/-- The two zero offsets, as the whole-block rectangles spell them. -/
theorem zero_off2 : (![0, 0] : Fin 2 → ℕ) = fun _ => 0 := by
  funext a; fin_cases a <;> rfl

/-- The row offset of the block of `y` at grid point `t`: rows `512 t …`. -/
theorem k0_off1_coords : ∀ t : Fin cfg0.N, k0_off1 (grid0.coords t) = ![512 * t.val, 0] :=
  (by decide +kernel : ∀ t : Fin grid0.N, k0_off1 (grid0.coords t) = ![512 * t.val, 0])

/-- The lower half of the weight array (rows 512 … 1023), as the body loads it. -/
abbrev wBot (x3 : Vec F S1024x512 .f32) : Vec F S512x512 .f32 :=
  View.ld x3 (Rect.unit (s := S1024x512) ![512, 0] S512x512.size inb_S1024x512_S512x512_512_0)

end Cert.KernelIdeal.Body

end
-- ==== Proof.Spec.lean ====
/-
  The two value functions of the exchange layer, index by index on the extended reals, with no program in sight.

  Arguments: node features `x1`, `x2` ([4096, 512] each), a dense adjacency `am` ([4096, 4096]), the linear map `W`
  ([1024, 512]: its first 512 rows act on `am · x1`, its last 512 on `x2`), a bias `b` and the batch-norm affine
  parameters `γ`, `β` ([512] each).

  * The reference's reading (`outR`): `y = concat(am · x1, x2) · W + b`; per column `j` the mean of `y` over the 4096
    rows, the variance as the mean of the squared deviations, and `max(((y - mean) / sqrt(var + ε)) · γ + β, 0)`.
  * The kernel's reading (`outK`): `y = am · (x1 · W_top) + x2 · W_bottom + b`, computed in 8 row blocks of 512; per
    column the sum and the sum of squares are accumulated block after block, mean = sum · (1/4096),
    var = sumsq · (1/4096) - mean², scale = rsqrt(var + ε) · γ, shift = β - mean · scale, and
    `max(y · scale + shift, 0)`.

  The float words are kept as words: `c4096` is 4096, `inv4096` the dyadic 1/4096, `eps` the f32 nearest to 1e-5.
-/
import Idealize.ShloMosaic.PureOps.Ideal
import Idealize.ShloMosaic.Lib.ValueIdx

noncomputable section

open scoped BigOperators

namespace Cert.Exchange

open Idealize.ShloMosaic Idealize.ShloMosaic.ValueIdx

/-- An `[a, b]` array of extended reals. -/
abbrev Mat (a b : ℕ) : Type := (⟨2, ![a, b]⟩ : Shape).Idx → EReal
/-- An `[a]` array of extended reals. -/
abbrev Row (a : ℕ) : Type := (⟨1, ![a]⟩ : Shape).Idx → EReal

/-- The word of 4096.0. -/
def c4096 : EReal := Ideal.ofBits .f32 0x45800000#32
/-- The word of 2⁻¹² = 1/4096. -/
def inv4096 : EReal := Ideal.ofBits .f32 0x39800000#32
/-- The word of the f32 nearest to 1e-5. -/
def eps : EReal := Ideal.ofBits .f32 0x3727C5AC#32
/-- The zero word. -/
def zero : EReal := Ideal.ofBits .f32 0x00000000#32

section
variable (x1 x2 : Mat 4096 512) (am : Mat 4096 4096) (W : Mat 1024 512) (b γ β : Row 512)

/-! ## The reference's reading -/

/-- `(am · x1)[i, k]`. -/
def hR (i : Fin 4096) (k : Fin 512) : EReal := ∑ l : Fin 4096, am (ix2 i l) * x1 (ix2 l k)

/-- `concat(am · x1, x2)[i, k]` along the second axis. -/
def catR (i : Fin 4096) (k : Fin 1024) : EReal :=
  if h : k.val < 512 then hR x1 am i ⟨k.val, h⟩ else x2 (ix2 i ⟨k.val - 512, by have := k.isLt; omega⟩)

/-- `y[i, j] = (concat(am · x1, x2) · W)[i, j] + b[j]`. -/
def yR (i : Fin 4096) (j : Fin 512) : EReal := (∑ k : Fin 1024, catR x1 x2 am i k * W (ix2 k j)) + b (ix1 j)

/-- The column mean: `(0 + Σ_i y[i, j]) / 4096`. -/
def meanR (j : Fin 512) : EReal := Ideal.div (zero + ∑ i : Fin 4096, yR x1 x2 am W b i j) c4096

/-- The column variance: `(0 + Σ_i (y[i, j] - mean[j])²) / 4096`. -/
def varR (j : Fin 512) : EReal :=
  Ideal.div (zero + ∑ i : Fin 4096,
    (yR x1 x2 am W b i j - meanR x1 x2 am W b j) * (yR x1 x2 am W b i j - meanR x1 x2 am W b j)) c4096

/-- The reference's result at `(i, j)`. -/
def outR (i : Fin 4096) (j : Fin 512) : EReal :=
  max (Ideal.div (yR x1 x2 am W b i j - meanR x1 x2 am W b j) (Ideal.sqrt (varR x1 x2 am W b j + eps)) * γ (ix1 j)
    + β (ix1 j)) zero

/-- The reference's result array. -/
def outRv : Mat 4096 512 := fun i => outR x1 x2 am W b γ β (i 0) (i 1)

/-! ## The kernel's reading -/

/-- `t[k, j] = (x1 · W_top)[k, j]`, the staged product. -/
def tK (k : Fin 4096) (j : Fin 512) : EReal := ∑ l : Fin 512, x1 (ix2 k l) * W (ix2 ⟨l.val, by have := l.isLt; omega⟩ j)

/-- `y[i, j] = ((am · t)[i, j] + (x2 · W_bottom)[i, j]) + b[j]`. -/
def yK (i : Fin 4096) (j : Fin 512) : EReal :=
  ((∑ k : Fin 4096, am (ix2 i k) * tK x1 W k j)
    + ∑ k : Fin 512, x2 (ix2 i k) * W (ix2 ⟨512 + k.val, by have := k.isLt; omega⟩ j)) + b (ix1 j)

/-- Row block `p`'s column sum of `y`. -/
def psK (p : Fin 8) (j : Fin 512) : EReal :=
  ∑ r : Fin 512, yK x1 x2 am W b ⟨512 * p.val + r.val, by have := p.isLt; have := r.isLt; omega⟩ j

/-- Row block `p`'s column sum of `y²`. -/
def pssK (p : Fin 8) (j : Fin 512) : EReal :=
  ∑ r : Fin 512, yK x1 x2 am W b ⟨512 * p.val + r.val, by have := p.isLt; have := r.isLt; omega⟩ j
    * yK x1 x2 am W b ⟨512 * p.val + r.val, by have := p.isLt; have := r.isLt; omega⟩ j

/-- The running column sum after row blocks `0 … n`: block 0's sum, then each later block's added on the right. -/
def accK (ps : Fin 8 → Fin 512 → EReal) : (n : ℕ) → n < 8 → Fin 512 → EReal
  | 0, h => ps ⟨0, h⟩
  | n + 1, h => fun j => accK ps n (by omega) j + ps ⟨n + 1, h⟩ j

/-- The column mean as the kernel forms it. -/
def meanK (j : Fin 512) : EReal := accK (psK x1 x2 am W b) 7 (by decide) j * inv4096

/-- The column variance as the kernel forms it. -/
def varK (j : Fin 512) : EReal :=
  accK (pssK x1 x2 am W b) 7 (by decide) j * inv4096 - meanK x1 x2 am W b j * meanK x1 x2 am W b j

/-- `scale[j] = rsqrt(var[j] + ε) · γ[j]`. -/
def scaleK (j : Fin 512) : EReal := Ideal.rsqrt (varK x1 x2 am W b j + eps) * γ (ix1 j)

/-- `shift[j] = β[j] - mean[j] · scale[j]`. -/
def shiftK (j : Fin 512) : EReal := β (ix1 j) - meanK x1 x2 am W b j * scaleK x1 x2 am W b γ j

/-- The kernel's result at `(i, j)`. -/
def outK (i : Fin 4096) (j : Fin 512) : EReal :=
  max (yK x1 x2 am W b i j * scaleK x1 x2 am W b γ j + shiftK x1 x2 am W b γ β j) zero

/-- The kernel's result array. -/
def outKv : Mat 4096 512 := fun i => outK x1 x2 am W b γ β (i 0) (i 1)

end

end Cert.Exchange

end
-- ==== Proof.KIValueOut.lean ====
/-
  The output array of the idealized kernel is the specification's kernel reading, GIVEN what each grid point writes into
  the resident output buffer: at every point the 512 rows of its block of y, at rows 512·t …; at the last point, after
  that, the eight row blocks rewritten one by one as max(row · scale + shift, 0) of what the buffer then holds. Rows
  below 512·(t+1) hold y after point t < 7 (each point writes its own rows and leaves the others), so the last point
  finds y in every row below 3584, writes its own rows, and normalises all 4096.
-/
import proofs.«148319_g18880676233904_cont_8to1_729_7_alg».proof.Proof.KIValueUnroll
import proofs.«148319_g18880676233904_cont_8to1_729_7_alg».proof.Proof.KIValueReads
import proofs.«148319_g18880676233904_cont_8to1_729_7_alg».proof.Proof.KIPiecesCommon
import proofs.«148319_g18880676233904_cont_8to1_729_7_alg».proof.Proof.Spec

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

open Cert.KernelIdeal Cert.KernelIdeal.Gen

open Idealize.ShloMosaic.ValueIdx

variable (m : (ℓ : Loc nD τ sig) → Buf (Elt Ideal) ℓ) (c : Dev nD)

/-- The specification's seven arguments, read off the launch memory. -/
abbrev sX1 : Cert.Exchange.Mat 4096 512 := m ((c : Thread nD τ).loc main_arg0)
abbrev sX2 : Cert.Exchange.Mat 4096 512 := m ((c : Thread nD τ).loc main_arg1)
abbrev sAM : Cert.Exchange.Mat 4096 4096 := m ((c : Thread nD τ).loc main_arg2)
abbrev sW : Cert.Exchange.Mat 1024 512 := m ((c : Thread nD τ).loc main_arg3)
abbrev sB : Cert.Exchange.Row 512 := m ((c : Thread nD τ).loc main_arg4)
abbrev sG : Cert.Exchange.Row 512 := m ((c : Thread nD τ).loc main_arg5)
abbrev sBt : Cert.Exchange.Row 512 := m ((c : Thread nD τ).loc main_arg6)

/-- The specification's y on those arguments. -/
abbrev sY (i : Fin 4096) (j : Fin 512) : EReal :=
  Cert.Exchange.yK (sX1 m c) (sX2 m c) (sAM m c) (sW m c) (sB m c) i j

/-- Rows below 512·(n+1) of the output buffer hold y. -/
def rowsY (n : ℕ) (Y : Vec Ideal S4096x512 .f32) : Prop :=
  ∀ (i : Fin 4096) (j : Fin 512), i.val < 512 * (n + 1) → Y (ix2 i j) = sY m c i j

section NotLast
variable (ypay : Fin cfg0.N → Vec Ideal S512x512 .f32)
  (hy : ∀ (t : Fin cfg0.N) (r j : Fin 512) (h : 512 * t.val + r.val < 4096), ypay t (ix2 r j) = sY m c ⟨512 * t.val + r.val, h⟩ j)
  (hP : ∀ (t : Fin cfg0.N), t.val ≠ 7 → ∀ Y : Vec Ideal S4096x512 .f32, outPieces m c t Y
    = [⟨Rect.unit (s := S4096x512) (k0_off1 (grid0.coords t)) S512x512.size (k0_off1_inb (grid0.coords t)), ypay t⟩])
include hy hP

/-- Before the last point, a point's own rows of the buffer end holding y, -/
theorem outAfter_in (t : Fin cfg0.N) (h7 : t.val ≠ 7) (Y : Vec Ideal S4096x512 .f32) (i : Fin 4096) (j : Fin 512)
    (h1 : 512 * t.val ≤ i.val) (h2 : i.val < 512 * t.val + 512) : outAfter m c t Y (ix2 i j) = sY m c i j := by
  unfold outAfter
  rw [hP t h7 Y]
  refine (read_rowblk_in' (ms7 t).view ((hs7 t).unread Y) (k0_off1_inb (grid0.coords t)) t.val (k0_off1_coords t) (ypay t) [] i j h1 h2).trans ?_
  rw [hy t _ j (by dsimp only; have := i.isLt; omega)]
  congr 1
  exact Fin.ext (by dsimp only; omega)

/-- and every other row is as the point found it. -/
theorem outAfter_out (t : Fin cfg0.N) (h7 : t.val ≠ 7) (Y : Vec Ideal S4096x512 .f32) (i : Fin 4096) (j : Fin 512)
    (h : i.val < 512 * t.val ∨ 512 * t.val + 512 ≤ i.val) : outAfter m c t Y (ix2 i j) = Y (ix2 i j) := by
  unfold outAfter
  rw [hP t h7 Y]
  refine (read_rowblk_out (ms7 t).view ((hs7 t).unread Y) (k0_off1_inb (grid0.coords t)) t.val (k0_off1_coords t) (ypay t) [] i j h).trans ?_
  exact congrFun ((hs7 t).read_unread Y) (ix2 i j)

/-- What the last point finds in the output buffer holds y in every row below 3584, and the array ends as what the
    last point leaves over it. -/
theorem arrAt_rowsY (G : Buf (Elt Ideal) ((cfg0.win 7).arr.view.loc (c.tc : Thread nD τ)))
    (h : (rdat (F := Ideal) m c).ArrAt 7 cfg0.N G) :
    ∃ Y : Vec Ideal S4096x512 .f32, rowsY m c 6 Y ∧ G = outAfter m c tL Y := by
  refine arrAt_chain m c (rowsY m c) ?_ ?_ G h
  · intro h0 Y i j hi
    exact outAfter_in m c ypay hy hP ⟨0, h0⟩ (by dsimp only; omega) Y i j (by dsimp only; omega) (by dsimp only; omega)
  · intro n hn h7 Y hY i j hi
    by_cases hb : 512 * (n + 1) ≤ i.val
    · exact outAfter_in m c ypay hy hP ⟨n + 1, hn⟩ h7 Y i j hb (by dsimp only; omega)
    · rw [outAfter_out m c ypay hy hP ⟨n + 1, hn⟩ h7 Y i j (Or.inl (by dsimp only; omega))]
      exact hY i j (by omega)

end NotLast

section Last
variable (ypay7 : Vec Ideal S512x512 .f32)
  (hy7 : ∀ (r j : Fin 512) (h : 3584 + r.val < 4096), ypay7 (ix2 r j) = sY m c ⟨3584 + r.val, h⟩ j)
  (SC SH : Fin 512 → EReal)
  (hSC : ∀ j, SC j = Cert.Exchange.scaleK (sX1 m c) (sX2 m c) (sAM m c) (sW m c) (sB m c) (sG m c) j)
  (hSH : ∀ j, SH j = Cert.Exchange.shiftK (sX1 m c) (sX2 m c) (sAM m c) (sW m c) (sB m c) (sG m c) (sBt m c) j)
  (offY off0 off1 off2 off3 off4 off5 off6 off7 : Fin 2 → ℕ)
  (inbY : ∀ a, offY a + SBlk.size a ≤ SBuf.size a) (inb0 : ∀ a, off0 a + SBlk.size a ≤ SBuf.size a)
  (inb1 : ∀ a, off1 a + SBlk.size a ≤ SBuf.size a) (inb2 : ∀ a, off2 a + SBlk.size a ≤ SBuf.size a)
  (inb3 : ∀ a, off3 a + SBlk.size a ≤ SBuf.size a) (inb4 : ∀ a, off4 a + SBlk.size a ≤ SBuf.size a)
  (inb5 : ∀ a, off5 a + SBlk.size a ≤ SBuf.size a) (inb6 : ∀ a, off6 a + SBlk.size a ≤ SBuf.size a)
  (inb7 : ∀ a, off7 a + SBlk.size a ≤ SBuf.size a)
  (hoffY : offY = ![512 * 7, 0]) (hoff0 : off0 = ![512 * 0, 0]) (hoff1 : off1 = ![512 * 1, 0]) (hoff2 : off2 = ![512 * 2, 0])
  (hoff3 : off3 = ![512 * 3, 0]) (hoff4 : off4 = ![512 * 4, 0]) (hoff5 : off5 = ![512 * 5, 0]) (hoff6 : off6 = ![512 * 6, 0])
  (hoff7 : off7 = ![512 * 7, 0])
  (P0 P1 P2 P3 P4 P5 P6 P7 : (SBlk.Idx → EReal) → SBlk.Idx → EReal)
  (hP0 : ∀ (blk : SBlk.Idx → EReal) (r j : Fin 512), P0 blk (ix2 r j) = max (blk (ix2 r j) * SC j + SH j) (Ideal.ofBits .f32 0x00000000#32))
  (hP1 : ∀ (blk : SBlk.Idx → EReal) (r j : Fin 512), P1 blk (ix2 r j) = max (blk (ix2 r j) * SC j + SH j) (Ideal.ofBits .f32 0x00000000#32))
  (hP2 : ∀ (blk : SBlk.Idx → EReal) (r j : Fin 512), P2 blk (ix2 r j) = max (blk (ix2 r j) * SC j + SH j) (Ideal.ofBits .f32 0x00000000#32))
  (hP3 : ∀ (blk : SBlk.Idx → EReal) (r j : Fin 512), P3 blk (ix2 r j) = max (blk (ix2 r j) * SC j + SH j) (Ideal.ofBits .f32 0x00000000#32))
  (hP4 : ∀ (blk : SBlk.Idx → EReal) (r j : Fin 512), P4 blk (ix2 r j) = max (blk (ix2 r j) * SC j + SH j) (Ideal.ofBits .f32 0x00000000#32))
  (hP5 : ∀ (blk : SBlk.Idx → EReal) (r j : Fin 512), P5 blk (ix2 r j) = max (blk (ix2 r j) * SC j + SH j) (Ideal.ofBits .f32 0x00000000#32))
  (hP6 : ∀ (blk : SBlk.Idx → EReal) (r j : Fin 512), P6 blk (ix2 r j) = max (blk (ix2 r j) * SC j + SH j) (Ideal.ofBits .f32 0x00000000#32))
  (hP7 : ∀ (blk : SBlk.Idx → EReal) (r j : Fin 512), P7 blk (ix2 r j) = max (blk (ix2 r j) * SC j + SH j) (Ideal.ofBits .f32 0x00000000#32))
  (hL : ∀ Y : Vec Ideal S4096x512 .f32, outPieces m c tL Y
    = normStep (Val := Elt Ideal) (ms7 tL).view ((hs7 tL).unread Y) off7 inb7 P7
       (normStep (Val := Elt Ideal) (ms7 tL).view ((hs7 tL).unread Y) off6 inb6 P6
       (normStep (Val := Elt Ideal) (ms7 tL).view ((hs7 tL).unread Y) off5 inb5 P5
       (normStep (Val := Elt Ideal) (ms7 tL).view ((hs7 tL).unread Y) off4 inb4 P4
       (normStep (Val := Elt Ideal) (ms7 tL).view ((hs7 tL).unread Y) off3 inb3 P3
       (normStep (Val := Elt Ideal) (ms7 tL).view ((hs7 tL).unread Y) off2 inb2 P2
       (normStep (Val := Elt Ideal) (ms7 tL).view ((hs7 tL).unread Y) off1 inb1 P1
       (normStep (Val := Elt Ideal) (ms7 tL).view ((hs7 tL).unread Y) off0 inb0 P0
         [⟨Rect.unit (s := SBuf) offY SBlk.size inbY, ypay7⟩]))))))))
include hy7 hSC hSH hoffY hoff0 hoff1 hoff2 hoff3 hoff4 hoff5 hoff6 hoff7 hP0 hP1 hP2 hP3 hP4 hP5 hP6 hP7 hL

/-- The last point, over a buffer holding y below row 3584, leaves the specification's result in every row. -/
theorem outAfter_last (Y : Vec Ideal S4096x512 .f32) (hY : rowsY m c 6 Y) (i : Fin 4096) (j : Fin 512) :
    outAfter m c tL Y (ix2 i j)
      = Cert.Exchange.outK (sX1 m c) (sX2 m c) (sAM m c) (sW m c) (sB m c) (sG m c) (sBt m c) i j := by
  unfold outAfter
  rw [hL Y]
  have H := ((((((((normInv_zero (Val := Elt Ideal) (ms7 tL).view ((hs7 tL).unread Y)
      (fun j x => max (x * SC j + SH j) (Ideal.ofBits .f32 0x00000000#32))
      [⟨Rect.unit (s := SBuf) offY SBlk.size inbY, ypay7⟩]).step _ _ inb0 hoff0 P0 hP0).step _ _ inb1 hoff1 P1 hP1).step _ _ inb2 hoff2 P2 hP2).step _ _
      inb3 hoff3 P3 hP3).step _ _ inb4 hoff4 P4 hP4).step _ _ inb5 hoff5 P5 hP5).step _ _ inb6 hoff6 P6 hP6).step _ _ inb7 hoff7 P7 hP7
  refine (H.done _ _ i j).trans ?_
  have hbase : (ms7 tL).view.read (Elt Ideal) ((ms7 tL).view.writes (Elt Ideal) ((hs7 tL).unread Y)
      [⟨Rect.unit (s := SBuf) offY SBlk.size inbY, ypay7⟩]) (ix2 i j) = sY m c i j := by
    by_cases hb : 512 * 7 ≤ i.val
    · refine (read_rowblk_in' (ms7 tL).view ((hs7 tL).unread Y) inbY 7 hoffY ypay7 [] i j hb (by have := i.isLt; omega)).trans ?_
      rw [hy7 _ j (by dsimp only; have := i.isLt; omega)]
      congr 1
      exact Fin.ext (by dsimp only; omega)
    · refine (read_rowblk_out (ms7 tL).view ((hs7 tL).unread Y) inbY 7 hoffY ypay7 [] i j (Or.inl (by omega))).trans ?_
      exact (congrFun ((hs7 tL).read_unread Y) (ix2 i j)).trans (hY i j (by omega))
  show max (_ * SC j + SH j) (Ideal.ofBits .f32 0x00000000#32) = _
  rw [hbase, hSC j, hSH j]
  rfl

/-- The array after the run is the specification's kernel reading, given the rows-of-y property of what the last point
    found. -/
theorem out_eq_of_rowsY (Y : Vec Ideal S4096x512 .f32) (hY : rowsY m c 6 Y) :
    outAfter m c tL Y = Cert.Exchange.outKv (sX1 m c) (sX2 m c) (sAM m c) (sW m c) (sB m c) (sG m c) (sBt m c) := by
  funext idx
  rw [eq_ix2 idx]
  exact outAfter_last m c ypay7 hy7 SC SH hSC hSH offY off0 off1 off2 off3 off4 off5 off6 off7 inbY inb0 inb1 inb2 inb3 inb4 inb5
    inb6 inb7 hoffY hoff0 hoff1 hoff2 hoff3 hoff4 hoff5 hoff6 hoff7 P0 P1 P2 P3 P4 P5 P6 P7 hP0 hP1 hP2 hP3 hP4 hP5 hP6 hP7 hL Y hY
    (idx 0) (idx 1)

end Last

end Cert.KernelIdeal.Body

end
-- ==== Proof.KIPayloadLib.lean ====
/-
  Two operations of the kernel's payloads read at an index, on the extended reals.

  * A rows-by-columns product `L · R` into the zero accumulator is, at `(a, b)`, the sum over the contracted
    coordinate `c` of `L[a, c] * R[c, b]`: the contraction index set has one axis, so the sum over it is re-indexed
    by that axis's coordinate, and the two operand indices at `(a, b)` and `c` are `(a, c)` and `(c, b)`.
  * A sum over the rows of a `[512, 512]` block is, at column `j`, the sum over `r` of the block at `(r, j)`.
-/
import proofs.«148319_g18880676233904_cont_8to1_729_7_alg».proof.Proof.Gen.KernelIdeal.Skeleton
import Idealize.ShloMosaic.PureOps.Ideal.Laws
import Idealize.ShloMosaic.Lib.ValueLayout

noncomputable section

open scoped BigOperators

namespace Cert.KernelIdeal.PayloadAt

open Cert.KernelIdeal Cert.KernelIdeal.Gen Idealize.ShloMosaic Idealize.ShloMosaic.ValueIdx

/-- A rows-by-columns product into the zero accumulator, read at `(a, b)`: the sum over the contracted coordinate of
    the products of the entries. -/
theorem matmul_rowcol_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The kernel's `[512, 512] · [512, 512]` product into the zero accumulator, read at `(r, j)`. -/
theorem matmul_512_apply {φ₁ φ₂ : FTy} (L : FVec Ideal S512x512 φ₁) (R : FVec Ideal S512x512 φ₂) (r j : Fin 512) :
    matmul dot_S512x512_S512x512_S512x512_1_0_0_1_n_n none L R
        (constant (F := Ideal) S512x512 .f32 0x00000000#32) (ix2 r j)
      = ∑ l : Fin 512, L (ix2 r l) * R (ix2 l j) :=
  matmul_rowcol_apply _ none L R r j

/-- The kernel's `[512, 4096] · [4096, 512]` product into the zero accumulator, read at `(r, j)`. -/
theorem matmul_4096_apply {φ₁ φ₂ : FTy} (L : FVec Ideal S512x4096 φ₁) (R : FVec Ideal S4096x512 φ₂) (r j : Fin 512) :
    matmul dot_S512x4096_S4096x512_S512x512_1_0_0_1_n_n none L R
        (constant (F := Ideal) S512x512 .f32 0x00000000#32) (ix2 r j)
      = ∑ k : Fin 4096, L (ix2 r k) * R (ix2 k j) :=
  matmul_rowcol_apply _ none L R r j

/-- A sum over the rows of a `[512, 512]` block, read at column `j`. -/
theorem colsum_apply (src : FVec Ideal S512x512 .f32) (h : S512x512.Reduces [0] S512) (hφ : FKind.Formats .f32)
    (hacc : (0x00000000#32 : BitVec 32) = FKind.add.neutral .f32 hφ) (j : Fin 512) :
    multiReduction .add [0] S512 src 0x00000000#32 h hφ hacc (ix1 j) = ∑ r : Fin 512, src (ix2 r j) := by
  refine (Ideal.multiReduction_add_single src 0x00000000#32 h hφ hacc (ix1 j)).trans ?_
  refine Finset.sum_congr rfl fun r _ => congrArg src ?_
  funext c; apply Fin.ext
  match c with
  | ⟨0, _⟩ => rfl
  | ⟨1, _⟩ => rfl

end Cert.KernelIdeal.PayloadAt

end
-- ==== Proof.KIPayloadY.lean ====
/-
  The kernel's payloads for one block of 512 rows of `y`, read at an index, on the extended reals.

  `y[r, j] = (Σ_k A[r, k] * T[k, j] + Σ_k X2[r, k] * Wb[k, j]) + B[0, j]` (format changes are the identity here and
  the bias row is broadcast over the rows); the block's column sums of `y` and of `y²` are sums over its 512 rows;
  the first block stores them, a later block adds them to the running sums.
-/
import proofs.«148319_g18880676233904_cont_8to1_729_7_alg».proof.Proof.KIPayloadLib

noncomputable section

open scoped BigOperators

namespace Cert.KernelIdeal.PayloadAt

open Cert.KernelIdeal Cert.KernelIdeal.Gen Idealize.ShloMosaic Idealize.ShloMosaic.ValueIdx

/-- The block of `y` at `(r, j)`: the adjacency block's row times the staged product's column, plus the second
    feature block's row times the lower weight block's column, plus the bias. -/
theorem k0_pay22_apply (A : Vec Ideal S512x4096 .f32) (T : Vec Ideal S4096x512 .bf16) (X2 Wb : Vec Ideal S512x512 .f32)
    (B : Vec Ideal S1x512 .f32) (r j : Fin 512) :
    k0_pay22 A T X2 Wb B (ix2 r j)
      = ((∑ k : Fin 4096, A (ix2 r k) * T (ix2 k j)) + ∑ k : Fin 512, X2 (ix2 r k) * Wb (ix2 k j)) + B (ix2 0 j) := by
  unfold k0_pay22
  rw [addf_apply, addf_apply, matmul_4096_apply, matmul_512_apply, broadcastTo_1b_ab_apply, shapeCast_self]
  rfl
/-- The block's column sums of `y`. -/
theorem k0_pay23_apply (A : Vec Ideal S512x4096 .f32) (T : Vec Ideal S4096x512 .bf16) (X2 Wb : Vec Ideal S512x512 .f32)
    (B : Vec Ideal S1x512 .f32) (j : Fin 512) :
    k0_pay23 A T X2 Wb B (ix2 0 j) = ∑ r : Fin 512, k0_pay22 A T X2 Wb B (ix2 r j) := by
  unfold k0_pay23
  rw [shapeCast_a_1a_apply]
  exact colsum_apply _ _ _ _ j

/-- The block's column sums of `y²`. -/
theorem k0_pay24_apply (A : Vec Ideal S512x4096 .f32) (T : Vec Ideal S4096x512 .bf16) (X2 Wb : Vec Ideal S512x512 .f32)
    (B : Vec Ideal S1x512 .f32) (j : Fin 512) :
    k0_pay24 A T X2 Wb B (ix2 0 j)
      = ∑ r : Fin 512, k0_pay22 A T X2 Wb B (ix2 r j) * k0_pay22 A T X2 Wb B (ix2 r j) := by
  unfold k0_pay24
  rw [shapeCast_a_1a_apply]
  exact colsum_apply _ _ _ _ j

/-- The first block's sums are stored as they are. -/
theorem k0_pay25_eq (A : Vec Ideal S512x4096 .f32) (T : Vec Ideal S4096x512 .bf16) (X2 Wb : Vec Ideal S512x512 .f32)
    (B : Vec Ideal S1x512 .f32) : k0_pay25 A T X2 Wb B = k0_pay23 A T X2 Wb B := by
  unfold k0_pay25
  exact shapeCast_self _ _

theorem k0_pay26_eq (A : Vec Ideal S512x4096 .f32) (T : Vec Ideal S4096x512 .bf16) (X2 Wb : Vec Ideal S512x512 .f32)
    (B : Vec Ideal S1x512 .f32) : k0_pay26 A T X2 Wb B = k0_pay24 A T X2 Wb B := by
  unfold k0_pay26
  exact shapeCast_self _ _

/-- A later block's sums are added to the running sums. -/
theorem k0_pay27_apply (A : Vec Ideal S512x4096 .f32) (T : Vec Ideal S4096x512 .bf16) (X2 Wb : Vec Ideal S512x512 .f32)
    (B : Vec Ideal S1x512 .f32) (s : Vec Ideal S1x512 .f32) (j : Fin 512) :
    k0_pay27 A T X2 Wb B s (ix2 0 j) = s (ix2 0 j) + k0_pay23 A T X2 Wb B (ix2 0 j) := by
  unfold k0_pay27
  rw [shapeCast_self]
  rfl

theorem k0_pay28_apply (A : Vec Ideal S512x4096 .f32) (T : Vec Ideal S4096x512 .bf16) (X2 Wb : Vec Ideal S512x512 .f32)
    (B : Vec Ideal S1x512 .f32) (s : Vec Ideal S1x512 .f32) (j : Fin 512) :
    k0_pay28 A T X2 Wb B s (ix2 0 j) = s (ix2 0 j) + k0_pay24 A T X2 Wb B (ix2 0 j) := by
  unfold k0_pay28
  rw [shapeCast_self]
  rfl

end Cert.KernelIdeal.PayloadAt

end
-- ==== Proof.KIPayloadT.lean ====
/-
  The kernel's payloads for the blocks of the staged product `t = x1 · W_top`, read at an index, on the extended
  reals: each is, at `(r, j)`, the sum over `l` of the feature block at `(r, l)` times the weight block at `(l, j)`.
  The format changes around the product are the identity here and the zero accumulator adds nothing.
-/
import proofs.«148319_g18880676233904_cont_8to1_729_7_alg».proof.Proof.KIPayloadLib

noncomputable section

open scoped BigOperators

namespace Cert.KernelIdeal.PayloadAt

open Cert.KernelIdeal Cert.KernelIdeal.Gen Idealize.ShloMosaic Idealize.ShloMosaic.ValueIdx

/-- A narrowing format change is the identity on the extended reals. -/
theorem k0_pay3_eq (w : Vec Ideal S512x512 .f32) : k0_pay3 w = w := rfl

theorem k0_pay8_eq (x : Vec Ideal S512x512 .f32) : k0_pay8 x = x := rfl

/-- A block of the staged product: block `x` of the first features times the upper weight block `w`. -/
theorem k0_pay4_apply (w x : Vec Ideal S512x512 .f32) (r j : Fin 512) :
    k0_pay4 w x (ix2 r j) = ∑ l : Fin 512, x (ix2 r l) * w (ix2 l j) := by
  unfold k0_pay4
  rw [shapeCast_self]
  exact matmul_512_apply _ _ r j

theorem k0_pay5_apply (w x : Vec Ideal S512x512 .f32) (r j : Fin 512) :
    k0_pay5 w x (ix2 r j) = ∑ l : Fin 512, x (ix2 r l) * w (ix2 l j) := by
  unfold k0_pay5
  rw [shapeCast_self]
  exact matmul_512_apply _ _ r j

theorem k0_pay6_apply (w x : Vec Ideal S512x512 .f32) (r j : Fin 512) :
    k0_pay6 w x (ix2 r j) = ∑ l : Fin 512, x (ix2 r l) * w (ix2 l j) := by
  unfold k0_pay6
  rw [shapeCast_self]
  exact matmul_512_apply _ _ r j

theorem k0_pay7_apply (w x : Vec Ideal S512x512 .f32) (r j : Fin 512) :
    k0_pay7 w x (ix2 r j) = ∑ l : Fin 512, x (ix2 r l) * w (ix2 l j) := by
  unfold k0_pay7
  rw [shapeCast_self]
  exact matmul_512_apply _ _ r j

/-- The same with both factors already narrowed. -/
theorem k0_pay18_apply (v35 v65 : FVec Ideal S512x512 .bf16) (r j : Fin 512) :
    k0_pay18 v35 v65 (ix2 r j) = ∑ l : Fin 512, v65 (ix2 r l) * v35 (ix2 l j) := by
  unfold k0_pay18
  rw [shapeCast_self]
  exact matmul_512_apply _ _ r j

/-- The same with the weight block already narrowed. -/
theorem k0_pay19_apply (v35 : FVec Ideal S512x512 .bf16) (x : Vec Ideal S512x512 .f32) (r j : Fin 512) :
    k0_pay19 v35 x (ix2 r j) = ∑ l : Fin 512, x (ix2 r l) * v35 (ix2 l j) := by
  unfold k0_pay19
  rw [shapeCast_self]
  exact matmul_512_apply _ _ r j

theorem k0_pay20_apply (v35 : FVec Ideal S512x512 .bf16) (x : Vec Ideal S512x512 .f32) (r j : Fin 512) :
    k0_pay20 v35 x (ix2 r j) = ∑ l : Fin 512, x (ix2 r l) * v35 (ix2 l j) := by
  unfold k0_pay20
  rw [shapeCast_self]
  exact matmul_512_apply _ _ r j

theorem k0_pay21_apply (v35 : FVec Ideal S512x512 .bf16) (x : Vec Ideal S512x512 .f32) (r j : Fin 512) :
    k0_pay21 v35 x (ix2 r j) = ∑ l : Fin 512, x (ix2 r l) * v35 (ix2 l j) := by
  unfold k0_pay21
  rw [shapeCast_self]
  exact matmul_512_apply _ _ r j

end Cert.KernelIdeal.PayloadAt

end
-- ==== Proof.KIPayloadN.lean ====
/-
  The kernel's payloads for the normalisation, read at an index, on the extended reals.

  With `s`, `q` the column sums of `y` and `y²`: mean = `s · 2⁻¹²`, scale = `rsqrt((q · 2⁻¹² − mean²) + ε) · γ`,
  shift = `β − mean · scale`, and a block of the result is `max (y · scale + shift) 0` with the scale and shift rows
  broadcast over the block's rows. The float words are kept as words.
-/
import proofs.«148319_g18880676233904_cont_8to1_729_7_alg».proof.Proof.Gen.KernelIdeal.Skeleton
import Idealize.ShloMosaic.Lib.ValueLayout

noncomputable section

open scoped BigOperators

namespace Cert.KernelIdeal.PayloadAt

open Cert.KernelIdeal Cert.KernelIdeal.Gen Idealize.ShloMosaic Idealize.ShloMosaic.ValueIdx

/-- The column mean: the column sum times the word of `1/4096`. -/
theorem k0_pay9_apply (s : Vec Ideal S1x512 .f32) (j : Fin 512) :
    k0_pay9 s (ix2 0 j) = s (ix2 0 j) * Ideal.ofBits .f32 0x39800000#32 := by
  unfold k0_pay9
  rfl

/-- The scale: the reciprocal square root of (mean of squares − mean² + ε), times `γ`. -/
theorem k0_pay10_apply (s q g : Vec Ideal S1x512 .f32) (j : Fin 512) :
    k0_pay10 s q g (ix2 0 j)
      = Ideal.rsqrt ((q (ix2 0 j) * Ideal.ofBits .f32 0x39800000#32 - k0_pay9 s (ix2 0 j) * k0_pay9 s (ix2 0 j))
          + Ideal.ofBits .f32 0x3727C5AC#32) * g (ix2 0 j) := by
  unfold k0_pay10
  rw [mulf_apply, shapeCast_self]
  rfl

/-- The shift: `β` − mean · scale. -/
theorem k0_pay11_apply (s q g bt : Vec Ideal S1x512 .f32) (j : Fin 512) :
    k0_pay11 s q g bt (ix2 0 j) = bt (ix2 0 j) - k0_pay9 s (ix2 0 j) * k0_pay10 s q g (ix2 0 j) := by
  unfold k0_pay11
  rw [subf_apply, shapeCast_self]
  rfl

/-- A normalised block: `max (y · scale + shift) 0`, scale and shift formed in the same step. -/
theorem k0_pay12_apply (s q g bt : Vec Ideal S1x512 .f32) (blk : Vec Ideal S512x512 .f32) (r j : Fin 512) :
    k0_pay12 s q g bt blk (ix2 r j)
      = max (blk (ix2 r j) * k0_pay10 s q g (ix2 0 j) + k0_pay11 s q g bt (ix2 0 j))
          (Ideal.ofBits .f32 0x00000000#32) := by
  unfold k0_pay12
  rw [maximumf_apply, addf_apply, mulf_apply, shapeCast_self, broadcastTo_1b_ab_apply, broadcastTo_1b_ab_apply]
  rfl

theorem k0_pay13_apply (s q g bt : Vec Ideal S1x512 .f32) (blk : Vec Ideal S512x512 .f32) (r j : Fin 512) :
    k0_pay13 s q g bt blk (ix2 r j)
      = max (blk (ix2 r j) * k0_pay10 s q g (ix2 0 j) + k0_pay11 s q g bt (ix2 0 j))
          (Ideal.ofBits .f32 0x00000000#32) := by
  unfold k0_pay13
  rw [maximumf_apply, addf_apply, mulf_apply, shapeCast_self, broadcastTo_1b_ab_apply, broadcastTo_1b_ab_apply]
  rfl

/-- A normalised block: `max (y · scale + shift) 0`, scale and shift carried in. -/
theorem k0_pay14_apply (sc sh : FVec Ideal S1x512 .f32) (blk : Vec Ideal S512x512 .f32) (r j : Fin 512) :
    k0_pay14 sc sh blk (ix2 r j)
      = max (blk (ix2 r j) * sc (ix2 0 j) + sh (ix2 0 j)) (Ideal.ofBits .f32 0x00000000#32) := by
  unfold k0_pay14
  rw [maximumf_apply, addf_apply, mulf_apply, shapeCast_self, broadcastTo_1b_ab_apply, broadcastTo_1b_ab_apply]
  rfl

theorem k0_pay15_apply (sc sh : FVec Ideal S1x512 .f32) (blk : Vec Ideal S512x512 .f32) (r j : Fin 512) :
    k0_pay15 sc sh blk (ix2 r j)
      = max (blk (ix2 r j) * sc (ix2 0 j) + sh (ix2 0 j)) (Ideal.ofBits .f32 0x00000000#32) := by
  unfold k0_pay15
  rw [maximumf_apply, addf_apply, mulf_apply, shapeCast_self, broadcastTo_1b_ab_apply, broadcastTo_1b_ab_apply]
  rfl

theorem k0_pay16_apply (sc sh : FVec Ideal S1x512 .f32) (blk : Vec Ideal S512x512 .f32) (r j : Fin 512) :
    k0_pay16 sc sh blk (ix2 r j)
      = max (blk (ix2 r j) * sc (ix2 0 j) + sh (ix2 0 j)) (Ideal.ofBits .f32 0x00000000#32) := by
  unfold k0_pay16
  rw [maximumf_apply, addf_apply, mulf_apply, shapeCast_self, broadcastTo_1b_ab_apply, broadcastTo_1b_ab_apply]
  rfl

theorem k0_pay17_apply (sc sh : FVec Ideal S1x512 .f32) (blk : Vec Ideal S512x512 .f32) (r j : Fin 512) :
    k0_pay17 sc sh blk (ix2 r j)
      = max (blk (ix2 r j) * sc (ix2 0 j) + sh (ix2 0 j)) (Ideal.ofBits .f32 0x00000000#32) := by
  unfold k0_pay17
  rw [maximumf_apply, addf_apply, mulf_apply, shapeCast_self, broadcastTo_1b_ab_apply, broadcastTo_1b_ab_apply]
  rfl

theorem k0_pay1_apply (sc sh : FVec Ideal S1x512 .f32) (blk : Vec Ideal S512x512 .f32) (r j : Fin 512) :
    k0_pay1 sc sh blk (ix2 r j)
      = max (blk (ix2 r j) * sc (ix2 0 j) + sh (ix2 0 j)) (Ideal.ofBits .f32 0x00000000#32) := by
  unfold k0_pay1
  rw [maximumf_apply, addf_apply, mulf_apply, shapeCast_self, broadcastTo_1b_ab_apply, broadcastTo_1b_ab_apply]
  rfl

theorem k0_pay2_apply (sc sh : FVec Ideal S1x512 .f32) (blk : Vec Ideal S512x512 .f32) (r j : Fin 512) :
    k0_pay2 sc sh blk (ix2 r j)
      = max (blk (ix2 r j) * sc (ix2 0 j) + sh (ix2 0 j)) (Ideal.ofBits .f32 0x00000000#32) := by
  unfold k0_pay2
  rw [maximumf_apply, addf_apply, mulf_apply, shapeCast_self, broadcastTo_1b_ab_apply, broadcastTo_1b_ab_apply]
  rfl

end Cert.KernelIdeal.PayloadAt

end
-- ==== Proof.KIPayloadAt.lean ====
/-
  The kernel's payload functions read at an index, on the extended reals: the block of `y` and its column sums,
  the blocks of the staged product, and the normalisation. This module only gathers the three groups.
-/
import proofs.«148319_g18880676233904_cont_8to1_729_7_alg».proof.Proof.KIPayloadY
import proofs.«148319_g18880676233904_cont_8to1_729_7_alg».proof.Proof.KIPayloadT
import proofs.«148319_g18880676233904_cont_8to1_729_7_alg».proof.Proof.KIPayloadN
-- ==== Proof.KIValueScale.lean ====
/-
  The last point's scale and shift rows are the specification's: with the two running column sums at their final
  values (the sums over all eight row blocks), mean = sum · 2⁻¹², var = sumsq · 2⁻¹² − mean², scale = rsqrt(var + ε) · γ
  and shift = β − mean · scale, word for word as the specification forms them.
-/
import proofs.«148319_g18880676233904_cont_8to1_729_7_alg».proof.Proof.Spec
import proofs.«148319_g18880676233904_cont_8to1_729_7_alg».proof.Proof.KIPayloadAt

noncomputable section

namespace Cert.KernelIdeal.Body

open Cert.KernelIdeal Cert.KernelIdeal.Gen Idealize.ShloMosaic Idealize.ShloMosaic.ValueIdx

section
variable (x1 x2 : Cert.Exchange.Mat 4096 512) (am : Cert.Exchange.Mat 4096 4096) (W : Cert.Exchange.Mat 1024 512)
  (b γ β : Cert.Exchange.Row 512)
variable (S Q g bt : Vec Ideal S1x512 .f32) (j : Fin 512)
  (hS : S (ix2 (0 : Fin 1) j) = Cert.Exchange.accK (Cert.Exchange.psK x1 x2 am W b) 7 (by decide) j)
  (hQ : Q (ix2 (0 : Fin 1) j) = Cert.Exchange.accK (Cert.Exchange.pssK x1 x2 am W b) 7 (by decide) j)
  (hg : g (ix2 (0 : Fin 1) j) = γ (ix1 j))
include hS hQ hg

/-- The scale row at column `j`. -/
theorem scale_of : k0_pay10 S Q g (ix2 (0 : Fin 1) j) = Cert.Exchange.scaleK x1 x2 am W b γ j := by
  rw [PayloadAt.k0_pay10_apply, PayloadAt.k0_pay9_apply, hS, hQ, hg]
  rfl

variable (hbt : bt (ix2 (0 : Fin 1) j) = β (ix1 j))
include hbt

/-- The shift row at column `j`. -/
theorem shift_of : k0_pay11 S Q g bt (ix2 (0 : Fin 1) j) = Cert.Exchange.shiftK x1 x2 am W b γ β j := by
  rw [PayloadAt.k0_pay11_apply, scale_of x1 x2 am W b γ S Q g j hS hQ hg, PayloadAt.k0_pay9_apply, hS, hbt]
  rfl

end

end Cert.KernelIdeal.Body

end
-- ==== Proof.KIPiecesFirst.lean ====
/-
  What the body writes at the first grid point, read off its run: the eight row blocks of the staged product
  `t = x1 · W_top` into the first scratch buffer; its 512 rows of `y` into the output buffer, computed from the staged
  product read back whole; and the two running sums initialised with the block's column sums of `y` and `y²`.
  Whole-buffer loads read the buffer's contents; the staged product read back is the contents the eight pieces leave.
-/
import proofs.«148319_g18880676233904_cont_8to1_729_7_alg».proof.Proof.KIBodyFirst
import proofs.«148319_g18880676233904_cont_8to1_729_7_alg».proof.Proof.KIPiecesCommon

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

open Cert.KernelIdeal Cert.KernelIdeal.Gen

/-- The upper half of the weight array (rows 0 … 511), as the body loads it. -/
abbrev wTop (x3 : Vec F S1024x512 .f32) : Vec F S512x512 .f32 :=
  View.ld x3 (Rect.unit (s := S1024x512) ![0, 0] S512x512.size inb_S1024x512_S512x512_0_0)

/-- The eight row blocks of the first feature array, as the body loads them. -/
abbrev x1Blk_0 (x1 : Vec F S4096x512 .f32) : Vec F S512x512 .f32 :=
  View.ld x1 (Rect.unit (s := S4096x512) ![0, 0] S512x512.size inb_S4096x512_S512x512_0_0)
abbrev x1Blk_512 (x1 : Vec F S4096x512 .f32) : Vec F S512x512 .f32 :=
  View.ld x1 (Rect.unit (s := S4096x512) ![512, 0] S512x512.size inb_S4096x512_S512x512_512_0)
abbrev x1Blk_1024 (x1 : Vec F S4096x512 .f32) : Vec F S512x512 .f32 :=
  View.ld x1 (Rect.unit (s := S4096x512) ![1024, 0] S512x512.size inb_S4096x512_S512x512_1024_0)
abbrev x1Blk_1536 (x1 : Vec F S4096x512 .f32) : Vec F S512x512 .f32 :=
  View.ld x1 (Rect.unit (s := S4096x512) ![1536, 0] S512x512.size inb_S4096x512_S512x512_1536_0)
abbrev x1Blk_2048 (x1 : Vec F S4096x512 .f32) : Vec F S512x512 .f32 :=
  View.ld x1 (Rect.unit (s := S4096x512) ![2048, 0] S512x512.size inb_S4096x512_S512x512_2048_0)
abbrev x1Blk_2560 (x1 : Vec F S4096x512 .f32) : Vec F S512x512 .f32 :=
  View.ld x1 (Rect.unit (s := S4096x512) ![2560, 0] S512x512.size inb_S4096x512_S512x512_2560_0)
abbrev x1Blk_3072 (x1 : Vec F S4096x512 .f32) : Vec F S512x512 .f32 :=
  View.ld x1 (Rect.unit (s := S4096x512) ![3072, 0] S512x512.size inb_S4096x512_S512x512_3072_0)
abbrev x1Blk_3584 (x1 : Vec F S4096x512 .f32) : Vec F S512x512 .f32 :=
  View.ld x1 (Rect.unit (s := S4096x512) ![3584, 0] S512x512.size inb_S4096x512_S512x512_3584_0)

/-- The eight pieces the first point writes into the staged-product buffer, last store first: row block `p` of the
    first features times the upper weight block, at rows `512 p …`. -/
def stagedPieces (x1 : Vec F S4096x512 .f32) (x3 : Vec F S1024x512 .f32) : List (View.Piece (Elt F) S4096x512 .bf16) :=
  [⟨Rect.unit (s := S4096x512) ![3584, 0] S512x512.size inb_S4096x512_S512x512_3584_0, k0_pay21 (k0_pay3 (wTop x3)) (x1Blk_3584 x1)⟩,
   ⟨Rect.unit (s := S4096x512) ![3072, 0] S512x512.size inb_S4096x512_S512x512_3072_0, k0_pay20 (k0_pay3 (wTop x3)) (x1Blk_3072 x1)⟩,
   ⟨Rect.unit (s := S4096x512) ![2560, 0] S512x512.size inb_S4096x512_S512x512_2560_0, k0_pay19 (k0_pay3 (wTop x3)) (x1Blk_2560 x1)⟩,
   ⟨Rect.unit (s := S4096x512) ![2048, 0] S512x512.size inb_S4096x512_S512x512_2048_0, k0_pay18 (k0_pay3 (wTop x3)) (k0_pay8 (x1Blk_2048 x1))⟩,
   ⟨Rect.unit (s := S4096x512) ![1536, 0] S512x512.size inb_S4096x512_S512x512_1536_0, k0_pay7 (wTop x3) (x1Blk_1536 x1)⟩,
   ⟨Rect.unit (s := S4096x512) ![1024, 0] S512x512.size inb_S4096x512_S512x512_1024_0, k0_pay6 (wTop x3) (x1Blk_1024 x1)⟩,
   ⟨Rect.unit (s := S4096x512) ![512, 0] S512x512.size inb_S4096x512_S512x512_512_0, k0_pay5 (wTop x3) (x1Blk_512 x1)⟩,
   ⟨Rect.unit (s := S4096x512) ![0, 0] S512x512.size inb_S4096x512_S512x512_0_0, k0_pay4 (wTop x3) (x1Blk_0 x1)⟩]

/-- The staged product as the first point reads it back: the eight pieces' contents. -/
def stagedT (x1 : Vec F S4096x512 .f32) (x3 : Vec F S1024x512 .f32) : Vec F S4096x512 .bf16 :=
  View.canon (stagedPieces x1 x3)

/-- The first point writes the eight staged-product pieces. -/
theorem runFirst_LT (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : condFirst i) (hc2 : ¬condLater i) (hc3 : ¬condLast i) (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) :
    (runFirst (F := F) c i arg1 harg1 arg2 harg2 arg3 harg3 arg4 harg4 arg5 harg5 arg6 harg6 arg7 harg7 arg8 harg8 arg9 harg9 arg10 harg10 arg11 harg11 hc0 hc2 hc3 x0 x1 x2 x3 x4 x5 x6).1 = stagedPieces x1 x3 := by
  unfold runFirst
  dsimp only
  sl_unfold_run_names
  simp only [View.readAt_eq_ld, Memref.IsWhole.read_unread, View.ld_unit_zero (S := S512x4096) zero_off2, View.ld_unit_zero (S := S4096x512) zero_off2, View.ld_unit_zero (S := S512x512) zero_off2, View.ld_unit_zero (S := S1x512) zero_off2]
  rfl

/-- A load of the whole staged-product buffer after the eight stores reads their contents. -/
theorem readCov_staged (v : View sig .tc .vmem S4096x512 .bf16) (x1 : Vec F S4096x512 .f32) (x3 : Vec F S1024x512 .f32) :
    v.readCov (stagedPieces x1 x3) (Rect.unit (s := S4096x512) ![0, 0] S4096x512.size inb_S4096x512_S4096x512_0_0).toLoadRect
      = stagedT x1 x3 := by
  rw [View.readCov_eq_canon']
  exact View.ld_unit_zero (S := S4096x512) zero_off2 _ (View.canon (stagedPieces x1 x3))

/-- The first point initialises the running sum with its block's column sums of `y`. -/
theorem runFirst_LS (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : condFirst i) (hc2 : ¬condLater i) (hc3 : ¬condLast i) (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) :
    (runFirst (F := F) c i arg1 harg1 arg2 harg2 arg3 harg3 arg4 harg4 arg5 harg5 arg6 harg6 arg7 harg7 arg8 harg8 arg9 harg9 arg10 harg10 arg11 harg11 hc0 hc2 hc3 x0 x1 x2 x3 x4 x5 x6).2.1
      = [⟨Rect.unit (s := S1x512) ![0, 0] S1x512.size inb_S1x512_S1x512_0_0, k0_pay25 x0 (stagedT x1 x3) x2 (wBot x3) x4⟩] := by
  unfold runFirst
  dsimp only
  sl_unfold_run_names
  simp only [View.readAt_eq_ld, Memref.IsWhole.read_unread, View.ld_unit_zero (S := S512x4096) zero_off2, View.ld_unit_zero (S := S4096x512) zero_off2, View.ld_unit_zero (S := S512x512) zero_off2, View.ld_unit_zero (S := S1x512) zero_off2]
  show [(⟨Rect.unit (s := S1x512) ![0, 0] S1x512.size inb_S1x512_S1x512_0_0, k0_pay25 x0 (arg9.view.readCov (stagedPieces x1 x3) (Rect.unit (s := S4096x512) ![0, 0] S4096x512.size inb_S4096x512_S4096x512_0_0).toLoadRect) x2 (wBot x3) x4⟩ : View.Piece (Elt F) S1x512 .f32)] = _
  rw [readCov_staged]

/-- … and the running sum of squares with its block's column sums of `y²`. -/
theorem runFirst_LQ (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : condFirst i) (hc2 : ¬condLater i) (hc3 : ¬condLast i) (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) :
    (runFirst (F := F) c i arg1 harg1 arg2 harg2 arg3 harg3 arg4 harg4 arg5 harg5 arg6 harg6 arg7 harg7 arg8 harg8 arg9 harg9 arg10 harg10 arg11 harg11 hc0 hc2 hc3 x0 x1 x2 x3 x4 x5 x6).2.2.1
      = [⟨Rect.unit (s := S1x512) ![0, 0] S1x512.size inb_S1x512_S1x512_0_0, k0_pay26 x0 (stagedT x1 x3) x2 (wBot x3) x4⟩] := by
  unfold runFirst
  dsimp only
  sl_unfold_run_names
  simp only [View.readAt_eq_ld, Memref.IsWhole.read_unread, View.ld_unit_zero (S := S512x4096) zero_off2, View.ld_unit_zero (S := S4096x512) zero_off2, View.ld_unit_zero (S := S512x512) zero_off2, View.ld_unit_zero (S := S1x512) zero_off2]
  show [(⟨Rect.unit (s := S1x512) ![0, 0] S1x512.size inb_S1x512_S1x512_0_0, k0_pay26 x0 (arg9.view.readCov (stagedPieces x1 x3) (Rect.unit (s := S4096x512) ![0, 0] S4096x512.size inb_S4096x512_S4096x512_0_0).toLoadRect) x2 (wBot x3) x4⟩ : View.Piece (Elt F) S1x512 .f32)] = _
  rw [readCov_staged]

/-- The first point writes one piece into the output buffer: its 512 rows of `y`. -/
theorem runFirst_LO (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : condFirst i) (hc2 : ¬condLater i) (hc3 : ¬condLast i) (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xo : Vec F S4096x512 .f32) :
    (runFirst (F := F) c i arg1 harg1 arg2 harg2 arg3 harg3 arg4 harg4 arg5 harg5 arg6 harg6 arg7 harg7 arg8 harg8 arg9 harg9 arg10 harg10 arg11 harg11 hc0 hc2 hc3 x0 x1 x2 x3 x4 x5 x6).2.2.2.1 xo
      = [⟨Rect.unit (s := S4096x512) (k0_off1 i) S512x512.size (k0_off1_inb i), k0_pay22 x0 (stagedT x1 x3) x2 (wBot x3) x4⟩] := by
  unfold runFirst
  dsimp only
  sl_unfold_run_names
  simp only [View.readAt_eq_ld, Memref.IsWhole.read_unread, View.ld_unit_zero (S := S512x4096) zero_off2, View.ld_unit_zero (S := S4096x512) zero_off2, View.ld_unit_zero (S := S512x512) zero_off2, View.ld_unit_zero (S := S1x512) zero_off2]
  show [(⟨Rect.unit (s := S4096x512) (k0_off1 i) S512x512.size (k0_off1_inb i), k0_pay22 x0 (arg9.view.readCov (stagedPieces x1 x3) (Rect.unit (s := S4096x512) ![0, 0] S4096x512.size inb_S4096x512_S4096x512_0_0).toLoadRect) x2 (wBot x3) x4⟩ : View.Piece (Elt F) S4096x512 .f32)] = _
  rw [readCov_staged]

end Cert.KernelIdeal.Body

end
-- ==== Proof.KIPiecesMiddle.lean ====
/-
  What the body writes at a middle grid point, read off its run: one piece into the output buffer (its 512 rows of
  `y`, a function of the blocks it loads and of the staged product), and each running sum rewritten whole (the sum
  found plus the block's column sums). Whole-buffer loads read the buffer's contents.
-/
import proofs.«148319_g18880676233904_cont_8to1_729_7_alg».proof.Proof.KIBodyMiddle
import proofs.«148319_g18880676233904_cont_8to1_729_7_alg».proof.Proof.KIPiecesCommon

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

open Cert.KernelIdeal Cert.KernelIdeal.Gen

/-- A middle point writes one piece into the output buffer: its 512 rows of `y`, at the rows of its block. -/
theorem runMiddle_LO (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : ¬condLast i) (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs : Vec F S1x512 .f32) (xq : Vec F S1x512 .f32) (xo : Vec F S4096x512 .f32) :
    (runMiddle (F := F) c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).2.2.1 xo
      = [⟨Rect.unit (s := S4096x512) (k0_off1 i) S512x512.size (k0_off1_inb i), k0_pay22 x0 xt x2 (wBot x3) x4⟩] := by
  unfold runMiddle
  dsimp only
  simp only [View.readAt_eq_ld, Memref.IsWhole.read_unread, View.ld_unit_zero (S := S512x4096) zero_off2, View.ld_unit_zero (S := S4096x512) zero_off2, View.ld_unit_zero (S := S512x512) zero_off2, View.ld_unit_zero (S := S1x512) zero_off2]

/-- A middle point rewrites the running sum whole: the sum it found plus its block's column sums. -/
theorem runMiddle_LS (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : ¬condLast i) (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs : Vec F S1x512 .f32) (xq : Vec F S1x512 .f32) :
    (runMiddle (F := F) c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).1
      = [⟨Rect.unit (s := S1x512) ![0, 0] S1x512.size inb_S1x512_S1x512_0_0, k0_pay27 x0 xt x2 (wBot x3) x4 xs⟩] := by
  unfold runMiddle
  dsimp only
  simp only [View.readAt_eq_ld, Memref.IsWhole.read_unread, View.ld_unit_zero (S := S512x4096) zero_off2, View.ld_unit_zero (S := S4096x512) zero_off2, View.ld_unit_zero (S := S512x512) zero_off2, View.ld_unit_zero (S := S1x512) zero_off2]

/-- … and the running sum of squares likewise. -/
theorem runMiddle_LQ (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : ¬condLast i) (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs : Vec F S1x512 .f32) (xq : Vec F S1x512 .f32) :
    (runMiddle (F := F) c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).2.1
      = [⟨Rect.unit (s := S1x512) ![0, 0] S1x512.size inb_S1x512_S1x512_0_0, k0_pay28 x0 xt x2 (wBot x3) x4 xq⟩] := by
  unfold runMiddle
  dsimp only
  simp only [View.readAt_eq_ld, Memref.IsWhole.read_unread, View.ld_unit_zero (S := S512x4096) zero_off2, View.ld_unit_zero (S := S4096x512) zero_off2, View.ld_unit_zero (S := S512x512) zero_off2, View.ld_unit_zero (S := S1x512) zero_off2]

end Cert.KernelIdeal.Body

end
-- ==== Proof.KIPiecesLast.lean ====
/-
  What the body writes at the last grid point, read off its run: the running sums rewritten whole as at a middle
  point; into the output buffer its 512 rows of `y`, and then the eight row blocks in turn, each loaded from the
  buffer as the writes before it left it and replaced by `max (block · scale + shift) 0`, the scale and shift rows
  formed from the final running sums. Whole-buffer loads read the buffer's contents, and a running sum read back
  after its one whole store reads the stored row.
-/
import proofs.«148319_g18880676233904_cont_8to1_729_7_alg».proof.Proof.KIBodyLast
import proofs.«148319_g18880676233904_cont_8to1_729_7_alg».proof.Proof.KIPiecesCommon
import proofs.«148319_g18880676233904_cont_8to1_729_7_alg».proof.Proof.KIValueReads

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

open Cert.KernelIdeal Cert.KernelIdeal.Gen

/-- The scale row the last point forms from the final running sums and `γ`. -/
abbrev lastScale (x0 : Vec F S512x4096 .f32) (xt : Vec F S4096x512 .bf16) (x2 : Vec F S512x512 .f32) (x3 : Vec F S1024x512 .f32)
    (x4 x5 : Vec F S1x512 .f32) (xs xq : Vec F S1x512 .f32) : FVec F S1x512 .f32 :=
  k0_pay10 (k0_pay27 x0 xt x2 (wBot x3) x4 xs) (k0_pay28 x0 xt x2 (wBot x3) x4 xq) x5

/-- The shift row the last point forms from the final running sums, `γ` and `β`. -/
abbrev lastShift (x0 : Vec F S512x4096 .f32) (xt : Vec F S4096x512 .bf16) (x2 : Vec F S512x512 .f32) (x3 : Vec F S1024x512 .f32)
    (x4 x5 x6 : Vec F S1x512 .f32) (xs xq : Vec F S1x512 .f32) : FVec F S1x512 .f32 :=
  k0_pay11 (k0_pay27 x0 xt x2 (wBot x3) x4 xs) (k0_pay28 x0 xt x2 (wBot x3) x4 xq) x5 x6

/-- The last point rewrites the running sum whole, as a middle point does. -/
theorem runLast_LS (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : condLast i) (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs : Vec F S1x512 .f32) (xq : Vec F S1x512 .f32) :
    (runLast (F := F) c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).1
      = [⟨Rect.unit (s := S1x512) ![0, 0] S1x512.size inb_S1x512_S1x512_0_0, k0_pay27 x0 xt x2 (wBot x3) x4 xs⟩] := by
  unfold runLast
  dsimp only
  sl_unfold_run_names
  simp only [View.readAt_eq_ld, Memref.IsWhole.read_unread, View.ld_unit_zero (S := S512x4096) zero_off2, View.ld_unit_zero (S := S4096x512) zero_off2, View.ld_unit_zero (S := S512x512) zero_off2, View.ld_unit_zero (S := S1x512) zero_off2]

/-- … and the running sum of squares. -/
theorem runLast_LQ (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : condLast i) (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs : Vec F S1x512 .f32) (xq : Vec F S1x512 .f32) :
    (runLast (F := F) c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).2.1
      = [⟨Rect.unit (s := S1x512) ![0, 0] S1x512.size inb_S1x512_S1x512_0_0, k0_pay28 x0 xt x2 (wBot x3) x4 xq⟩] := by
  unfold runLast
  dsimp only
  sl_unfold_run_names
  simp only [View.readAt_eq_ld, Memref.IsWhole.read_unread, View.ld_unit_zero (S := S512x4096) zero_off2, View.ld_unit_zero (S := S4096x512) zero_off2, View.ld_unit_zero (S := S512x512) zero_off2, View.ld_unit_zero (S := S1x512) zero_off2]

set_option maxHeartbeats 1000000 in
/-- The last point writes its 512 rows of `y` into the output buffer and then rewrites the eight row blocks in turn,
    each loaded from the buffer as the writes before it left it and passed through the normalisation. -/
theorem runLast_LO (c : Dev nD) (i : grid0.Coords) (arg1 : Memref sig .tc .vmem S512x4096 .f32) (harg1 : arg1.IsWhole) (arg2 : Memref sig .tc .vmem S4096x512 .f32) (harg2 : arg2.IsWhole) (arg3 : Memref sig .tc .vmem S512x512 .f32) (harg3 : arg3.IsWhole) (arg4 : Memref sig .tc .vmem S1024x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S4096x512 .f32) (harg8 : arg8.IsWhole) (arg9 : Memref sig .tc .vmem S4096x512 .bf16) (harg9 : arg9.IsWhole) (arg10 : Memref sig .tc .vmem S1x512 .f32) (harg10 : arg10.IsWhole) (arg11 : Memref sig .tc .vmem S1x512 .f32) (harg11 : arg11.IsWhole) (hc0 : ¬condFirst i) (hc2 : condLater i) (hc3 : condLast i) (x0 : Vec F S512x4096 .f32) (x1 : Vec F S4096x512 .f32) (x2 : Vec F S512x512 .f32) (x3 : Vec F S1024x512 .f32) (x4 : Vec F S1x512 .f32) (x5 : Vec F S1x512 .f32) (x6 : Vec F S1x512 .f32) (xt : Vec F S4096x512 .bf16) (xs : Vec F S1x512 .f32) (xq : Vec F S1x512 .f32) (xo : Vec F S4096x512 .f32) :
    (runLast (F := F) c i arg1 harg1 arg2 harg2 arg3 harg3 arg4 harg4 arg5 harg5 arg6 harg6 arg7 harg7 arg8 harg8 arg9 harg9 arg10 harg10 arg11 harg11 hc0 hc2 hc3 x0 x1 x2 x3 x4 x5 x6 xt xs xq).2.2.1 xo
      = normStep arg8.view (harg8.unread xo) ![3584, 0] inb_S4096x512_S512x512_3584_0 (k0_pay2 (lastScale x0 xt x2 x3 x4 x5 xs xq) (lastShift x0 xt x2 x3 x4 x5 x6 xs xq))
      (normStep arg8.view (harg8.unread xo) ![3072, 0] inb_S4096x512_S512x512_3072_0 (k0_pay1 (lastScale x0 xt x2 x3 x4 x5 xs xq) (lastShift x0 xt x2 x3 x4 x5 x6 xs xq))
      (normStep arg8.view (harg8.unread xo) ![2560, 0] inb_S4096x512_S512x512_2560_0 (k0_pay17 (lastScale x0 xt x2 x3 x4 x5 xs xq) (lastShift x0 xt x2 x3 x4 x5 x6 xs xq))
      (normStep arg8.view (harg8.unread xo) ![2048, 0] inb_S4096x512_S512x512_2048_0 (k0_pay16 (lastScale x0 xt x2 x3 x4 x5 xs xq) (lastShift x0 xt x2 x3 x4 x5 x6 xs xq))
      (normStep arg8.view (harg8.unread xo) ![1536, 0] inb_S4096x512_S512x512_1536_0 (k0_pay15 (lastScale x0 xt x2 x3 x4 x5 xs xq) (lastShift x0 xt x2 x3 x4 x5 x6 xs xq))
      (normStep arg8.view (harg8.unread xo) ![1024, 0] inb_S4096x512_S512x512_1024_0 (k0_pay14 (lastScale x0 xt x2 x3 x4 x5 xs xq) (lastShift x0 xt x2 x3 x4 x5 x6 xs xq))
      (normStep arg8.view (harg8.unread xo) ![512, 0] inb_S4096x512_S512x512_512_0 (k0_pay13 (k0_pay27 x0 xt x2 (wBot x3) x4 xs) (k0_pay28 x0 xt x2 (wBot x3) x4 xq) x5 x6)
      (normStep arg8.view (harg8.unread xo) ![0, 0] inb_S4096x512_S512x512_0_0 (k0_pay12 (k0_pay27 x0 xt x2 (wBot x3) x4 xs) (k0_pay28 x0 xt x2 (wBot x3) x4 xq) x5 x6)
      ([⟨Rect.unit (s := S4096x512) (k0_off1 i) S512x512.size (k0_off1_inb i), k0_pay22 x0 xt x2 (wBot x3) x4⟩])))))))) := by
  unfold runLast
  dsimp only
  sl_unfold_run_names
  simp only [View.readAt_eq_ld, Memref.IsWhole.read_unread, View.ld_unit_zero (S := S512x4096) zero_off2, View.ld_unit_zero (S := S4096x512) zero_off2, View.ld_unit_zero (S := S512x512) zero_off2, View.ld_unit_zero (S := S1x512) zero_off2, View.readCov_unit_zero (S := S1x512) arg10.view zero_off2, View.readCov_unit_zero (S := S1x512) arg11.view zero_off2]
  rfl

end Cert.KernelIdeal.Body

end
-- ==== Proof.KIBlocks.lean ====
/-
  The pipeline windows' blocks read at an index. At grid point `t` (one of 8) the adjacency window holds rows
  `512·t … 512·t + 511` of the [4096, 4096] array, the second feature window the same rows of its [4096, 512] array;
  the first feature window and the weight window hold their whole arrays; the three parameter windows hold the
  [1, 512] reshapes of the three [512] parameter vectors. An element of a block sits in its array, on each axis, at
  block index × block size + its own coordinate; the block indices are decided once over the grid.
-/
import proofs.«148319_g18880676233904_cont_8to1_729_7_alg».proof.Proof.Gen.KernelIdeal.Frame
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx Idealize.ShloMosaic.TcCoe
  Idealize.SL.Sem

variable {F : FTy → Type} [FloatOps F]
variable (m : (ℓ : Loc nD τ sig) → Buf (Elt F) ℓ)

/-! ## The block indices over the grid -/

/-- The printed index maps at every grid point: the two row-blocked windows are at block `(t, 0)`, every other
    window at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- A grid point's row block stays inside the 4096 rows. -/
theorem row_lt (t : Fin cfg0.N) (r : Fin 512) : 512 * t.val + r.val < 4096 := by
  have := t.isLt; have hN : cfg0.N = 8 := N_0; have := r.isLt; omega

/-! ## The four argument windows -/

/-- The adjacency block at point `t`: rows `512·t + r` of the array as launched. -/
theorem iblk0_apply (c : Dev nD) (t : Fin cfg0.N) (r : Fin 512) (k : Fin 4096) :
    iblk m c 0 t (ix2 r k) = m ((c.tc : Thread nD τ).loc main_arg2) (ix2 ⟨512 * t.val + r.val, row_lt t r⟩ k) := by
  rw [← V_main_arg2 m c]
  show V m c main_arg2 (((cfg0.win 0).blk t).view.emb (ix2 r k)) = V m c main_arg2 _
  refine congrArg (V m c main_arg2) ?_
  obtain ⟨e0, e1, -⟩ := idx_facts t
  funext a; apply Fin.ext
  match a with
  | ⟨0, _⟩ => show win0_0.index t (0 : Fin 2) * 512 + 1 * r.val = 512 * t.val + r.val; omega
  | ⟨1, _⟩ => show win0_0.index t (1 : Fin 2) * 4096 + 1 * k.val = k.val; omega

/-- The first feature window holds its whole array at every point. -/
theorem iblk1_apply (c : Dev nD) (t : Fin cfg0.N) (k : Fin 4096) (l : Fin 512) :
    iblk m c 1 t (ix2 k l) = m ((c.tc : Thread nD τ).loc main_arg0) (ix2 k l) := by
  rw [← V_main_arg0 m c]
  show V m c main_arg0 (((cfg0.win 1).blk t).view.emb (ix2 k l)) = V m c main_arg0 _
  refine congrArg (V m c main_arg0) ?_
  obtain ⟨-, -, e0, e1, -⟩ := idx_facts t
  funext a; apply Fin.ext
  match a with
  | ⟨0, _⟩ => show win0_1.index t (0 : Fin 2) * 4096 + 1 * k.val = k.val; omega
  | ⟨1, _⟩ => show win0_1.index t (1 : Fin 2) * 512 + 1 * l.val = l.val; omega

/-- The same as an equation of arrays. -/
theorem iblk1_eq (c : Dev nD) (t : Fin cfg0.N) :
    (iblk m c 1 t : S4096x512.Idx → Elt F .f32) = m ((c.tc : Thread nD τ).loc main_arg0) := by
  funext j
  obtain ⟨k, l, rfl⟩ : ∃ (k : Fin 4096) (l : Fin 512), j = ix2 k l := ⟨j 0, j 1, eq_ix2 j⟩
  exact iblk1_apply m c t k l

/-- The second feature block at point `t`: rows `512·t + r` of the array as launched. -/
theorem iblk2_apply (c : Dev nD) (t : Fin cfg0.N) (r k : Fin 512) :
    iblk m c 2 t (ix2 r k) = m ((c.tc : Thread nD τ).loc main_arg1) (ix2 ⟨512 * t.val + r.val, row_lt t r⟩ k) := by
  rw [← V_main_arg1 m c]
  show V m c main_arg1 (((cfg0.win 2).blk t).view.emb (ix2 r k)) = V m c main_arg1 _
  refine congrArg (V m c main_arg1) ?_
  obtain ⟨-, -, -, -, e0, e1, -⟩ := idx_facts t
  funext a; apply Fin.ext
  match a with
  | ⟨0, _⟩ => show win0_2.index t (0 : Fin 2) * 512 + 1 * r.val = 512 * t.val + r.val; omega
  | ⟨1, _⟩ => show win0_2.index t (1 : Fin 2) * 512 + 1 * k.val = k.val; omega

/-- The weight window holds its whole array at every point. -/
theorem iblk3_apply (c : Dev nD) (t : Fin cfg0.N) (k : Fin 1024) (j : Fin 512) :
    iblk m c 3 t (ix2 k j) = m ((c.tc : Thread nD τ).loc main_arg3) (ix2 k j) := by
  rw [← V_main_arg3 m c]
  show V m c main_arg3 (((cfg0.win 3).blk t).view.emb (ix2 k j)) = V m c main_arg3 _
  refine congrArg (V m c main_arg3) ?_
  obtain ⟨-, -, -, -, -, -, e0, e1, -⟩ := idx_facts t
  funext a; apply Fin.ext
  match a with
  | ⟨0, _⟩ => show win0_3.index t (0 : Fin 2) * 1024 + 1 * k.val = k.val; omega
  | ⟨1, _⟩ => show win0_3.index t (1 : Fin 2) * 512 + 1 * j.val = j.val; omega

/-! ## The three parameter windows: [512] vectors reshaped to [1, 512] before the region -/

/-- A [512] vector reshaped to [1, 512] reads the vector's entry. -/
theorem reshape_row_apply {α : Type} (x : S512.Idx → α) (h : S512.ShapeCasts S1x512) (j : Fin 512) :
    shapeCast S1x512 x h (ix2 (0 : Fin 1) j) = x (ix1 j) :=
  shapeCast_apply x h (ix2 (0 : Fin 1) j) (ix1 j) (by
    rw [Shape.rowMajor_val_two, Shape.rowMajor_val_one]; show j.val = 0 * 512 + j.val; omega)

/-- The bias's [1, 512] array when the region is entered is the reshape of the vector as launched. -/
theorem V_main_v0 (c : Dev nD) :
    (V m c main_v0 : S1x512.Idx → Elt F .f32) = shapeCast S1x512 (m ((c.tc : Thread nD τ).loc main_arg4)) shapeCasts_S512_S1x512 := by
  dsimp only [V, hostOps0]
  after_results
  rfl

/-- The scale's likewise. -/
theorem V_main_v1 (c : Dev nD) :
    (V m c main_v1 : S1x512.Idx → Elt F .f32) = shapeCast S1x512 (m ((c.tc : Thread nD τ).loc main_arg5)) shapeCasts_S512_S1x512 := by
  dsimp only [V, hostOps0]
  after_results
  rfl

/-- The shift's likewise. -/
theorem V_main_v2 (c : Dev nD) :
    (V m c main_v2 : S1x512.Idx → Elt F .f32) = shapeCast S1x512 (m ((c.tc : Thread nD τ).loc main_arg6)) shapeCasts_S512_S1x512 := by
  dsimp only [V, hostOps0]
  after_results
  rfl

/-- The bias window at every point: the bias vector's entry. -/
theorem iblk4_apply (c : Dev nD) (t : Fin cfg0.N) (j : Fin 512) :
    iblk m c 4 t (ix2 (0 : Fin 1) j) = m ((c.tc : Thread nD τ).loc main_arg4) (ix1 j) := by
  rw [← reshape_row_apply (m ((c.tc : Thread nD τ).loc main_arg4)) shapeCasts_S512_S1x512 j, ← V_main_v0 m c]
  show V m c main_v0 (((cfg0.win 4).blk t).view.emb (ix2 (0 : Fin 1) j)) = V m c main_v0 _
  refine congrArg (V m c main_v0) ?_
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 512 + 1 * j.val = j.val; omega

/-- The scale window at every point: the scale vector's entry. -/
theorem iblk5_apply (c : Dev nD) (t : Fin cfg0.N) (j : Fin 512) :
    iblk m c 5 t (ix2 (0 : Fin 1) j) = m ((c.tc : Thread nD τ).loc main_arg5) (ix1 j) := by
  rw [← reshape_row_apply (m ((c.tc : Thread nD τ).loc main_arg5)) shapeCasts_S512_S1x512 j, ← V_main_v1 m c]
  show V m c main_v1 (((cfg0.win 5).blk t).view.emb (ix2 (0 : Fin 1) j)) = V m c main_v1 _
  refine congrArg (V m c main_v1) ?_
  obtain ⟨-, -, -, -, -, -, -, -, -, -, e0, e1, -⟩ := idx_facts t
  funext a; apply Fin.ext
  match a with
  | ⟨0, _⟩ => show win0_5.index t (0 : Fin 2) * 1 + 1 * 0 = 0; omega
  | ⟨1, _⟩ => show win0_5.index t (1 : Fin 2) * 512 + 1 * j.val = j.val; omega

/-- The shift window at every point: the shift vector's entry. -/
theorem iblk6_apply (c : Dev nD) (t : Fin cfg0.N) (j : Fin 512) :
    iblk m c 6 t (ix2 (0 : Fin 1) j) = m ((c.tc : Thread nD τ).loc main_arg6) (ix1 j) := by
  rw [← reshape_row_apply (m ((c.tc : Thread nD τ).loc main_arg6)) shapeCasts_S512_S1x512 j, ← V_main_v2 m c]
  show V m c main_v2 (((cfg0.win 6).blk t).view.emb (ix2 (0 : Fin 1) j)) = V m c main_v2 _
  refine congrArg (V m c main_v2) ?_
  obtain ⟨-, -, -, -, -, -, -, -, -, -, -, -, e0, e1⟩ := idx_facts t
  funext a; apply Fin.ext
  match a with
  | ⟨0, _⟩ => show win0_6.index t (0 : Fin 2) * 1 + 1 * 0 = 0; omega
  | ⟨1, _⟩ => show win0_6.index t (1 : Fin 2) * 512 + 1 * j.val = j.val; omega

end Cert.KernelIdeal.Body

end
-- ==== Proof.KIBlockValue.lean ====
/-
  What the body computes for a grid point's 512 rows, in the specification's terms. With the staged product `T`
  equal to `x1 · W_top` entry by entry, the block of `y` the body forms at point `t` is the specification's `yK` at rows
  `512·t + r`: the adjacency block's row times `T`'s column, plus the second feature block's row times the lower weight
  block's column, plus the bias; and the block's column sums of `y` and of `y²` are the specification's per-block sums.
-/
import proofs.«148319_g18880676233904_cont_8to1_729_7_alg».proof.Proof.Spec
import proofs.«148319_g18880676233904_cont_8to1_729_7_alg».proof.Proof.KIBlocks
import proofs.«148319_g18880676233904_cont_8to1_729_7_alg».proof.Proof.KIPayloadAt
import proofs.«148319_g18880676233904_cont_8to1_729_7_alg».proof.Proof.KIPiecesCommon

noncomputable section

open scoped BigOperators

namespace Cert.KernelIdeal.Body

open Cert.KernelIdeal Cert.KernelIdeal.Gen Idealize.ShloMosaic Idealize.ShloMosaic.ValueIdx Idealize.ShloMosaic.TcCoe
  Idealize.SL.Sem

/-- The lower half of the weight array read at `(k, j)`: row `512 + k`. -/
theorem wBot_apply {F : FTy → Type} [FloatOps F] (x3 : Vec F S1024x512 .f32) (k j : Fin 512) :
    wBot x3 (ix2 k j) = x3 (ix2 ⟨512 + k.val, by have := k.isLt; omega⟩ j) := by
  show x3 _ = x3 _
  refine congrArg x3 ?_
  funext a; apply Fin.ext
  match a with
  | ⟨0, _⟩ => show 512 + 1 * k.val = 512 + k.val; omega
  | ⟨1, _⟩ => show 0 + 1 * j.val = j.val; omega

variable (m : (ℓ : Loc nD τ sig) → Buf (Elt Ideal) ℓ)

/-- A grid point is one of the specification's 8 row blocks. -/
theorem pt_lt (t : Fin cfg0.N) : t.val < 8 := by
  have := t.isLt; have hN : cfg0.N = 8 := N_0; omega

/-- The block of `y` at point `t`, row `r`, column `j`. -/
theorem yBlock_apply (c : Dev nD) (t : Fin cfg0.N) (T : Vec Ideal S4096x512 .bf16)
    (hT : ∀ (k : Fin 4096) (j : Fin 512), T (ix2 k j) = Cert.Exchange.tK (m ((c.tc : Thread nD τ).loc main_arg0)) (m ((c.tc : Thread nD τ).loc main_arg3)) k j)
    (r j : Fin 512) :
    k0_pay22 (iblk m c 0 t) T (iblk m c 2 t) (wBot (iblk m c 3 t)) (iblk m c 4 t) (ix2 r j)
      = Cert.Exchange.yK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          ⟨512 * t.val + r.val, row_lt t r⟩ j := by
  have hA : ∀ k : Fin 4096, iblk m c 0 t (ix2 r k)
      = (m ((c.tc : Thread nD τ).loc main_arg2)) (ix2 ⟨512 * t.val + r.val, row_lt t r⟩ k) := fun k => iblk0_apply m c t r k
  have hX : ∀ k : Fin 512, iblk m c 2 t (ix2 r k)
      = (m ((c.tc : Thread nD τ).loc main_arg1)) (ix2 ⟨512 * t.val + r.val, row_lt t r⟩ k) := fun k => iblk2_apply m c t r k
  have hW : ∀ k : Fin 512, wBot (iblk m c 3 t) (ix2 k j)
      = (m ((c.tc : Thread nD τ).loc main_arg3)) (ix2 ⟨512 + k.val, by have := k.isLt; omega⟩ j) :=
    fun k => (wBot_apply (iblk m c 3 t) k j).trans (iblk3_apply m c t _ j)
  have hB : iblk m c 4 t (ix2 (0 : Fin 1) j) = (m ((c.tc : Thread nD τ).loc main_arg4)) (ix1 j) := iblk4_apply m c t j
  refine (PayloadAt.k0_pay22_apply (iblk m c 0 t) T (iblk m c 2 t) (wBot (iblk m c 3 t)) (iblk m c 4 t) r j).trans ?_
  unfold Cert.Exchange.yK
  rw [hB]
  refine congrArg (· + (m ((c.tc : Thread nD τ).loc main_arg4)) (ix1 j)) ?_
  refine congrArg₂ (· + ·) (Finset.sum_congr rfl fun k _ => ?_) (Finset.sum_congr rfl fun k _ => ?_)
  · rw [hA k, hT k j]
  · rw [hX k, hW k]

/-- The block's column sums of `y`: the specification's sum of row block `t`. -/
theorem colSum_apply (c : Dev nD) (t : Fin cfg0.N) (T : Vec Ideal S4096x512 .bf16)
    (hT : ∀ (k : Fin 4096) (j : Fin 512), T (ix2 k j) = Cert.Exchange.tK (m ((c.tc : Thread nD τ).loc main_arg0)) (m ((c.tc : Thread nD τ).loc main_arg3)) k j)
    (j : Fin 512) :
    k0_pay23 (iblk m c 0 t) T (iblk m c 2 t) (wBot (iblk m c 3 t)) (iblk m c 4 t) (ix2 (0 : Fin 1) j)
      = Cert.Exchange.psK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          ⟨t.val, pt_lt t⟩ j := by
  refine (PayloadAt.k0_pay23_apply (iblk m c 0 t) T (iblk m c 2 t) (wBot (iblk m c 3 t)) (iblk m c 4 t) j).trans ?_
  unfold Cert.Exchange.psK
  exact Finset.sum_congr rfl fun r _ => yBlock_apply m c t T hT r j

/-- The block's column sums of `y²`: the specification's sum of squares of row block `t`. -/
theorem colSumSq_apply (c : Dev nD) (t : Fin cfg0.N) (T : Vec Ideal S4096x512 .bf16)
    (hT : ∀ (k : Fin 4096) (j : Fin 512), T (ix2 k j) = Cert.Exchange.tK (m ((c.tc : Thread nD τ).loc main_arg0)) (m ((c.tc : Thread nD τ).loc main_arg3)) k j)
    (j : Fin 512) :
    k0_pay24 (iblk m c 0 t) T (iblk m c 2 t) (wBot (iblk m c 3 t)) (iblk m c 4 t) (ix2 (0 : Fin 1) j)
      = Cert.Exchange.pssK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          ⟨t.val, pt_lt t⟩ j := by
  refine (PayloadAt.k0_pay24_apply (iblk m c 0 t) T (iblk m c 2 t) (wBot (iblk m c 3 t)) (iblk m c 4 t) j).trans ?_
  unfold Cert.Exchange.pssK
  exact Finset.sum_congr rfl fun r _ => by rw [yBlock_apply m c t T hT r j]

end Cert.KernelIdeal.Body

end
-- ==== Proof.KIStaged.lean ====
/-
  The staged product. The first grid point writes `x1 · W_top` into a scratch buffer as eight row blocks of 512 rows:
  block `p` is rows `512·p …` of the first feature array times the upper half of the weight array. Each block's
  payload agrees with ONE function of the buffer's index — `(k, j) ↦ Σ_l x1[k, l] · W[l, j]` —, and the eight blocks
  tile the buffer, so what is read back is that function at every index: the specification's staged product.
-/
import proofs.«148319_g18880676233904_cont_8to1_729_7_alg».proof.Proof.Spec
import proofs.«148319_g18880676233904_cont_8to1_729_7_alg».proof.Proof.KIBlocks
import proofs.«148319_g18880676233904_cont_8to1_729_7_alg».proof.Proof.KIPayloadAt
import proofs.«148319_g18880676233904_cont_8to1_729_7_alg».proof.Proof.KIPiecesFirst
import Idealize.ShloMosaic.Lib.Ring
import Idealize.ShloMosaic.Lib.Tactic

noncomputable section

open scoped BigOperators

namespace Cert.KernelIdeal.Body

open Cert.KernelIdeal Cert.KernelIdeal.Gen Idealize.ShloMosaic Idealize.ShloMosaic.ValueIdx Idealize.ShloMosaic.TcCoe
  Idealize.SL.Sem Idealize.ShloMosaic.Tactic

/-- The product of the first feature array with the upper half of the weight array, entry by entry. -/
def tFun (x1 : Vec Ideal S4096x512 .f32) (x3 : Vec Ideal S1024x512 .f32) : S4096x512.Idx → Elt Ideal .bf16 :=
  fun i => ∑ l : Fin 512, x1 (ix2 (⟨(i 0).val, idx2_lt0 i⟩ : Fin 4096) l)
    * x3 (ix2 (⟨l.val, by have := l.isLt; omega⟩ : Fin 1024) (⟨(i 1).val, idx2_lt1 i⟩ : Fin 512))

theorem tFun_apply (x1 : Vec Ideal S4096x512 .f32) (x3 : Vec Ideal S1024x512 .f32) (k : Fin 4096) (j : Fin 512) :
    tFun x1 x3 (ix2 k j) = ∑ l : Fin 512, x1 (ix2 k l) * x3 (ix2 ⟨l.val, by have := l.isLt; omega⟩ j) := rfl

/-- A row block's payload that is "the block's rows times the upper weight block" agrees with `tFun` at the block's
    place in the buffer: row `r` of the block at offset `o` is row `o + r` of the array. -/
theorem piece_eq (x1 : Vec Ideal S4096x512 .f32) (x3 : Vec Ideal S1024x512 .f32) (o : Nat)
    (inb : ∀ a, (![o, 0] : Fin 2 → Nat) a + S512x512.size a ≤ S4096x512.size a) (P : Vec Ideal S512x512 .bf16)
    (hP : ∀ r j : Fin 512, P (ix2 r j)
      = ∑ l : Fin 512, View.ld x1 (Rect.unit (s := S4096x512) ![o, 0] S512x512.size inb) (ix2 r l) * wTop x3 (ix2 l j))
    (x : (Rect.unit (s := S4096x512) ![o, 0] S512x512.size inb).shape.Idx) :
    P x = tFun x1 x3 ((Rect.unit (s := S4096x512) ![o, 0] S512x512.size inb).emb x) := by
  obtain ⟨r, j, rfl⟩ : ∃ (r j : Fin 512), x = ix2 r j := ⟨x 0, x 1, eq_ix2 x⟩
  rw [hP]
  unfold tFun
  refine Finset.sum_congr rfl fun l _ => ?_
  refine congrArg₂ (· * ·) (congrArg x1 ?_) (congrArg x3 ?_)
  · funext a; apply Fin.ext
    match a with
    | ⟨0, _⟩ => rfl
    | ⟨1, _⟩ => show 0 + 1 * l.val = l.val; omega
  · funext a; apply Fin.ext
    match a with
    | ⟨0, _⟩ => show 0 + 1 * l.val = l.val; omega
    | ⟨1, _⟩ => rfl

/-- Each of the eight pieces is its block of `tFun`. -/
theorem staged_pieces_eq (x1 : Vec Ideal S4096x512 .f32) (x3 : Vec Ideal S1024x512 .f32) :
    ∀ p ∈ stagedPieces x1 x3, ∀ x : p.1.shape.Idx, p.2 x = tFun x1 x3 (p.1.emb x) := by
  intro p hp
  simp only [stagedPieces, List.mem_cons, List.not_mem_nil, or_false] at hp
  rcases hp with rfl | rfl | rfl | rfl | rfl | rfl | rfl | rfl
  · exact piece_eq x1 x3 3584 _ _ (fun r j => PayloadAt.k0_pay21_apply (k0_pay3 (wTop x3)) (x1Blk_3584 x1) r j)
  · exact piece_eq x1 x3 3072 _ _ (fun r j => PayloadAt.k0_pay20_apply (k0_pay3 (wTop x3)) (x1Blk_3072 x1) r j)
  · exact piece_eq x1 x3 2560 _ _ (fun r j => PayloadAt.k0_pay19_apply (k0_pay3 (wTop x3)) (x1Blk_2560 x1) r j)
  · exact piece_eq x1 x3 2048 _ _ (fun r j => PayloadAt.k0_pay18_apply (k0_pay3 (wTop x3)) (k0_pay8 (x1Blk_2048 x1)) r j)
  · exact piece_eq x1 x3 1536 _ _ (fun r j => PayloadAt.k0_pay7_apply (wTop x3) (x1Blk_1536 x1) r j)
  · exact piece_eq x1 x3 1024 _ _ (fun r j => PayloadAt.k0_pay6_apply (wTop x3) (x1Blk_1024 x1) r j)
  · exact piece_eq x1 x3 512 _ _ (fun r j => PayloadAt.k0_pay5_apply (wTop x3) (x1Blk_512 x1) r j)
  · exact piece_eq x1 x3 0 _ _ (fun r j => PayloadAt.k0_pay4_apply (wTop x3) (x1Blk_0 x1) r j)

/-- The staged product read back, at `(k, j)`. -/
theorem stagedT_apply (x1 : Vec Ideal S4096x512 .f32) (x3 : Vec Ideal S1024x512 .f32) (k : Fin 4096) (j : Fin 512) :
    stagedT x1 x3 (ix2 k j) = ∑ l : Fin 512, x1 (ix2 k l) * x3 (ix2 ⟨l.val, by have := l.isLt; omega⟩ j) :=
  View.canon_apply_of_pieces (tFun x1 x3) (stagedPieces x1 x3) (staged_pieces_eq x1 x3) (ix2 k j)
    (View.cover_of_tiledL (stagedPieces x1 x3) S512x512.size (by sl_kernel_rfl) (ix2 k j))

variable (m : (ℓ : Loc nD τ sig) → Buf (Elt Ideal) ℓ)

/-- Of the first feature window's and the weight window's blocks — both whole arrays at every grid point — it is the
    specification's staged product of the arrays as launched. -/
theorem stagedT_eq_tK (c : Dev nD) (t : Fin cfg0.N) (k : Fin 4096) (j : Fin 512) :
    stagedT (iblk m c 1 t) (iblk m c 3 t) (ix2 k j)
      = Cert.Exchange.tK (m ((c.tc : Thread nD τ).loc main_arg0)) (m ((c.tc : Thread nD τ).loc main_arg3)) k j := by
  refine (stagedT_apply (iblk m c 1 t) (iblk m c 3 t) k j).trans ?_
  unfold Cert.Exchange.tK
  exact Finset.sum_congr rfl fun l _ => by rw [iblk1_apply m c t k l, iblk3_apply m c t _ j]

end Cert.KernelIdeal.Body

end
-- ==== Proof.KIScratch.lean ====
/-
  The scratch buffers after each grid point, and the pieces each point writes into the output buffer.

  The first scratch buffer holds the staged product `t = x1 · W_top` from the first point on and is never rewritten.
  The two running sums are rewritten whole at every point: the first point stores its block's column sums of `y` and
  `y²`, every later point adds its block's sums to what it found. So after the point at position `n` they hold the sums
  over the row blocks `0 … n`, added block after block. Every point but the last writes one piece into the output
  buffer, its 512 rows of `y`; the last point then rewrites the eight row blocks in turn. On the extended reals the
  block of `y` at point `t` is rows `512 t …` of `y`, and the sums after position `n` are the accumulated block sums.
-/
import proofs.«148319_g18880676233904_cont_8to1_729_7_alg».proof.Proof.KIData
import proofs.«148319_g18880676233904_cont_8to1_729_7_alg».proof.Proof.KIPiecesFirst
import proofs.«148319_g18880676233904_cont_8to1_729_7_alg».proof.Proof.KIPiecesMiddle
import proofs.«148319_g18880676233904_cont_8to1_729_7_alg».proof.Proof.KIPiecesLast
import proofs.«148319_g18880676233904_cont_8to1_729_7_alg».proof.Proof.KIBlockValue
import proofs.«148319_g18880676233904_cont_8to1_729_7_alg».proof.Proof.KIStaged

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

open Cert.KernelIdeal Cert.KernelIdeal.Gen

open Idealize.ShloMosaic.ValueIdx

/-- Storing a row unchanged: the first block's sums are stored as they are (at every float instance). -/
theorem k0_pay25_eq' (A : Vec F S512x4096 .f32) (T : Vec F S4096x512 .bf16) (X2 Wb : Vec F S512x512 .f32) (B : Vec F S1x512 .f32) :
    k0_pay25 A T X2 Wb B = k0_pay23 A T X2 Wb B := by
  unfold k0_pay25
  exact shapeCast_self _ _

theorem k0_pay26_eq' (A : Vec F S512x4096 .f32) (T : Vec F S4096x512 .bf16) (X2 Wb : Vec F S512x512 .f32) (B : Vec F S1x512 .f32) :
    k0_pay26 A T X2 Wb B = k0_pay24 A T X2 Wb B := by
  unfold k0_pay26
  exact shapeCast_self _ _

variable (m : (ℓ : Loc nD τ sig) → Buf (Elt F) ℓ)

/-! ## The three runs' pieces on the pipeline's memrefs and the windows' blocks -/

theorem firstAt_LT (c : Dev nD) (t : Fin cfg0.N) (h0 : t.val = 0) :
    (firstAt m c t h0).1 = stagedPieces (iblk m c 1 t) (iblk m c 3 t) :=
  runFirst_LT (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _) _ _ _ (iblk m c 0 t) (iblk m c 1 t) (iblk m c 2 t) (iblk m c 3 t) (iblk m c 4 t) (iblk m c 5 t) (iblk m c 6 t)

theorem firstAt_LS (c : Dev nD) (t : Fin cfg0.N) (h0 : t.val = 0) :
    (firstAt m c t h0).2.1 = [⟨Rect.unit (s := S1x512) ![0, 0] S1x512.size inb_S1x512_S1x512_0_0,
      k0_pay25 (iblk m c 0 t) (stagedT (iblk m c 1 t) (iblk m c 3 t)) (iblk m c 2 t) (wBot (iblk m c 3 t)) (iblk m c 4 t)⟩] :=
  runFirst_LS (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _) _ _ _ (iblk m c 0 t) (iblk m c 1 t) (iblk m c 2 t) (iblk m c 3 t) (iblk m c 4 t) (iblk m c 5 t) (iblk m c 6 t)

theorem firstAt_LQ (c : Dev nD) (t : Fin cfg0.N) (h0 : t.val = 0) :
    (firstAt m c t h0).2.2.1 = [⟨Rect.unit (s := S1x512) ![0, 0] S1x512.size inb_S1x512_S1x512_0_0,
      k0_pay26 (iblk m c 0 t) (stagedT (iblk m c 1 t) (iblk m c 3 t)) (iblk m c 2 t) (wBot (iblk m c 3 t)) (iblk m c 4 t)⟩] :=
  runFirst_LQ (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _) _ _ _ (iblk m c 0 t) (iblk m c 1 t) (iblk m c 2 t) (iblk m c 3 t) (iblk m c 4 t) (iblk m c 5 t) (iblk m c 6 t)

theorem firstAt_LO (c : Dev nD) (t : Fin cfg0.N) (h0 : t.val = 0) (Y : Vec F S4096x512 .f32) :
    (firstAt m c t h0).2.2.2.1 Y = [⟨Rect.unit (s := S4096x512) (k0_off1 (grid0.coords t)) S512x512.size (k0_off1_inb (grid0.coords t)),
      k0_pay22 (iblk m c 0 t) (stagedT (iblk m c 1 t) (iblk m c 3 t)) (iblk m c 2 t) (wBot (iblk m c 3 t)) (iblk m c 4 t)⟩] :=
  runFirst_LO (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _) _ _ _ (iblk m c 0 t) (iblk m c 1 t) (iblk m c 2 t) (iblk m c 3 t) (iblk m c 4 t) (iblk m c 5 t) (iblk m c 6 t) Y

theorem middleAt_LS (c : Dev nD) (t : Fin cfg0.N) (h0 : t.val ≠ 0) (h7 : t.val ≠ 7) (xt : Vec F S4096x512 .bf16) (xs xq : Vec F S1x512 .f32) :
    (middleAt m c t h0 h7 xt xs xq).1 = [⟨Rect.unit (s := S1x512) ![0, 0] S1x512.size inb_S1x512_S1x512_0_0,
      k0_pay27 (iblk m c 0 t) xt (iblk m c 2 t) (wBot (iblk m c 3 t)) (iblk m c 4 t) xs⟩] :=
  runMiddle_LS (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _) _ _ _ (iblk m c 0 t) (iblk m c 1 t) (iblk m c 2 t) (iblk m c 3 t) (iblk m c 4 t) (iblk m c 5 t) (iblk m c 6 t) xt xs xq

theorem middleAt_LQ (c : Dev nD) (t : Fin cfg0.N) (h0 : t.val ≠ 0) (h7 : t.val ≠ 7) (xt : Vec F S4096x512 .bf16) (xs xq : Vec F S1x512 .f32) :
    (middleAt m c t h0 h7 xt xs xq).2.1 = [⟨Rect.unit (s := S1x512) ![0, 0] S1x512.size inb_S1x512_S1x512_0_0,
      k0_pay28 (iblk m c 0 t) xt (iblk m c 2 t) (wBot (iblk m c 3 t)) (iblk m c 4 t) xq⟩] :=
  runMiddle_LQ (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _) _ _ _ (iblk m c 0 t) (iblk m c 1 t) (iblk m c 2 t) (iblk m c 3 t) (iblk m c 4 t) (iblk m c 5 t) (iblk m c 6 t) xt xs xq

theorem middleAt_LO (c : Dev nD) (t : Fin cfg0.N) (h0 : t.val ≠ 0) (h7 : t.val ≠ 7) (xt : Vec F S4096x512 .bf16) (xs xq : Vec F S1x512 .f32) (Y : Vec F S4096x512 .f32) :
    (middleAt m c t h0 h7 xt xs xq).2.2.1 Y = [⟨Rect.unit (s := S4096x512) (k0_off1 (grid0.coords t)) S512x512.size (k0_off1_inb (grid0.coords t)),
      k0_pay22 (iblk m c 0 t) xt (iblk m c 2 t) (wBot (iblk m c 3 t)) (iblk m c 4 t)⟩] :=
  runMiddle_LO (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _) _ _ _ (iblk m c 0 t) (iblk m c 1 t) (iblk m c 2 t) (iblk m c 3 t) (iblk m c 4 t) (iblk m c 5 t) (iblk m c 6 t) xt xs xq Y

theorem lastAt_LS (c : Dev nD) (t : Fin cfg0.N) (h7 : t.val = 7) (xt : Vec F S4096x512 .bf16) (xs xq : Vec F S1x512 .f32) :
    (lastAt m c t h7 xt xs xq).1 = [⟨Rect.unit (s := S1x512) ![0, 0] S1x512.size inb_S1x512_S1x512_0_0,
      k0_pay27 (iblk m c 0 t) xt (iblk m c 2 t) (wBot (iblk m c 3 t)) (iblk m c 4 t) xs⟩] :=
  runLast_LS (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _) _ _ _ (iblk m c 0 t) (iblk m c 1 t) (iblk m c 2 t) (iblk m c 3 t) (iblk m c 4 t) (iblk m c 5 t) (iblk m c 6 t) xt xs xq

theorem lastAt_LQ (c : Dev nD) (t : Fin cfg0.N) (h7 : t.val = 7) (xt : Vec F S4096x512 .bf16) (xs xq : Vec F S1x512 .f32) :
    (lastAt m c t h7 xt xs xq).2.1 = [⟨Rect.unit (s := S1x512) ![0, 0] S1x512.size inb_S1x512_S1x512_0_0,
      k0_pay28 (iblk m c 0 t) xt (iblk m c 2 t) (wBot (iblk m c 3 t)) (iblk m c 4 t) xq⟩] :=
  runLast_LQ (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _) _ _ _ (iblk m c 0 t) (iblk m c 1 t) (iblk m c 2 t) (iblk m c 3 t) (iblk m c 4 t) (iblk m c 5 t) (iblk m c 6 t) xt xs xq

theorem lastAt_LO (c : Dev nD) (t : Fin cfg0.N) (h7 : t.val = 7) (xt : Vec F S4096x512 .bf16) (xs xq : Vec F S1x512 .f32) (Y : Vec F S4096x512 .f32) :
    (lastAt m c t h7 xt xs xq).2.2.1 Y
      = normStep (ms7 t).view ((hs7 t).unread Y) ![3584, 0] inb_S4096x512_S512x512_3584_0 (k0_pay2 (k0_pay10 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t)) (k0_pay11 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t) (iblk m c 6 t)))
      (normStep (ms7 t).view ((hs7 t).unread Y) ![3072, 0] inb_S4096x512_S512x512_3072_0 (k0_pay1 (k0_pay10 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t)) (k0_pay11 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t) (iblk m c 6 t)))
      (normStep (ms7 t).view ((hs7 t).unread Y) ![2560, 0] inb_S4096x512_S512x512_2560_0 (k0_pay17 (k0_pay10 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t)) (k0_pay11 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t) (iblk m c 6 t)))
      (normStep (ms7 t).view ((hs7 t).unread Y) ![2048, 0] inb_S4096x512_S512x512_2048_0 (k0_pay16 (k0_pay10 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t)) (k0_pay11 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t) (iblk m c 6 t)))
      (normStep (ms7 t).view ((hs7 t).unread Y) ![1536, 0] inb_S4096x512_S512x512_1536_0 (k0_pay15 (k0_pay10 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t)) (k0_pay11 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t) (iblk m c 6 t)))
      (normStep (ms7 t).view ((hs7 t).unread Y) ![1024, 0] inb_S4096x512_S512x512_1024_0 (k0_pay14 (k0_pay10 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t)) (k0_pay11 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t) (iblk m c 6 t)))
      (normStep (ms7 t).view ((hs7 t).unread Y) ![512, 0] inb_S4096x512_S512x512_512_0 (k0_pay13 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t) (iblk m c 6 t))
      (normStep (ms7 t).view ((hs7 t).unread Y) ![0, 0] inb_S4096x512_S512x512_0_0 (k0_pay12 (k0_pay27 (iblk m c 0 t) xt (iblk m c 2 t) (wBot (iblk m c 3 t)) (iblk m c 4 t) xs) (k0_pay28 (iblk m c 0 t) xt (iblk m c 2 t) (wBot (iblk m c 3 t)) (iblk m c 4 t) xq) (iblk m c 5 t) (iblk m c 6 t))
      ([⟨Rect.unit (s := S4096x512) (k0_off1 (grid0.coords t)) S512x512.size (k0_off1_inb (grid0.coords t)), k0_pay22 (iblk m c 0 t) xt (iblk m c 2 t) (wBot (iblk m c 3 t)) (iblk m c 4 t)⟩])))))))) :=
  runLast_LO (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scT (Memref.isWhole_whole _) scS (Memref.isWhole_whole _) scQ (Memref.isWhole_whole _) _ _ _ (iblk m c 0 t) (iblk m c 1 t) (iblk m c 2 t) (iblk m c 3 t) (iblk m c 4 t) (iblk m c 5 t) (iblk m c 6 t) xt xs xq Y

/-! ## The scratch buffers after each point -/

/-- The first grid point. -/
abbrev tFirst : Fin cfg0.N := ⟨0, by rw [show cfg0.N = 8 from N_0]; decide⟩

/-- The staged product, as the first point leaves it and every later point finds it. -/
def tAt (c : Dev nD) : Vec F S4096x512 .bf16 := stagedT (iblk m c 1 tFirst) (iblk m c 3 tFirst)

/-- The block of `y` a point forms from its blocks and the staged product. -/
def ypay (c : Dev nD) (t : Fin cfg0.N) : FVec F S512x512 .f32 :=
  k0_pay22 (iblk m c 0 t) (tAt m c) (iblk m c 2 t) (wBot (iblk m c 3 t)) (iblk m c 4 t)

/-- Its column sums of `y` … -/
def ysum (c : Dev nD) (t : Fin cfg0.N) : FVec F S1x512 .f32 :=
  k0_pay23 (iblk m c 0 t) (tAt m c) (iblk m c 2 t) (wBot (iblk m c 3 t)) (iblk m c 4 t)

/-- … and of `y²`. -/
def ysumsq (c : Dev nD) (t : Fin cfg0.N) : FVec F S1x512 .f32 :=
  k0_pay24 (iblk m c 0 t) (tAt m c) (iblk m c 2 t) (wBot (iblk m c 3 t)) (iblk m c 4 t)

/-- What the first point leaves in the three scratch buffers. -/
theorem scrAt_zero (c : Dev nD) (t : Fin cfg0.N) (h0 : t.val = 0) :
    scrAt m c t.val t.isLt = (tAt m c, ysum m c t, ysumsq m c t) := by
  obtain rfl : t = tFirst := Fin.ext h0
  refine (scrAt_first m c tFirst rfl).trans ?_
  have e1 : scT.view.read (Elt F) (scT.view.writes (Elt F) scT.view.junk (firstAt m c tFirst rfl).1) = tAt m c :=
    (View.read_writes_junk_eq_canon _ _).trans (congrArg (View.canon (Val := Elt F)) (firstAt_LT m c tFirst rfl))
  have e2 : scS.view.read (Elt F) (scS.view.writes (Elt F) scS.view.junk (firstAt m c tFirst rfl).2.1) = ysum m c tFirst :=
    (View.read_writes_junk_eq_canon _ _).trans ((congrArg (View.canon (Val := Elt F)) (firstAt_LS m c tFirst rfl)).trans
      ((View.canon_unit_zero zero_off2 _ _).trans (k0_pay25_eq' _ _ _ _ _)))
  have e3 : scQ.view.read (Elt F) (scQ.view.writes (Elt F) scQ.view.junk (firstAt m c tFirst rfl).2.2.1) = ysumsq m c tFirst :=
    (View.read_writes_junk_eq_canon _ _).trans ((congrArg (View.canon (Val := Elt F)) (firstAt_LQ m c tFirst rfl)).trans
      ((View.canon_unit_zero zero_off2 _ _).trans (k0_pay26_eq' _ _ _ _ _)))
  exact congrArg₂ Prod.mk e1 (congrArg₂ Prod.mk e2 e3)

/-- What a later point leaves there: the staged product untouched, each running sum rewritten. -/
theorem scrAt_pos (c : Dev nD) (t : Fin cfg0.N) (h0 : t.val ≠ 0) :
    scrAt m c t.val t.isLt =
      ((scrBefore m c t h0).1,
       k0_pay27 (iblk m c 0 t) (scrBefore m c t h0).1 (iblk m c 2 t) (wBot (iblk m c 3 t)) (iblk m c 4 t) (scrBefore m c t h0).2.1,
       k0_pay28 (iblk m c 0 t) (scrBefore m c t h0).1 (iblk m c 2 t) (wBot (iblk m c 3 t)) (iblk m c 4 t) (scrBefore m c t h0).2.2) := by
  by_cases h7 : t.val = 7
  · refine (scrAt_last m c t h7).trans ?_
    exact congrArg₂ Prod.mk rfl (congrArg₂ Prod.mk
      ((View.read_writes_junk_eq_canon _ _).trans ((congrArg (View.canon (Val := Elt F)) (lastAt_LS m c t h7 _ _ _)).trans
        (View.canon_unit_zero zero_off2 _ _)))
      ((View.read_writes_junk_eq_canon _ _).trans ((congrArg (View.canon (Val := Elt F)) (lastAt_LQ m c t h7 _ _ _)).trans
        (View.canon_unit_zero zero_off2 _ _))))
  · refine (scrAt_middle m c t h0 h7).trans ?_
    exact congrArg₂ Prod.mk rfl (congrArg₂ Prod.mk
      ((View.read_writes_junk_eq_canon _ _).trans ((congrArg (View.canon (Val := Elt F)) (middleAt_LS m c t h0 h7 _ _ _)).trans
        (View.canon_unit_zero zero_off2 _ _)))
      ((View.read_writes_junk_eq_canon _ _).trans ((congrArg (View.canon (Val := Elt F)) (middleAt_LQ m c t h0 h7 _ _ _)).trans
        (View.canon_unit_zero zero_off2 _ _))))

/-- The scratch a later point finds, with the point's position written as a successor. -/
theorem scrBefore_eq (c : Dev nD) (t : Fin cfg0.N) (h0 : t.val ≠ 0) (n : ℕ) (hn : n < cfg0.N) (e : t.val - 1 = n) :
    scrBefore m c t h0 = scrAt m c n hn := by
  subst e; rfl

/-- The staged product is the same after every point. -/
theorem scrAt_T (c : Dev nD) (n : ℕ) (hn : n < cfg0.N) : (scrAt m c n hn).1 = tAt m c := by
  induction n with
  | zero =>
    have h : scrAt m c 0 hn = (tAt m c, ysum m c ⟨0, hn⟩, ysumsq m c ⟨0, hn⟩) := scrAt_zero m c ⟨0, hn⟩ rfl
    rw [h]
  | succ n ih =>
    have h := scrAt_pos m c ⟨n + 1, hn⟩ (Nat.succ_ne_zero n)
    have h' : scrAt m c (n + 1) hn = _ := h
    rw [h']
    show (scrBefore m c ⟨n + 1, hn⟩ (Nat.succ_ne_zero n)).1 = tAt m c
    rw [scrBefore_eq m c ⟨n + 1, hn⟩ (Nat.succ_ne_zero n) n (Nat.lt_of_succ_lt hn) (Nat.succ_sub_one n)]
    exact ih _

/-- What the point at position `n + 1` leaves in the scratch buffers, from what the point before left. -/
theorem scrAt_succ (c : Dev nD) (n : ℕ) (hn : n + 1 < cfg0.N) :
    scrAt m c (n + 1) hn =
      (tAt m c,
       k0_pay27 (iblk m c 0 ⟨n + 1, hn⟩) (tAt m c) (iblk m c 2 ⟨n + 1, hn⟩) (wBot (iblk m c 3 ⟨n + 1, hn⟩)) (iblk m c 4 ⟨n + 1, hn⟩)
         (scrAt m c n (Nat.lt_of_succ_lt hn)).2.1,
       k0_pay28 (iblk m c 0 ⟨n + 1, hn⟩) (tAt m c) (iblk m c 2 ⟨n + 1, hn⟩) (wBot (iblk m c 3 ⟨n + 1, hn⟩)) (iblk m c 4 ⟨n + 1, hn⟩)
         (scrAt m c n (Nat.lt_of_succ_lt hn)).2.2) := by
  have h := scrAt_pos m c ⟨n + 1, hn⟩ (Nat.succ_ne_zero n)
  have h' : scrAt m c (n + 1) hn = _ := h
  rw [h', scrBefore_eq m c ⟨n + 1, hn⟩ (Nat.succ_ne_zero n) n (Nat.lt_of_succ_lt hn) (Nat.succ_sub_one n), scrAt_T m c n _]

/-! ## The pieces written into the output buffer -/

/-- The final running sum, as the last point forms it: the sum it found plus its block's column sums. -/
def lastS (c : Dev nD) (t : Fin cfg0.N) (h0 : t.val ≠ 0) : FVec F S1x512 .f32 :=
  k0_pay27 (iblk m c 0 t) (tAt m c) (iblk m c 2 t) (wBot (iblk m c 3 t)) (iblk m c 4 t) (scrBefore m c t h0).2.1

/-- The final running sum of squares. -/
def lastQ (c : Dev nD) (t : Fin cfg0.N) (h0 : t.val ≠ 0) : FVec F S1x512 .f32 :=
  k0_pay28 (iblk m c 0 t) (tAt m c) (iblk m c 2 t) (wBot (iblk m c 3 t)) (iblk m c 4 t) (scrBefore m c t h0).2.2

/-- The scale and shift rows of the last point. -/
abbrev lastSc (c : Dev nD) (t : Fin cfg0.N) (h0 : t.val ≠ 0) : FVec F S1x512 .f32 :=
  k0_pay10 (lastS m c t h0) (lastQ m c t h0) (iblk m c 5 t)
abbrev lastSh (c : Dev nD) (t : Fin cfg0.N) (h0 : t.val ≠ 0) : FVec F S1x512 .f32 :=
  k0_pay11 (lastS m c t h0) (lastQ m c t h0) (iblk m c 5 t) (iblk m c 6 t)

/-- Every point but the last writes one piece: its 512 rows of `y`, whatever it found in the buffer. -/
theorem outPieces_y (c : Dev nD) (t : Fin cfg0.N) (h7 : t.val ≠ 7) (Y : Vec F S4096x512 .f32) :
    outPieces m c t Y = [⟨Rect.unit (s := S4096x512) (k0_off1 (grid0.coords t)) S512x512.size (k0_off1_inb (grid0.coords t)), ypay m c t⟩] := by
  unfold outPieces
  by_cases h0 : t.val = 0
  · rw [dif_pos h0]
    obtain rfl : t = tFirst := Fin.ext h0
    exact firstAt_LO m c tFirst rfl Y
  · rw [dif_neg h0, dif_neg h7]
    refine (middleAt_LO m c t h0 h7 _ _ _ Y).trans ?_
    rw [scrAt_T m c (t.val - 1) _]
    rfl

/-- The last point writes its rows of `y` and then rewrites the eight row blocks in turn. -/
theorem outPieces_last (c : Dev nD) (t : Fin cfg0.N) (h7 : t.val = 7) (h0 : t.val ≠ 0) (Y : Vec F S4096x512 .f32) :
    outPieces m c t Y
      = normStep (ms7 t).view ((hs7 t).unread Y) ![3584, 0] inb_S4096x512_S512x512_3584_0 (k0_pay2 (lastSc m c t h0) (lastSh m c t h0))
      (normStep (ms7 t).view ((hs7 t).unread Y) ![3072, 0] inb_S4096x512_S512x512_3072_0 (k0_pay1 (lastSc m c t h0) (lastSh m c t h0))
      (normStep (ms7 t).view ((hs7 t).unread Y) ![2560, 0] inb_S4096x512_S512x512_2560_0 (k0_pay17 (lastSc m c t h0) (lastSh m c t h0))
      (normStep (ms7 t).view ((hs7 t).unread Y) ![2048, 0] inb_S4096x512_S512x512_2048_0 (k0_pay16 (lastSc m c t h0) (lastSh m c t h0))
      (normStep (ms7 t).view ((hs7 t).unread Y) ![1536, 0] inb_S4096x512_S512x512_1536_0 (k0_pay15 (lastSc m c t h0) (lastSh m c t h0))
      (normStep (ms7 t).view ((hs7 t).unread Y) ![1024, 0] inb_S4096x512_S512x512_1024_0 (k0_pay14 (lastSc m c t h0) (lastSh m c t h0))
      (normStep (ms7 t).view ((hs7 t).unread Y) ![512, 0] inb_S4096x512_S512x512_512_0 (k0_pay13 (lastS m c t h0) (lastQ m c t h0) (iblk m c 5 t) (iblk m c 6 t))
      (normStep (ms7 t).view ((hs7 t).unread Y) ![0, 0] inb_S4096x512_S512x512_0_0 (k0_pay12 (lastS m c t h0) (lastQ m c t h0) (iblk m c 5 t) (iblk m c 6 t))
      ([⟨Rect.unit (s := S4096x512) (k0_off1 (grid0.coords t)) S512x512.size (k0_off1_inb (grid0.coords t)), ypay m c t⟩])))))))) := by
  unfold outPieces
  rw [dif_neg h0, dif_pos h7]
  refine (lastAt_LO m c t h7 _ _ _ Y).trans ?_
  rw [scrAt_T m c (t.val - 1) _]
  rfl

/-! ## The values, on the extended reals -/

section AtIdeal

variable (m : (ℓ : Loc nD τ sig) → Buf (Elt Ideal) ℓ)

/-- The staged product is `x1 · W_top`. -/
theorem tAt_apply (c : Dev nD) (k : Fin 4096) (j : Fin 512) :
    tAt m c (ix2 k j) = Cert.Exchange.tK (m ((c.tc : Thread nD τ).loc main_arg0)) (m ((c.tc : Thread nD τ).loc main_arg3)) k j :=
  stagedT_eq_tK m c tFirst k j

/-- A point's block of `y` is rows `512 t …` of the kernel's `y`. -/
theorem ypay_apply (c : Dev nD) (t : Fin cfg0.N) (r j : Fin 512) (h : 512 * t.val + r.val < 4096) :
    ypay m c t (ix2 r j) = Cert.Exchange.yK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨512 * t.val + r.val, h⟩ j :=
  yBlock_apply m c t (tAt m c) (tAt_apply m c) r j

/-- A point's column sums are its row block's. -/
theorem ysum_apply (c : Dev nD) (t : Fin cfg0.N) (j : Fin 512) :
    ysum m c t (ix2 (0 : Fin 1) j) = Cert.Exchange.psK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨t.val, pt_lt t⟩ j :=
  colSum_apply m c t (tAt m c) (tAt_apply m c) j

theorem ysumsq_apply (c : Dev nD) (t : Fin cfg0.N) (j : Fin 512) :
    ysumsq m c t (ix2 (0 : Fin 1) j) = Cert.Exchange.pssK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨t.val, pt_lt t⟩ j :=
  colSumSq_apply m c t (tAt m c) (tAt_apply m c) j

/-- The running sum after the point at position `n`: the row blocks' column sums added up block after block. -/
theorem scrAt_S (c : Dev nD) (n : ℕ) (hn : n < cfg0.N) (hn' : n < 8) (j : Fin 512) :
    (scrAt m c n hn).2.1 (ix2 (0 : Fin 1) j) = Cert.Exchange.accK (Cert.Exchange.psK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) n hn' j := by
  induction n with
  | zero =>
    have h : scrAt m c 0 hn = (tAt m c, ysum m c ⟨0, hn⟩, ysumsq m c ⟨0, hn⟩) := scrAt_zero m c ⟨0, hn⟩ rfl
    rw [h]
    exact ysum_apply m c ⟨0, hn⟩ j
  | succ n ih =>
    rw [scrAt_succ m c n hn]
    show k0_pay27 _ _ _ _ _ _ (ix2 (0 : Fin 1) j) = _
    rw [Cert.KernelIdeal.PayloadAt.k0_pay27_apply, ih (Nat.lt_of_succ_lt hn) (Nat.lt_of_succ_lt hn')]
    exact congrArg (Cert.Exchange.accK (Cert.Exchange.psK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) n (Nat.lt_of_succ_lt hn') j + ·)
      (ysum_apply m c ⟨n + 1, hn⟩ j)

/-- The running sum of squares likewise. -/
theorem scrAt_Q (c : Dev nD) (n : ℕ) (hn : n < cfg0.N) (hn' : n < 8) (j : Fin 512) :
    (scrAt m c n hn).2.2 (ix2 (0 : Fin 1) j) = Cert.Exchange.accK (Cert.Exchange.pssK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) n hn' j := by
  induction n with
  | zero =>
    have h : scrAt m c 0 hn = (tAt m c, ysum m c ⟨0, hn⟩, ysumsq m c ⟨0, hn⟩) := scrAt_zero m c ⟨0, hn⟩ rfl
    rw [h]
    exact ysumsq_apply m c ⟨0, hn⟩ j
  | succ n ih =>
    rw [scrAt_succ m c n hn]
    show k0_pay28 _ _ _ _ _ _ (ix2 (0 : Fin 1) j) = _
    rw [Cert.KernelIdeal.PayloadAt.k0_pay28_apply, ih (Nat.lt_of_succ_lt hn) (Nat.lt_of_succ_lt hn')]
    exact congrArg (Cert.Exchange.accK (Cert.Exchange.pssK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) n (Nat.lt_of_succ_lt hn') j + ·)
      (ysumsq_apply m c ⟨n + 1, hn⟩ j)

/-- The final running sum the last point forms is the sum over all eight row blocks. -/
theorem lastS_apply (c : Dev nD) (t : Fin cfg0.N) (h7 : t.val = 7) (h0 : t.val ≠ 0) (j : Fin 512) :
    lastS m c t h0 (ix2 (0 : Fin 1) j) = Cert.Exchange.accK (Cert.Exchange.psK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) 7 (by decide) j := by
  obtain ⟨n, hn⟩ := t
  obtain rfl : n = 7 := h7
  have h := scrAt_S m c 7 hn (by decide) j
  rw [scrAt_succ m c 6 hn] at h
  exact h

theorem lastQ_apply (c : Dev nD) (t : Fin cfg0.N) (h7 : t.val = 7) (h0 : t.val ≠ 0) (j : Fin 512) :
    lastQ m c t h0 (ix2 (0 : Fin 1) j) = Cert.Exchange.accK (Cert.Exchange.pssK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) 7 (by decide) j := by
  obtain ⟨n, hn⟩ := t
  obtain rfl : n = 7 := h7
  have h := scrAt_Q m c 7 hn (by decide) j
  rw [scrAt_succ m c 6 hn] at h
  exact h

end AtIdeal

end Cert.KernelIdeal.Body

end
-- ==== Proof.KIValue.lean ====
/-
  The value of the idealized kernel: the output array after the run is the specification's kernel reading `outKv` of
  the seven argument arrays. The array ends as what the last grid point leaves in the resident buffer; the first
  seven points have put y into rows 0 … 3583, the last one writes rows 3584 … 4095 and then rewrites all eight row
  blocks as max(y · scale + shift, 0), with scale and shift formed from the column sums of y and y² accumulated
  over the eight points — the specification's `scaleK` and `shiftK`.
-/
import proofs.«148319_g18880676233904_cont_8to1_729_7_alg».proof.Proof.KIValueOut
import proofs.«148319_g18880676233904_cont_8to1_729_7_alg».proof.Proof.KIValueScale
import proofs.«148319_g18880676233904_cont_8to1_729_7_alg».proof.Proof.KIScratch
import proofs.«148319_g18880676233904_cont_8to1_729_7_alg».proof.Proof.KIBlocks
import proofs.«148319_g18880676233904_cont_8to1_729_7_alg».proof.Proof.KIPayloadAt

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

open Cert.KernelIdeal Cert.KernelIdeal.Gen

open Idealize.ShloMosaic.ValueIdx

variable (m : (ℓ : Loc nD τ sig) → Buf (Elt Ideal) ℓ)

/-- The last grid point is not the first. -/
theorem tL_ne0 : (tL : Fin cfg0.N).val ≠ 0 := by decide

/-- The output array after the run of the idealized kernel is the specification's kernel reading of the seven argument
    arrays. -/
theorem final_out (c : Dev nD) (G : Buf (Elt Ideal) ((c.tc : Thread nD τ).loc main_v3))
    (h : (rdat (F := Ideal) m c).ArrAt 7 cfg0.N G) :
    G = Cert.Exchange.outKv (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  obtain ⟨Y, hY, rfl⟩ := arrAt_rowsY m c (ypay m c) (ypay_apply m c) (outPieces_y m c) G h
  exact out_eq_of_rowsY m c ((ypay m c) tL) (fun r j h => (ypay_apply m c) tL r j h)
    (fun j => k0_pay10 (lastS m c tL tL_ne0) (lastQ m c tL tL_ne0) (iblk m c 5 tL) (ix2 0 j)) (fun j => k0_pay11 (lastS m c tL tL_ne0) (lastQ m c tL tL_ne0) (iblk m c 5 tL) (iblk m c 6 tL) (ix2 0 j)) (fun j => scale_of (sX1 m c) (sX2 m c) (sAM m c) (sW m c) (sB m c) (sG m c) (lastS m c tL tL_ne0) (lastQ m c tL tL_ne0) (iblk m c 5 tL) j
      (lastS_apply m c tL rfl tL_ne0 j) (lastQ_apply m c tL rfl tL_ne0 j) (iblk5_apply m c tL j)) (fun j => shift_of (sX1 m c) (sX2 m c) (sAM m c) (sW m c) (sB m c) (sG m c) (sBt m c) (lastS m c tL tL_ne0) (lastQ m c tL tL_ne0) (iblk m c 5 tL) (iblk m c 6 tL) j
      (lastS_apply m c tL rfl tL_ne0 j) (lastQ_apply m c tL rfl tL_ne0 j) (iblk5_apply m c tL j) (iblk6_apply m c tL j))
    (k0_off1 (grid0.coords tL)) ![0, 0] ![512, 0] ![1024, 0] ![1536, 0] ![2048, 0] ![2560, 0] ![3072, 0] ![3584, 0]
    (k0_off1_inb (grid0.coords tL)) inb_S4096x512_S512x512_0_0 inb_S4096x512_S512x512_512_0 inb_S4096x512_S512x512_1024_0
    inb_S4096x512_S512x512_1536_0 inb_S4096x512_S512x512_2048_0 inb_S4096x512_S512x512_2560_0 inb_S4096x512_S512x512_3072_0
    inb_S4096x512_S512x512_3584_0
    (k0_off1_coords tL) rfl rfl rfl rfl rfl rfl rfl rfl
    (k0_pay12 (lastS m c tL tL_ne0) (lastQ m c tL tL_ne0) (iblk m c 5 tL) (iblk m c 6 tL)) (k0_pay13 (lastS m c tL tL_ne0) (lastQ m c tL tL_ne0) (iblk m c 5 tL) (iblk m c 6 tL))
    (k0_pay14 (k0_pay10 (lastS m c tL tL_ne0) (lastQ m c tL tL_ne0) (iblk m c 5 tL)) (k0_pay11 (lastS m c tL tL_ne0) (lastQ m c tL tL_ne0) (iblk m c 5 tL) (iblk m c 6 tL))) (k0_pay15 (k0_pay10 (lastS m c tL tL_ne0) (lastQ m c tL tL_ne0) (iblk m c 5 tL)) (k0_pay11 (lastS m c tL tL_ne0) (lastQ m c tL tL_ne0) (iblk m c 5 tL) (iblk m c 6 tL)))
    (k0_pay16 (k0_pay10 (lastS m c tL tL_ne0) (lastQ m c tL tL_ne0) (iblk m c 5 tL)) (k0_pay11 (lastS m c tL tL_ne0) (lastQ m c tL tL_ne0) (iblk m c 5 tL) (iblk m c 6 tL))) (k0_pay17 (k0_pay10 (lastS m c tL tL_ne0) (lastQ m c tL tL_ne0) (iblk m c 5 tL)) (k0_pay11 (lastS m c tL tL_ne0) (lastQ m c tL tL_ne0) (iblk m c 5 tL) (iblk m c 6 tL)))
    (k0_pay1 (k0_pay10 (lastS m c tL tL_ne0) (lastQ m c tL tL_ne0) (iblk m c 5 tL)) (k0_pay11 (lastS m c tL tL_ne0) (lastQ m c tL tL_ne0) (iblk m c 5 tL) (iblk m c 6 tL))) (k0_pay2 (k0_pay10 (lastS m c tL tL_ne0) (lastQ m c tL tL_ne0) (iblk m c 5 tL)) (k0_pay11 (lastS m c tL tL_ne0) (lastQ m c tL tL_ne0) (iblk m c 5 tL) (iblk m c 6 tL)))
    (fun blk r j => PayloadAt.k0_pay12_apply _ _ _ _ blk r j) (fun blk r j => PayloadAt.k0_pay13_apply _ _ _ _ blk r j)
    (fun blk r j => PayloadAt.k0_pay14_apply _ _ blk r j) (fun blk r j => PayloadAt.k0_pay15_apply _ _ blk r j)
    (fun blk r j => PayloadAt.k0_pay16_apply _ _ blk r j) (fun blk r j => PayloadAt.k0_pay17_apply _ _ blk r j)
    (fun blk r j => PayloadAt.k0_pay1_apply _ _ blk r j) (fun blk r j => PayloadAt.k0_pay2_apply _ _ blk r j)
    (outPieces_last m c tL rfl tL_ne0) Y hY

end Cert.KernelIdeal.Body

end
-- ==== Proof.RefRun.lean ====
/-
  The reference's run. @main calls the outlined variance function, which itself calls the outlined select function;
  with both bodies written at their call sites over the calls' own buffers, @main is a straight line of 53 host
  operations. Every weakly fair execution of it terminates with each buffer at the fold of
  the operations' results over the launch contents; at the result buffer that fold is the composed term `outT` of
  the seven arguments, and the arguments' buffers are never written.

  The composed term is stated through four named pieces, each a plain composition of the printed operations:
  `yT` (the affine layer: the two products, the concatenation, the bias), `meanT` (column sum over 4096, the
  broadcast 4096), `varT` (the variance function: its own mean kept as a [1, 512] row, the centred square, the column
  sum, the divisor 4096 - float(0), and the select on "divisor > 0" between the quotient and a NaN word), and `outT`
  (normalise, scale, shift, maximum with 0).
-/
import proofs.«148319_g18880676233904_cont_8to1_729_7_alg».proof.Proof.Gen.ReferenceIdeal
import Idealize.ShloMosaic.Lib.StableHlo.Run

noncomputable section

namespace Cert.Exchange.Ref

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- `y = concat(am · x1, x2) · W + b`, the bias broadcast [512] → [1, 512] → [4096, 512]. -/
def yT (x1 x2 : FVec F S4096x512 .f32) (am : FVec F S4096x4096 .f32) (W : FVec F S1024x512 .f32) (b : FVec F S512 .f32) :
    FVec F S4096x512 .f32 :=
  addf
    (Host.dotGeneral dot_S4096x1024_S1024x512_S4096x512_1_0_0_1_n_n none
      (concatenate S4096x1024 1
        [⟨S4096x512, Host.dotGeneral dot_S4096x4096_S4096x512_S4096x512_1_0_0_1_n_n none am x1⟩, ⟨S4096x512, x2⟩]
        concatenates_S4096x512_S4096x512_S4096x1024_d1) W)
    (broadcastInDim S4096x512 ![0, 1] bcast_S1x512_S4096x512_0_1 (broadcastInDim S1x512 ![1] bcast_S512_S1x512_1 b))

/-- The column sums of `y` from the zero word, divided by the broadcast word of 4096. -/
def meanT (y : FVec F S4096x512 .f32) : FVec F S512 .f32 :=
  Host.divf (Host.reduceAdd y (constant S_ .f32 0x00000000#32) reducesTo_S4096x512_S512_d0 h_S_)
    (broadcastInDim S512 ![] bcast_S_S512 (constant S_ .f32 0x45800000#32))

/-- The variance function's divisor: the word of 4096 minus the integer 0 converted to a float. -/
def divisorT : FVec F S_ .f32 :=
  subf (constant S_ .f32 0x45800000#32) (sitofp .f32 (constantI S_ 32 0#32))

/-- The variance function's centred values: `y` minus its own column mean, that mean formed as a [1, 512] row. -/
def centredT (y : FVec F S4096x512 .f32) : FVec F S4096x512 .f32 :=
  subf y
    (broadcastInDim S4096x512 ![0, 1] bcast_S1x512_S4096x512_0_1
      (Host.divf
        (broadcastInDim S1x512 ![1] bcast_S512_S1x512_1
          (Host.reduceAdd y (constant S_ .f32 0x00000000#32) reducesTo_S4096x512_S512_d0 h_S_))
        (broadcastInDim S1x512 ![] bcast_S_S1x512 (constant S_ .f32 0x45800000#32))))

/-- The variance function's result: where the divisor exceeds 0, the column sums of the centred squares over the
    divisor; elsewhere the NaN word. -/
def varT (y : FVec F S4096x512 .f32) : FVec F S512 .f32 :=
  select (broadcastInDim S512 ![] bcast_S_S512 (cmpf .ogt (divisorT (F := F)) (constant S_ .f32 0x00000000#32)))
    (Host.divf
      (Host.reduceAdd (mulf (centredT y) (centredT y)) (constant S_ .f32 0x00000000#32) reducesTo_S4096x512_S512_d0 h_S_)
      (broadcastInDim S512 ![] bcast_S_S512 (divisorT (F := F))))
    (broadcastInDim S512 ![] bcast_S_S512 (constant S_ .f32 0x7FC00000#32))

/-- A [512] row broadcast to [4096, 512] through [1, 512]. -/
def rowsT (v : FVec F S512 .f32) : FVec F S4096x512 .f32 :=
  broadcastInDim S4096x512 ![0, 1] bcast_S1x512_S4096x512_0_1 (broadcastInDim S1x512 ![1] bcast_S512_S1x512_1 v)

/-- The result: `max(((y - mean) / sqrt(var + ε)) · γ + β, 0)`. -/
def outT (x1 x2 : FVec F S4096x512 .f32) (am : FVec F S4096x4096 .f32) (W : FVec F S1024x512 .f32) (b γ β : FVec F S512 .f32) :
    FVec F S4096x512 .f32 :=
  maximumf
    (addf
      (mulf
        (Host.divf (subf (yT x1 x2 am W b) (rowsT (meanT (yT x1 x2 am W b))))
          (rowsT (Host.sqrt (addf (varT (yT x1 x2 am W b))
            (broadcastInDim S512 ![] bcast_S_S512 (constant S_ .f32 0x3727C5AC#32))))))
        (rowsT γ))
      (rowsT β))
    (broadcastInDim S4096x512 ![] bcast_S_S4096x512 (constant S_ .f32 0x00000000#32))

/-! ## The straight line -/

/-- @main's 53 operations in order, the two calls written out: twelve of its own, the variance function's nineteen over
    the record `main_call0` (its arguments the buffers of `%5` and `%c`), inside them the select function's three over
    `main_call0.call0` (its arguments the comparison, the quotient and the NaN word), then @main's last nineteen. -/
abbrev ops : List (HloOp τ sig (Elt F)) :=
  [
    StableHlo.binary main_arg2 main_arg0 main_v0 ((fun l r => Host.dotGeneral dot_S4096x4096_S4096x512_S4096x512_1_0_0_1_n_n none l r) : (⟨S4096x4096, .f32⟩ : BufTy).Contents (Elt F) → (⟨S4096x512, .f32⟩ : BufTy).Contents (Elt F) → (⟨S4096x512, .f32⟩ : BufTy).Contents (Elt F)),
    StableHlo.binary main_v0 main_arg1 main_v1 ((fun a b => concatenate S4096x1024 1 [⟨S4096x512, a⟩, ⟨S4096x512, b⟩] concatenates_S4096x512_S4096x512_S4096x1024_d1) : (⟨S4096x512, .f32⟩ : BufTy).Contents (Elt F) → (⟨S4096x512, .f32⟩ : BufTy).Contents (Elt F) → (⟨S4096x1024, .f32⟩ : BufTy).Contents (Elt F)),
    StableHlo.binary main_v1 main_arg3 main_v2 ((fun l r => Host.dotGeneral dot_S4096x1024_S1024x512_S4096x512_1_0_0_1_n_n none l r) : (⟨S4096x1024, .f32⟩ : BufTy).Contents (Elt F) → (⟨S1024x512, .f32⟩ : BufTy).Contents (Elt F) → (⟨S4096x512, .f32⟩ : BufTy).Contents (Elt F)),
    StableHlo.unary main_arg4 main_v3 (broadcastInDim S1x512 ![1] bcast_S512_S1x512_1 : (⟨S512, .f32⟩ : BufTy).Contents (Elt F) → (⟨S1x512, .f32⟩ : BufTy).Contents (Elt F)),
    StableHlo.unary main_v3 main_v4 (broadcastInDim S4096x512 ![0, 1] bcast_S1x512_S4096x512_0_1 : (⟨S1x512, .f32⟩ : BufTy).Contents (Elt F) → (⟨S4096x512, .f32⟩ : BufTy).Contents (Elt F)),
    StableHlo.binary main_v2 main_v4 main_v5 (addf : (⟨S4096x512, .f32⟩ : BufTy).Contents (Elt F) → (⟨S4096x512, .f32⟩ : BufTy).Contents (Elt F) → (⟨S4096x512, .f32⟩ : BufTy).Contents (Elt F)),
    StableHlo.nullary main_cst (constant S_ .f32 0x00000000#32),
    StableHlo.binary main_v5 main_cst main_v6 ((fun x v => Host.reduceAdd x v reducesTo_S4096x512_S512_d0 h_S_) : (⟨S4096x512, .f32⟩ : BufTy).Contents (Elt F) → (⟨S_, .f32⟩ : BufTy).Contents (Elt F) → (⟨S512, .f32⟩ : BufTy).Contents (Elt F)),
    StableHlo.nullary main_cst_0 (constant S_ .f32 0x45800000#32),
    StableHlo.unary main_cst_0 main_v7 (broadcastInDim S512 ![] bcast_S_S512 : (⟨S_, .f32⟩ : BufTy).Contents (Elt F) → (⟨S512, .f32⟩ : BufTy).Contents (Elt F)),
    StableHlo.binary main_v6 main_v7 main_v8 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    StableHlo.TRef.nullary main_call0.cst (constant S_ .f32 0x00000000#32),
    StableHlo.TRef.binary (.of main_v5) main_call0.cst main_call0.v0 (fun x v => Host.reduceAdd x v reducesTo_S4096x512_S512_d0 h_S_),
    StableHlo.TRef.unary main_call0.v0 main_call0.v1 (broadcastInDim S1x512 ![1] bcast_S512_S1x512_1),
    StableHlo.TRef.nullary main_call0.cst_0 (constant S_ .f32 0x45800000#32),
    StableHlo.TRef.unary main_call0.cst_0 main_call0.v2 (broadcastInDim S1x512 ![] bcast_S_S1x512),
    StableHlo.TRef.binary main_call0.v1 main_call0.v2 main_call0.v3 Host.divf,
    StableHlo.TRef.unary main_call0.v3 main_call0.v4 (broadcastInDim S4096x512 ![0, 1] bcast_S1x512_S4096x512_0_1),
    StableHlo.TRef.binary (.of main_v5) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x45800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4096x512_S512_d0 h_S_),
    StableHlo.TRef.unary main_call0.v8 main_call0.v10 (broadcastInDim S512 ![] bcast_S_S512),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S512 ![] bcast_S_S512),
    StableHlo.TRef.ternary main_call0.v12 main_call0.v11 main_call0.call0.v1 main_call0.call0.v2 (fun p a b => select (broadcastInDim S512 ![] bcast_S_S512 p) a b),
    StableHlo.unary main_v8 main_v10 (broadcastInDim S1x512 ![1] bcast_S512_S1x512_1 : (⟨S512, .f32⟩ : BufTy).Contents (Elt F) → (⟨S1x512, .f32⟩ : BufTy).Contents (Elt F)),
    StableHlo.unary main_v10 main_v11 (broadcastInDim S4096x512 ![0, 1] bcast_S1x512_S4096x512_0_1 : (⟨S1x512, .f32⟩ : BufTy).Contents (Elt F) → (⟨S4096x512, .f32⟩ : BufTy).Contents (Elt F)),
    StableHlo.binary main_v5 main_v11 main_v12 (subf : (⟨S4096x512, .f32⟩ : BufTy).Contents (Elt F) → (⟨S4096x512, .f32⟩ : BufTy).Contents (Elt F) → (⟨S4096x512, .f32⟩ : BufTy).Contents (Elt F)),
    StableHlo.nullary main_cst_1 (constant S_ .f32 0x3727C5AC#32),
    StableHlo.unary main_cst_1 main_v13 (broadcastInDim S512 ![] bcast_S_S512 : (⟨S_, .f32⟩ : BufTy).Contents (Elt F) → (⟨S512, .f32⟩ : BufTy).Contents (Elt F)),
    StableHlo.binary main_v9 main_v13 main_v14 (addf : (⟨S512, .f32⟩ : BufTy).Contents (Elt F) → (⟨S512, .f32⟩ : BufTy).Contents (Elt F) → (⟨S512, .f32⟩ : BufTy).Contents (Elt F)),
    StableHlo.unary main_v14 main_v15 (Host.sqrt : (⟨S512, .f32⟩ : BufTy).Contents (Elt F) → (⟨S512, .f32⟩ : BufTy).Contents (Elt F)),
    StableHlo.unary main_v15 main_v16 (broadcastInDim S1x512 ![1] bcast_S512_S1x512_1 : (⟨S512, .f32⟩ : BufTy).Contents (Elt F) → (⟨S1x512, .f32⟩ : BufTy).Contents (Elt F)),
    StableHlo.unary main_v16 main_v17 (broadcastInDim S4096x512 ![0, 1] bcast_S1x512_S4096x512_0_1 : (⟨S1x512, .f32⟩ : BufTy).Contents (Elt F) → (⟨S4096x512, .f32⟩ : BufTy).Contents (Elt F)),
    StableHlo.binary main_v12 main_v17 main_v18 (Host.divf : (⟨S4096x512, .f32⟩ : BufTy).Contents (Elt F) → (⟨S4096x512, .f32⟩ : BufTy).Contents (Elt F) → (⟨S4096x512, .f32⟩ : BufTy).Contents (Elt F)),
    StableHlo.unary main_arg5 main_v19 (broadcastInDim S1x512 ![1] bcast_S512_S1x512_1 : (⟨S512, .f32⟩ : BufTy).Contents (Elt F) → (⟨S1x512, .f32⟩ : BufTy).Contents (Elt F)),
    StableHlo.unary main_v19 main_v20 (broadcastInDim S4096x512 ![0, 1] bcast_S1x512_S4096x512_0_1 : (⟨S1x512, .f32⟩ : BufTy).Contents (Elt F) → (⟨S4096x512, .f32⟩ : BufTy).Contents (Elt F)),
    StableHlo.binary main_v18 main_v20 main_v21 (mulf : (⟨S4096x512, .f32⟩ : BufTy).Contents (Elt F) → (⟨S4096x512, .f32⟩ : BufTy).Contents (Elt F) → (⟨S4096x512, .f32⟩ : BufTy).Contents (Elt F)),
    StableHlo.unary main_arg6 main_v22 (broadcastInDim S1x512 ![1] bcast_S512_S1x512_1 : (⟨S512, .f32⟩ : BufTy).Contents (Elt F) → (⟨S1x512, .f32⟩ : BufTy).Contents (Elt F)),
    StableHlo.unary main_v22 main_v23 (broadcastInDim S4096x512 ![0, 1] bcast_S1x512_S4096x512_0_1 : (⟨S1x512, .f32⟩ : BufTy).Contents (Elt F) → (⟨S4096x512, .f32⟩ : BufTy).Contents (Elt F)),
    StableHlo.binary main_v21 main_v23 main_v24 (addf : (⟨S4096x512, .f32⟩ : BufTy).Contents (Elt F) → (⟨S4096x512, .f32⟩ : BufTy).Contents (Elt F) → (⟨S4096x512, .f32⟩ : BufTy).Contents (Elt F)),
    StableHlo.nullary main_cst_2 (constant S_ .f32 0x00000000#32),
    StableHlo.unary main_cst_2 main_v25 (broadcastInDim S4096x512 ![] bcast_S_S4096x512 : (⟨S_, .f32⟩ : BufTy).Contents (Elt F) → (⟨S4096x512, .f32⟩ : BufTy).Contents (Elt F)),
    StableHlo.binary main_v24 main_v25 main_v26 (maximumf : (⟨S4096x512, .f32⟩ : BufTy).Contents (Elt F) → (⟨S4096x512, .f32⟩ : BufTy).Contents (Elt F) → (⟨S4096x512, .f32⟩ : BufTy).Contents (Elt F)) ]

-- fifty-three binds re-associated: the rewrite under the chain recurses once per statement
set_option maxRecDepth 2048 in
/-- @main is that straight line: the two functions' definitions unfolded at their calls, both sides are one chain of
    host steps once sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

/-- From any memory with zero counters every weakly fair execution of @main terminates, and every final state has each
    buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
/-- The fold at the result buffer is the composed term of the seven arguments' contents: each operation's result at
    its own buffer is its function's value, at any other buffer what was there; the typed references' transports are
    the identity at these literal references. -/
theorem out_eq (V : Valuation τ sig (Elt F)) :
    after ops V (main_v26 : DevRef τ sig)
      = outT (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rw [binary_result]
  rw [binary_result_ne]; rotate_left; decide
  rfl

/-! ## The arguments are never written -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-! ## The run -/

/-- For any float values, from any memory with zero counters: every weakly fair execution of @main terminates with the
    result buffer at the composed term of the seven arguments' launch contents, and the arguments unchanged. -/
theorem run_outT (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
          = outT (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v26).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_all m ρ)

end Cert.Exchange.Ref

end
-- ==== Proof.RefIdx.lean ====
/-
  Reading the reference's operations at an index, on the extended reals: a product of two matrices as the sum over
  the contracted coordinate, a column sum as the initial value plus the sum over the rows, a row laid along every row
  of a matrix, a scalar laid everywhere, and a concatenation along the second axis as a choice by the coordinate.
  Every index is built from literal-size coordinates.
-/
import Idealize.ShloMosaic.PureOps.Ideal.Laws
import Idealize.ShloMosaic.Lib.ValueIdx
import Idealize.ShloMosaic.Lib.Pipeline.Value

noncomputable section

open scoped BigOperators

namespace Cert.Exchange.Ref

open Idealize.ShloMosaic Idealize.ShloMosaic.ValueIdx

/-! ## A matrix product -/

/-- A host product with one contracted axis, the left operand's second and the right operand's first: at `(p, q)`
    it is `Σ_k L[p, k] · R[k, q]`. The four hypotheses say which coordinate each operand index takes from the result
    index and which from the contraction position; at a literal record they hold by computation. -/
theorem dot_apply {a n c : Nat} (D : DotDims ⟨2, ![a, n]⟩ ⟨2, ![n, c]⟩ ⟨2, ![a, c]⟩)
    (hr : D.contr.rank = 1) (hs : D.contr.size ⟨0, by omega⟩ = n)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (L : FVec Ideal ⟨2, ![a, n]⟩ .f32) (R : FVec Ideal ⟨2, ![n, c]⟩ .f32) (p : Fin a) (q : Fin c) :
    Host.dotGeneral (F := Ideal) D none L R (ix2 p q) = ∑ k : Fin n, L (ix2 p k) * R (ix2 k q) := by
  show FloatOps.dotGeneral D none .single L R (ix2 p q) = _
  rw [Ideal.dotGeneral_apply, ← Equiv.sum_comp (contrEquiv1 D n hr hs).symm]
  refine Finset.sum_congr rfl fun k _ => ?_
  have e1 : D.lhsIdx (ix2 p q) ((contrEquiv1 D n hr hs).symm k) = ix2 p k := by
    funext x
    match x with
    | ⟨0, _⟩ => exact Fin.ext (hl0 _ _)
    | ⟨1, _⟩ => exact Fin.ext ((hl1 _ _).trans (contrEquiv1_symm_val D n hr hs k))
  have e2 : D.rhsIdx (ix2 p q) ((contrEquiv1 D n hr hs).symm k) = ix2 k q := by
    funext x
    match x with
    | ⟨0, _⟩ => exact Fin.ext ((hr0 _ _).trans (contrEquiv1_symm_val D n hr hs k))
    | ⟨1, _⟩ => exact Fin.ext (hr1 _ _)
  rw [e1, e2]

/-! ## A column sum -/

/-- The host's sum over the rows of a [4096, 512] array from an initial scalar: at column `q` the initial value plus
    `Σ_i y[i, q]`. -/
theorem colsum_apply (y : FVec Ideal ⟨2, ![4096, 512]⟩ .f32) (init : FVec Ideal ⟨0, ![]⟩ .f32)
    (h' : (⟨2, ![4096, 512]⟩ : Shape).ReducesTo [0] ⟨1, ![512]⟩) (hu : 0 < (⟨0, ![]⟩ : Shape).numel) (q : Fin 512) :
    Host.reduceAdd (F := Ideal) y init h' hu (ix1 q) = init (Shape.Idx.first hu) + ∑ i : Fin 4096, y (ix2 i q) := by
  have h : (⟨2, ![4096, 512]⟩ : Shape).Reduces [0] ⟨1, ![512]⟩ := by decide
  show Ideal.hostReduceAdd h' y _ (ix1 q) = _
  rw [Ideal.hostReduceAdd_single h' h]
  refine congrArg _ (Finset.sum_congr rfl fun i _ => congrArg y ?_)
  funext x
  match x with
  | ⟨0, _⟩ => rfl
  | ⟨1, _⟩ => rfl

/-! ## Broadcasts -/

section
variable {α : Type}

/-- A scalar laid over any shape reads the scalar everywhere. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 fun x => x.elim0

/-- A [512] row as a [1, 512] array reads the row's entry. -/
theorem row1_apply (h : (⟨1, ![512]⟩ : Shape).BroadcastsInDim ⟨2, ![1, 512]⟩ (![1] : Fin 1 → Fin 2))
    (v : (⟨1, ![512]⟩ : Shape).Idx → α) (z : Fin 1) (q : Fin 512) :
    broadcastInDim ⟨2, ![1, 512]⟩ ![1] h v (ix2 z q) = v (ix1 q) :=
  broadcastInDim_apply ![1] h v (ix2 z q) (ix1 q) fun x => by
    match x with
    | ⟨0, _⟩ => rfl

/-- A [1, 512] array laid along the 4096 rows reads its one row. -/
theorem rows_apply (h : (⟨2, ![1, 512]⟩ : Shape).BroadcastsInDim ⟨2, ![4096, 512]⟩ (![0, 1] : Fin 2 → Fin 2))
    (v : (⟨2, ![1, 512]⟩ : Shape).Idx → α) (p : Fin 4096) (q : Fin 512) :
    broadcastInDim ⟨2, ![4096, 512]⟩ ![0, 1] h v (ix2 p q) = v (ix2 (0 : Fin 1) q) :=
  broadcastInDim_apply ![0, 1] h v (ix2 p q) (ix2 (0 : Fin 1) q) fun x => by
    match x with
    | ⟨0, _⟩ => rfl
    | ⟨1, _⟩ => rfl

end

/-! ## The concatenation along the second axis -/

section
variable {α : Type}

/-- Left of column 512 the concatenation reads the first piece. -/
theorem cat_left (x₁ x₂ : (⟨2, ![4096, 512]⟩ : Shape).Idx → α)
    (h : Shape.Concatenates [(⟨2, ![4096, 512]⟩ : Shape), ⟨2, ![4096, 512]⟩] ⟨2, ![4096, 1024]⟩ 1)
    (p : Fin 4096) (k : Fin 1024) (hk : k.val < 512) :
    concatenate ⟨2, ![4096, 1024]⟩ 1 [⟨⟨2, ![4096, 512]⟩, x₁⟩, ⟨⟨2, ![4096, 512]⟩, x₂⟩] h (ix2 p k) = x₁ (ix2 p ⟨k.val, hk⟩) :=
  concatenate_pair_apply_left 1 x₁ x₂ h (ix2 p k) rfl (ix2 p ⟨k.val, hk⟩) fun b => by
    match b with
    | ⟨0, _⟩ => rfl
    | ⟨1, _⟩ => rfl

/-- From column 512 on it reads the second piece, 512 columns back. -/
theorem cat_right (x₁ x₂ : (⟨2, ![4096, 512]⟩ : Shape).Idx → α)
    (h : Shape.Concatenates [(⟨2, ![4096, 512]⟩ : Shape), ⟨2, ![4096, 512]⟩] ⟨2, ![4096, 1024]⟩ 1)
    (p : Fin 4096) (k : Fin 1024) (hk : ¬ k.val < 512) :
    concatenate ⟨2, ![4096, 1024]⟩ 1 [⟨⟨2, ![4096, 512]⟩, x₁⟩, ⟨⟨2, ![4096, 512]⟩, x₂⟩] h (ix2 p k)
      = x₂ (ix2 p ⟨k.val - 512, by have := k.isLt; omega⟩) :=
  concatenate_pair_apply_right 1 x₁ x₂ h (ix2 p k) rfl rfl (ix2 p ⟨k.val - 512, by have := k.isLt; omega⟩)
    (fun b hb => by
      match b with
      | ⟨0, _⟩ => rfl
      | ⟨1, _⟩ => exact absurd rfl hb)
    (by show (k.val - 512) + 512 = k.val; omega)

end

end Cert.Exchange.Ref

end
-- ==== Proof.RefWords.lean ====
/-
  The three facts about literal words that the variance function's divisor needs, on the extended reals: the word
  0x45800000 is 4096; the integer 0 converted to a float is 0; hence the divisor "4096 minus float(0)" is the word of
  4096 itself, and it exceeds the zero word, so the comparison that guards the variance's quotient answers 1.
-/
import Idealize.ShloMosaic.PureOps.Ideal.Laws

noncomputable section

namespace Cert.Exchange.Ref

open Idealize.ShloMosaic

/-- The word 0x45800000 (sign 0, exponent 139, fraction 0) is `2^23 · 2^(139 - 127 - 23) = 4096`. -/
theorem word4096 : Ideal.ofBits .f32 0x45800000#32 = ((4096 : ℝ) : EReal) := by
  simp [Ideal.ofBits, Ideal.ieee]
  rw [← EReal.coe_mul]; congr 1; norm_num

/-- The 32-bit integer 0 converted to a float is 0. -/
theorem sitofp_zero : (FloatOps.sitofp (F := Ideal) .f32 (0#32) : EReal) = 0 := by
  show (((0#32 : BitVec 32).toInt : ℝ) : EReal) = 0
  simp

/-- The divisor `4096 - float(0)` is the word of 4096. -/
theorem divisor_eq :
    Ideal.ofBits .f32 0x45800000#32 - FloatOps.sitofp (F := Ideal) .f32 (0#32) = Ideal.ofBits .f32 0x45800000#32 := by
  rw [sitofp_zero, sub_zero]

/-- The divisor exceeds the zero word: the ordered "greater than" answers 1. -/
theorem divisor_pos :
    Ideal.cmp .ogt (Ideal.ofBits .f32 0x45800000#32 - FloatOps.sitofp (F := Ideal) .f32 (0#32))
      (Ideal.ofBits .f32 0x00000000#32) = 1#1 := by
  rw [divisor_eq, word4096, Ideal.ofBits_zero_f32]
  unfold Ideal.cmp
  have h : (0 : EReal) < ((4096 : ℝ) : EReal) := by exact_mod_cast (by norm_num : (0 : ℝ) < 4096)
  simp [h]

end Cert.Exchange.Ref

end
-- ==== Proof.RefValue.lean ====
/-
  The reference's composed term is the specification's reading `outRv`, index by index on the extended reals: the two
  products are sums over the contracted coordinate, the concatenation is the choice by the column, the column sums
  start from the zero word, every broadcast reads its operand's entry, the variance function's select takes the
  quotient because its divisor 4096 - float(0) is the word of 4096 and exceeds 0. With the run of the straight line this
  gives the reference's run at the specification's array.
-/
import proofs.«148319_g18880676233904_cont_8to1_729_7_alg».proof.Proof.Spec
import proofs.«148319_g18880676233904_cont_8to1_729_7_alg».proof.Proof.RefRun
import proofs.«148319_g18880676233904_cont_8to1_729_7_alg».proof.Proof.RefIdx
import proofs.«148319_g18880676233904_cont_8to1_729_7_alg».proof.Proof.RefWords

noncomputable section

open scoped BigOperators

namespace Cert.Exchange.Ref

open Cert.ReferenceIdeal Cert.ReferenceIdeal.Gen Idealize.ShloMosaic Idealize.ShloMosaic.ValueIdx Idealize.ShloMosaic.TcCoe
  Idealize.SL.Sem Idealize.ShloMosaic.StableHlo

/-! ## The pieces at an index -/

/-- A [512] row laid along the 4096 rows reads the row's entry. -/
theorem rowsT_apply (v : Row 512) (p : Fin 4096) (q : Fin 512) : rowsT (F := Ideal) v (ix2 p q) = v (ix1 q) := by
  unfold rowsT
  exact (rows_apply _ _ p q).trans (row1_apply _ v 0 q)

/-- The affine layer at `(p, q)`. -/
theorem yT_apply (x1 x2 : Mat 4096 512) (am : Mat 4096 4096) (W : Mat 1024 512) (b : Row 512) (p : Fin 4096) (q : Fin 512) :
    yT (F := Ideal) x1 x2 am W b (ix2 p q) = yR x1 x2 am W b p q := by
  unfold yT yR
  show Host.dotGeneral (F := Ideal) dot_S4096x1024_S1024x512_S4096x512_1_0_0_1_n_n none _ W (ix2 p q) + _ = _
  rw [dot_apply dot_S4096x1024_S1024x512_S4096x512_1_0_0_1_n_n rfl rfl (fun _ _ => rfl) (fun _ _ => rfl) (fun _ _ => rfl) (fun _ _ => rfl)]
  rw [rows_apply, row1_apply]
  refine congrArg (· + b (ix1 q)) (Finset.sum_congr rfl fun k _ => congrArg (· * W (ix2 k q)) ?_)
  unfold catR
  split
  · rename_i hk
    rw [cat_left _ _ _ p k hk]
    exact dot_apply dot_S4096x4096_S4096x512_S4096x512_1_0_0_1_n_n rfl rfl (fun _ _ => rfl) (fun _ _ => rfl) (fun _ _ => rfl) (fun _ _ => rfl) am x1 p ⟨k.val, hk⟩
  · rename_i hk
    exact cat_right _ _ _ p k hk

/-- The column mean of any `y`. -/
theorem meanT_apply (y : Mat 4096 512) (q : Fin 512) :
    meanT (F := Ideal) y (ix1 q) = Ideal.div (zero + ∑ i : Fin 4096, y (ix2 i q)) c4096 := by
  unfold meanT
  show Ideal.div (Host.reduceAdd (F := Ideal) y _ _ _ (ix1 q)) (broadcastInDim (s := S_) S512 ![] _ _ (ix1 q)) = _
  rw [colsum_apply, splat_apply]
  rfl

/-- The variance function's centred value of any `y`. -/
theorem centredT_apply (y : Mat 4096 512) (i : Fin 4096) (q : Fin 512) :
    centredT (F := Ideal) y (ix2 i q) = y (ix2 i q) - Ideal.div (zero + ∑ i' : Fin 4096, y (ix2 i' q)) c4096 := by
  unfold centredT
  show y (ix2 i q) - broadcastInDim (s := S1x512) S4096x512 ![0, 1] _ _ (ix2 i q) = _
  rw [rows_apply]
  show _ - Ideal.div (broadcastInDim (s := S512) S1x512 ![1] _ _ (ix2 (0 : Fin 1) q)) (broadcastInDim (s := S_) S1x512 ![] _ _ (ix2 (0 : Fin 1) q)) = _
  rw [row1_apply, colsum_apply, splat_apply]
  rfl

/-- The variance function's result for any `y`: the select takes the quotient, whose divisor is the word of 4096. -/
theorem varT_apply (y : Mat 4096 512) (q : Fin 512) :
    varT (F := Ideal) y (ix1 q)
      = Ideal.div (zero + ∑ i : Fin 4096, centredT (F := Ideal) y (ix2 i q) * centredT (F := Ideal) y (ix2 i q)) c4096 := by
  unfold varT
  rw [select_apply, splat_apply, splat_apply]
  have hc : cmpf (F := Ideal) .ogt (divisorT (F := Ideal)) (constant S_ .f32 0x00000000#32) ix0 = 1#1 := divisor_pos
  rw [hc, select_one]
  show Ideal.div (Host.reduceAdd (F := Ideal) _ _ _ _ (ix1 q)) (broadcastInDim (s := S_) S512 ![] _ _ (ix1 q)) = _
  rw [colsum_apply, splat_apply]
  have hd : divisorT (F := Ideal) ix0 = c4096 := divisor_eq
  rw [hd]
  rfl

/-! ## The composed term is the specification's array -/

/-- The composed term at `(p, q)`. -/
theorem outT_apply (x1 x2 : Mat 4096 512) (am : Mat 4096 4096) (W : Mat 1024 512) (b γ β : Row 512) (p : Fin 4096) (q : Fin 512) :
    outT (F := Ideal) x1 x2 am W b γ β (ix2 p q) = outR x1 x2 am W b γ β p q := by
  unfold outT
  show max (Ideal.div (yT (F := Ideal) x1 x2 am W b (ix2 p q) - rowsT (F := Ideal) _ (ix2 p q)) (rowsT (F := Ideal) _ (ix2 p q))
      * rowsT (F := Ideal) γ (ix2 p q) + rowsT (F := Ideal) β (ix2 p q)) (broadcastInDim (s := S_) S4096x512 ![] _ _ (ix2 p q)) = _
  rw [rowsT_apply, rowsT_apply, rowsT_apply, rowsT_apply, splat_apply, meanT_apply]
  show max (Ideal.div _ (Ideal.sqrt (varT (F := Ideal) _ (ix1 q) + broadcastInDim (s := S_) S512 ![] _ _ (ix1 q))) * _ + _) _ = _
  rw [varT_apply, splat_apply]
  simp only [centredT_apply, yT_apply]
  rfl

theorem outT_eq (x1 x2 : Mat 4096 512) (am : Mat 4096 4096) (W : Mat 1024 512) (b γ β : Row 512) :
    outT (F := Ideal) x1 x2 am W b γ β = outRv x1 x2 am W b γ β := by
  funext j
  obtain ⟨p, q, rfl⟩ : ∃ (p : Fin 4096) (q : Fin 512), j = ix2 p q := ⟨j 0, j 1, eq_ix2 j⟩
  exact outT_apply x1 x2 am W b γ β p q

/-! ## The run -/

/-- At the extended reals, from any memory with zero counters: every weakly fair execution of the reference terminates
    with its result at the specification's array of the seven arguments' launch contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread nD τ).loc main_v26)
          = Cert.Exchange.outRv (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun _ h c => ⟨(h c).1.trans (outT_eq _ _ _ _ _ _ _), (h c).2⟩) (run_outT (F := Ideal) m ρ)

end Cert.Exchange.Ref

end
-- ==== Proof.AlgSums.lean ====
/-
  Finite sums, re-indexed: the coercion of a real sum into the extended reals, a sum over 1024 indices cut at 512,
  a sum over 4096 indices gathered from 8 blocks of 512, the eight-step running sum, and the re-association of a
  product of two matrix products over the reals.
-/
import proofs.«148319_g18880676233904_cont_8to1_729_7_alg».proof.Proof.Spec

noncomputable section

open scoped BigOperators

namespace Cert.Exchange

/-- The coercion ℝ → EReal commutes with finite sums. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals each of which is a real is the coercion of the real sum. -/
theorem sum_eq_coe {ι : Type*} [Fintype ι] (f : ι → EReal) (g : ι → ℝ) (h : ∀ i, f i = (g i : EReal)) :
    ∑ i, f i = ((∑ i, g i : ℝ) : EReal) := by
  rw [coe_finsum]; exact Finset.sum_congr rfl fun i _ => h i

/-- A sum over 1024 indices is the sum over the first 512 plus the sum over the last 512. -/
theorem sum_split_1024 {M : Type*} [AddCommMonoid M] (f : Fin 1024 → M) :
    ∑ k : Fin 1024, f k
      = (∑ k : Fin 512, f ⟨k.val, by have := k.isLt; omega⟩)
        + ∑ k : Fin 512, f ⟨512 + k.val, by have := k.isLt; omega⟩ :=
  Fin.sum_univ_add (a := 512) (b := 512) f

/-- The pairs (block, offset) are the indices below 4096: index = 512 · block + offset. -/
def blockEquiv : Fin 8 × Fin 512 ≃ Fin 4096 where
  toFun x := ⟨512 * x.1.val + x.2.val, by have := x.1.isLt; have := x.2.isLt; omega⟩
  invFun i := (⟨i.val / 512, by have := i.isLt; omega⟩, ⟨i.val % 512, by omega⟩)
  left_inv x := by
    obtain ⟨⟨p, hp⟩, ⟨r, hr⟩⟩ := x
    refine Prod.ext (Fin.ext ?_) (Fin.ext ?_)
    · show (512 * p + r) / 512 = p; omega
    · show (512 * p + r) % 512 = r; omega
  right_inv i := by
    apply Fin.ext
    show 512 * (i.val / 512) + i.val % 512 = i.val
    omega

/-- A sum over 4096 indices, gathered block by block: 8 blocks of 512. -/
theorem sum_blocks {M : Type*} [AddCommMonoid M] (f : Fin 4096 → M) :
    ∑ p : Fin 8, ∑ r : Fin 512, f ⟨512 * p.val + r.val, by have := p.isLt; have := r.isLt; omega⟩
      = ∑ i : Fin 4096, f i := by
  rw [← Equiv.sum_comp blockEquiv f, Fintype.sum_prod_type]
  rfl

/-- The running sum after the eighth block is the sum of the eight blocks' contributions. -/
theorem accK_eq_sum (ps : Fin 8 → Fin 512 → EReal) (j : Fin 512) :
    accK ps 7 (by decide) j = ∑ p : Fin 8, ps p j := by
  rw [Fin.sum_univ_eight]
  rfl

/-- `(A · X) · W = A · (X · W)` entrywise, over a commutative semiring. -/
theorem sum_mul_assoc {ι κ R : Type*} [Fintype ι] [Fintype κ] [CommSemiring R] (a : ι → R) (x : ι → κ → R) (w : κ → R) :
    ∑ k, (∑ l, a l * x l k) * w k = ∑ l, a l * ∑ k, x l k * w k := by
  simp only [Finset.sum_mul, Finset.mul_sum]
  rw [Finset.sum_comm]
  exact Finset.sum_congr rfl fun l _ => Finset.sum_congr rfl fun k _ => mul_assoc _ _ _

end Cert.Exchange

end
-- ==== Proof.AlgY.lean ====
/-
  The pre-normalisation activation `y`: both readings, on real arguments, are the coercion of one real array.

  The reference contracts the 1024 columns of `concat(am · x1, x2)` against `W`; cut at 512, the first half is
  `Σ_k (Σ_l am[i,l] · x1[l,k]) · W[k,j] = Σ_l am[i,l] · (Σ_k x1[l,k] · W[k,j])` (distributivity and an exchange of
  the two finite sums), the second half is `x2 · W_bottom`: this is the kernel's reading.
-/
import proofs.«148319_g18880676233904_cont_8to1_729_7_alg».proof.Proof.AlgSums

noncomputable section

open scoped BigOperators

namespace Cert.Exchange

open Idealize.ShloMosaic Idealize.ShloMosaic.ValueIdx

/-- An `[a, b]` array of reals. -/
abbrev RMat (a b : ℕ) : Type := (⟨2, ![a, b]⟩ : Shape).Idx → ℝ
/-- An `[a]` array of reals. -/
abbrev RRow (a : ℕ) : Type := (⟨1, ![a]⟩ : Shape).Idx → ℝ

section
variable (X1 X2 : RMat 4096 512) (AM : RMat 4096 4096) (Wr : RMat 1024 512) (Br : RRow 512)

/-- `(am · x1)[i, k]` over the reals. -/
def hRr (i : Fin 4096) (k : Fin 512) : ℝ := ∑ l : Fin 4096, AM (ix2 i l) * X1 (ix2 l k)

/-- `concat(am · x1, x2)[i, k]` over the reals. -/
def catRr (i : Fin 4096) (k : Fin 1024) : ℝ :=
  if h : k.val < 512 then hRr X1 AM i ⟨k.val, h⟩ else X2 (ix2 i ⟨k.val - 512, by have := k.isLt; omega⟩)

/-- The reference's `y[i, j]` over the reals. -/
def yRr (i : Fin 4096) (j : Fin 512) : ℝ := (∑ k : Fin 1024, catRr X1 X2 AM i k * Wr (ix2 k j)) + Br (ix1 j)

/-- The staged product `(x1 · W_top)[k, j]` over the reals. -/
def tKr (k : Fin 4096) (j : Fin 512) : ℝ :=
  ∑ l : Fin 512, X1 (ix2 k l) * Wr (ix2 ⟨l.val, by have := l.isLt; omega⟩ j)

/-- The kernel's `y[i, j]` over the reals. -/
def yKr (i : Fin 4096) (j : Fin 512) : ℝ :=
  ((∑ k : Fin 4096, AM (ix2 i k) * tKr X1 Wr k j)
    + ∑ k : Fin 512, X2 (ix2 i k) * Wr (ix2 ⟨512 + k.val, by have := k.isLt; omega⟩ j)) + Br (ix1 j)

/-- Over the reals the two readings of `y` agree. -/
theorem yKr_eq_yRr (i : Fin 4096) (j : Fin 512) : yKr X1 X2 AM Wr Br i j = yRr X1 X2 AM Wr Br i j := by
  unfold yKr yRr
  congr 1
  rw [sum_split_1024]
  refine congrArg₂ (· + ·) ?_ ?_
  · -- the first 512 columns: (am · x1) · W_top = am · (x1 · W_top)
    have h1 : ∀ k : Fin 512, catRr X1 X2 AM i ⟨k.val, by have := k.isLt; omega⟩ = hRr X1 AM i k := fun k => by
      unfold catRr; rw [dif_pos k.isLt]
    simp only [h1]
    unfold hRr tKr
    exact (sum_mul_assoc (fun l => AM (ix2 i l)) (fun l k => X1 (ix2 l k))
      (fun k : Fin 512 => Wr (ix2 (⟨k.val, by have := k.isLt; omega⟩ : Fin 1024) j))).symm
  · -- the last 512 columns are x2's
    refine Finset.sum_congr rfl fun k _ => ?_
    have h2 : catRr X1 X2 AM i ⟨512 + k.val, by have := k.isLt; omega⟩ = X2 (ix2 i k) := by
      unfold catRr
      rw [dif_neg (by simp)]
      congr 2
      exact Fin.ext (by simp)
    rw [h2]

end

section
variable (x1 x2 : Mat 4096 512) (am : Mat 4096 4096) (W : Mat 1024 512) (b : Row 512)
variable (X1 X2 : RMat 4096 512) (AM : RMat 4096 4096) (Wr : RMat 1024 512) (Br : RRow 512)
variable (hx1 : ∀ i, x1 i = (X1 i : EReal)) (hx2 : ∀ i, x2 i = (X2 i : EReal)) (ham : ∀ i, am i = (AM i : EReal))
  (hW : ∀ i, W i = (Wr i : EReal)) (hb : ∀ i, b i = (Br i : EReal))
include hx1 ham

theorem hR_coe (i : Fin 4096) (k : Fin 512) : hR x1 am i k = ((hRr X1 AM i k : ℝ) : EReal) := by
  unfold hR hRr
  exact sum_eq_coe _ _ fun l => by rw [ham, hx1, EReal.coe_mul]

include hx2

theorem catR_coe (i : Fin 4096) (k : Fin 1024) : catR x1 x2 am i k = ((catRr X1 X2 AM i k : ℝ) : EReal) := by
  unfold catR catRr
  by_cases h : k.val < 512
  · rw [dif_pos h, dif_pos h]; exact hR_coe x1 am X1 AM hx1 ham i _
  · rw [dif_neg h, dif_neg h, hx2]

include hW hb

/-- The reference's `y` on real arguments is the coercion of its real twin. -/
theorem yR_coe (i : Fin 4096) (j : Fin 512) :
    yR x1 x2 am W b i j = ((yRr X1 X2 AM Wr Br i j : ℝ) : EReal) := by
  unfold yR yRr
  rw [EReal.coe_add, hb]
  congr 1
  exact sum_eq_coe _ _ fun k => by rw [catR_coe x1 x2 am X1 X2 AM hx1 hx2 ham, hW, EReal.coe_mul]

omit hx2 ham hb in
theorem tK_coe (k : Fin 4096) (j : Fin 512) : tK x1 W k j = ((tKr X1 Wr k j : ℝ) : EReal) := by
  unfold tK tKr
  exact sum_eq_coe _ _ fun l => by rw [hx1, hW, EReal.coe_mul]

/-- The kernel's `y` on real arguments is the coercion of its real twin. -/
theorem yK_coe (i : Fin 4096) (j : Fin 512) :
    yK x1 x2 am W b i j = ((yKr X1 X2 AM Wr Br i j : ℝ) : EReal) := by
  unfold yK yKr
  rw [EReal.coe_add, EReal.coe_add, hb]
  congr 2
  · exact sum_eq_coe _ _ fun k => by rw [ham, tK_coe x1 W X1 Wr hx1 hW, EReal.coe_mul]
  · exact sum_eq_coe _ _ fun k => by rw [hx2, hW, EReal.coe_mul]

/-- On real arguments the kernel's `y` is the coercion of the reference's real twin. -/
theorem yK_coe' (i : Fin 4096) (j : Fin 512) :
    yK x1 x2 am W b i j = ((yRr X1 X2 AM Wr Br i j : ℝ) : EReal) := by
  rw [yK_coe x1 x2 am W b X1 X2 AM Wr Br hx1 hx2 ham hW hb, yKr_eq_yRr]

end

end Cert.Exchange

end
-- ==== Proof.AlgConsts.lean ====
/-
  The four float words of the specification, as the reals they denote: 0, 4096, 1/4096, and a positive ε.
-/
import proofs.«148319_g18880676233904_cont_8to1_729_7_alg».proof.Proof.Spec

noncomputable section

namespace Cert.Exchange

open Idealize.ShloMosaic

/-- The zero word denotes 0. -/
theorem zero_eq : zero = 0 := by
  simp [zero, Ideal.ofBits, Ideal.ieee]

/-- The word of 4096.0 denotes the real 4096 = 2¹². -/
theorem c4096_eq : c4096 = ((4096 : ℝ) : EReal) := by
  simp [c4096, Ideal.ofBits, Ideal.ieee, -EReal.coe_mul]; norm_num

/-- The word of 2⁻¹² denotes the real 1/4096. -/
theorem inv4096_eq : inv4096 = ((1 / 4096 : ℝ) : EReal) := by
  simp [inv4096, Ideal.ofBits, Ideal.ieee, -EReal.coe_mul]; norm_num

/-- The real that the ε word denotes: (2²³ + 2606508) · 2⁻⁴⁰, about 1e-5. -/
def epsR : ℝ := 10995116 / 1099511627776

theorem epsR_pos : 0 < epsR := by unfold epsR; norm_num

/-- The ε word denotes `epsR`. -/
theorem eps_eq : eps = ((epsR : ℝ) : EReal) := by
  simp [eps, epsR, Ideal.ofBits, Ideal.ieee, -EReal.coe_mul]; norm_num

end Cert.Exchange

end
-- ==== Proof.AlgStat.lean ====
/-
  The batch statistics and the normalised result, on a real-valued activation `y`.

  With `μ = (1/n) Σ y` the reference's variance `(1/n) Σ (y - μ)²` is the kernel's `(1/n) Σ y² - μ²` (expand the square:
  the cross term is `-2μ · (1/n) Σ y = -2μ²`, the constant term `(1/n) · n · μ² = μ²`); it is nonnegative, so with ε > 0
  the argument `s` of both square roots is positive, `sqrt`, `rsqrt` and the division are the real ones, and
  `(y - μ) · (√s)⁻¹ · γ + β = y · ((√s)⁻¹ · γ) + (β - μ · ((√s)⁻¹ · γ))`.
-/
import proofs.«148319_g18880676233904_cont_8to1_729_7_alg».proof.Proof.AlgSums
import proofs.«148319_g18880676233904_cont_8to1_729_7_alg».proof.Proof.AlgConsts
import proofs.«148319_g18880676233904_cont_8to1_729_7_alg».proof.Proof.AlgY

noncomputable section

open scoped BigOperators

namespace Cert.Exchange

open Idealize.ShloMosaic Idealize.ShloMosaic.ValueIdx

/-- The mean of the squared deviations is the mean of the squares minus the squared mean
    (`S` the sum, `c` the reciprocal of the number of terms). -/
theorem var_identity {ι : Type*} [Fintype ι] (y : ι → ℝ) (c S : ℝ) (hS : ∑ i, y i = S)
    (hc : (Fintype.card ι : ℝ) * c = 1) :
    (∑ i, y i * y i) * c - (S * c) * (S * c) = (∑ i, (y i - S * c) * (y i - S * c)) * c := by
  have h0 : ∀ i, (y i - S * c) * (y i - S * c) = y i * y i - 2 * (S * c) * y i + (S * c) * (S * c) := fun i => by ring
  have h1 : ∑ i, (y i - S * c) * (y i - S * c)
      = (∑ i, y i * y i) - 2 * (S * c) * S + (Fintype.card ι : ℝ) * ((S * c) * (S * c)) := by
    rw [Finset.sum_congr rfl fun i _ => h0 i, Finset.sum_add_distrib, Finset.sum_sub_distrib, ← Finset.mul_sum, hS,
      Finset.sum_const, Finset.card_univ, nsmul_eq_mul]
  rw [h1]
  linear_combination (-((S * c) * (S * c))) * hc

/-- The maximum of two reals, coerced, is the maximum of the coercions. -/
theorem coe_max (a b : ℝ) : ((max a b : ℝ) : EReal) = max (a : EReal) (b : EReal) :=
  EReal.coe_strictMono.monotone.map_max

section
variable (Y : Fin 4096 → Fin 512 → ℝ)

/-- The column mean over the reals. -/
def mu (j : Fin 512) : ℝ := (∑ i : Fin 4096, Y i j) * (1 / 4096)
/-- The column variance over the reals, as the mean of the squared deviations. -/
def vr (j : Fin 512) : ℝ := (∑ i : Fin 4096, (Y i j - mu Y j) * (Y i j - mu Y j)) * (1 / 4096)
/-- The column variance over the reals, as the mean of the squares minus the squared mean. -/
def vk (j : Fin 512) : ℝ := (∑ i : Fin 4096, Y i j * Y i j) * (1 / 4096) - mu Y j * mu Y j

theorem vk_eq_vr (j : Fin 512) : vk Y j = vr Y j := by
  unfold vk vr mu
  exact var_identity (fun i => Y i j) (1 / 4096) (∑ i : Fin 4096, Y i j) rfl (by rw [Fintype.card_fin]; norm_num)

theorem vr_nonneg (j : Fin 512) : 0 ≤ vr Y j :=
  mul_nonneg (Finset.sum_nonneg fun _ _ => mul_self_nonneg _) (by norm_num)

theorem vr_eps_pos (j : Fin 512) : 0 < vr Y j + epsR := add_pos_of_nonneg_of_pos (vr_nonneg Y j) epsR_pos

theorem sqrt_ne_zero (j : Fin 512) : Real.sqrt (vr Y j + epsR) ≠ 0 := (Real.sqrt_pos.mpr (vr_eps_pos Y j)).ne'

end

section
variable (x1 x2 : Mat 4096 512) (am : Mat 4096 4096) (W : Mat 1024 512) (b γ β : Row 512)
variable (Y : Fin 4096 → Fin 512 → ℝ) (G Bt : RRow 512)

section Ref
variable (hYR : ∀ i j, yR x1 x2 am W b i j = (Y i j : EReal))
include hYR

theorem meanR_coe (j : Fin 512) : meanR x1 x2 am W b j = ((mu Y j : ℝ) : EReal) := by
  have hs : ∑ i : Fin 4096, yR x1 x2 am W b i j = ((∑ i : Fin 4096, Y i j : ℝ) : EReal) :=
    sum_eq_coe _ _ fun i => hYR i j
  unfold meanR mu
  rw [c4096_eq, Ideal.div_coe (by norm_num : (4096 : ℝ) ≠ 0), zero_eq, zero_add, hs, ← EReal.coe_mul]

theorem varR_coe (j : Fin 512) : varR x1 x2 am W b j = ((vr Y j : ℝ) : EReal) := by
  have hs : ∑ i : Fin 4096, (yR x1 x2 am W b i j - ((mu Y j : ℝ) : EReal)) * (yR x1 x2 am W b i j - ((mu Y j : ℝ) : EReal))
      = ((∑ i : Fin 4096, (Y i j - mu Y j) * (Y i j - mu Y j) : ℝ) : EReal) :=
    sum_eq_coe _ _ fun i => by rw [hYR, ← EReal.coe_sub, ← EReal.coe_mul]
  unfold varR vr
  rw [c4096_eq, Ideal.div_coe (by norm_num : (4096 : ℝ) ≠ 0), zero_eq, zero_add, meanR_coe x1 x2 am W b Y hYR j, hs,
    ← EReal.coe_mul]

variable (hγ : ∀ i, γ i = (G i : EReal)) (hβ : ∀ i, β i = (Bt i : EReal))
include hγ hβ

/-- The reference's result on real arguments. -/
theorem outR_coe (i : Fin 4096) (j : Fin 512) :
    outR x1 x2 am W b γ β i j
      = ((max ((Y i j - mu Y j) * (Real.sqrt (vr Y j + epsR))⁻¹ * G (ix1 j) + Bt (ix1 j)) 0 : ℝ) : EReal) := by
  unfold outR
  rw [varR_coe x1 x2 am W b Y hYR j, meanR_coe x1 x2 am W b Y hYR j, eps_eq, hYR, hγ, hβ, zero_eq, ← EReal.coe_add,
    Ideal.sqrt_coe, if_neg (not_lt.mpr (vr_eps_pos Y j).le), Ideal.div_coe (sqrt_ne_zero Y j), ← EReal.coe_sub,
    ← EReal.coe_mul, ← EReal.coe_mul, ← EReal.coe_add, ← EReal.coe_zero, ← coe_max, one_div]

end Ref

section Ker
variable (hYK : ∀ i j, yK x1 x2 am W b i j = (Y i j : EReal))
include hYK

theorem meanK_coe (j : Fin 512) : meanK x1 x2 am W b j = ((mu Y j : ℝ) : EReal) := by
  have h1 : ∑ p : Fin 8, psK x1 x2 am W b p j = ∑ i : Fin 4096, yK x1 x2 am W b i j :=
    sum_blocks fun i => yK x1 x2 am W b i j
  have h2 : ∑ i : Fin 4096, yK x1 x2 am W b i j = ((∑ i : Fin 4096, Y i j : ℝ) : EReal) :=
    sum_eq_coe _ _ fun i => hYK i j
  unfold meanK mu
  rw [accK_eq_sum, inv4096_eq, h1, h2, ← EReal.coe_mul]

theorem varK_coe (j : Fin 512) : varK x1 x2 am W b j = ((vk Y j : ℝ) : EReal) := by
  have h1 : ∑ p : Fin 8, pssK x1 x2 am W b p j = ∑ i : Fin 4096, yK x1 x2 am W b i j * yK x1 x2 am W b i j :=
    sum_blocks fun i => yK x1 x2 am W b i j * yK x1 x2 am W b i j
  have h2 : ∑ i : Fin 4096, yK x1 x2 am W b i j * yK x1 x2 am W b i j = ((∑ i : Fin 4096, Y i j * Y i j : ℝ) : EReal) :=
    sum_eq_coe _ _ fun i => by rw [hYK, ← EReal.coe_mul]
  unfold varK vk
  rw [meanK_coe x1 x2 am W b Y hYK j, accK_eq_sum, inv4096_eq, h1, h2, ← EReal.coe_mul, ← EReal.coe_mul, ← EReal.coe_sub]

variable (hγ : ∀ i, γ i = (G i : EReal))
include hγ

theorem scaleK_coe (j : Fin 512) :
    scaleK x1 x2 am W b γ j = (((Real.sqrt (vr Y j + epsR))⁻¹ * G (ix1 j) : ℝ) : EReal) := by
  unfold scaleK
  rw [varK_coe x1 x2 am W b Y hYK j, vk_eq_vr, eps_eq, ← EReal.coe_add, Ideal.rsqrt_coe,
    if_neg (not_lt.mpr (vr_eps_pos Y j).le), if_neg (vr_eps_pos Y j).ne', hγ, ← EReal.coe_mul]

variable (hβ : ∀ i, β i = (Bt i : EReal))
include hβ

theorem shiftK_coe (j : Fin 512) :
    shiftK x1 x2 am W b γ β j
      = ((Bt (ix1 j) - mu Y j * ((Real.sqrt (vr Y j + epsR))⁻¹ * G (ix1 j)) : ℝ) : EReal) := by
  unfold shiftK
  rw [scaleK_coe x1 x2 am W b γ Y G hYK hγ j, meanK_coe x1 x2 am W b Y hYK j, hβ, ← EReal.coe_mul, ← EReal.coe_sub]

/-- The kernel's result on real arguments. -/
theorem outK_coe (i : Fin 4096) (j : Fin 512) :
    outK x1 x2 am W b γ β i j
      = ((max (Y i j * ((Real.sqrt (vr Y j + epsR))⁻¹ * G (ix1 j))
            + (Bt (ix1 j) - mu Y j * ((Real.sqrt (vr Y j + epsR))⁻¹ * G (ix1 j)))) 0 : ℝ) : EReal) := by
  unfold outK
  rw [shiftK_coe x1 x2 am W b γ β Y G Bt hYK hγ hβ j, scaleK_coe x1 x2 am W b γ Y G hYK hγ j, hYK, zero_eq,
    ← EReal.coe_mul, ← EReal.coe_add, ← EReal.coe_zero, ← coe_max]

end Ker

/-- Both readings of the result agree at every index when both activations are the coercion of one real array and the
    affine parameters are real. -/
theorem outK_eq_outR_of (hYR : ∀ i j, yR x1 x2 am W b i j = (Y i j : EReal))
    (hYK : ∀ i j, yK x1 x2 am W b i j = (Y i j : EReal))
    (hγ : ∀ i, γ i = (G i : EReal)) (hβ : ∀ i, β i = (Bt i : EReal)) (i : Fin 4096) (j : Fin 512) :
    outK x1 x2 am W b γ β i j = outR x1 x2 am W b γ β i j := by
  rw [outK_coe x1 x2 am W b γ β Y G Bt hYK hγ hβ i j, outR_coe x1 x2 am W b γ β Y G Bt hYR hγ hβ i j]
  congr 2
  ring

end

end Cert.Exchange

end
-- ==== Proof.Algebra.lean ====
/-
  The exchange layer's two readings agree on real arguments: `concat(am · x1, x2) · W = am · (x1 · W_top) + x2 · W_bottom`,
  the block-by-block running sums are the column sums, the variance has its two classical forms, and with a positive
  argument under the square root the normalisation `(y - μ) / √s · γ + β` is the affine map `y · scale + shift`.
-/
import proofs.«148319_g18880676233904_cont_8to1_729_7_alg».proof.Proof.AlgY
import proofs.«148319_g18880676233904_cont_8to1_729_7_alg».proof.Proof.AlgStat

noncomputable section

namespace Cert.Exchange

open Idealize.ShloMosaic Idealize.ShloMosaic.ValueIdx

/-- On real arguments the kernel's result array is the reference's. -/
theorem outKv_eq_outRv (x1 x2 : Mat 4096 512) (am : Mat 4096 4096) (W : Mat 1024 512) (b γ β : Row 512)
    (hx1 : ∀ i, ∃ r : ℝ, x1 i = (r : EReal)) (hx2 : ∀ i, ∃ r : ℝ, x2 i = (r : EReal))
    (ham : ∀ i, ∃ r : ℝ, am i = (r : EReal)) (hW : ∀ i, ∃ r : ℝ, W i = (r : EReal))
    (hb : ∀ i, ∃ r : ℝ, b i = (r : EReal)) (hγ : ∀ i, ∃ r : ℝ, γ i = (r : EReal))
    (hβ : ∀ i, ∃ r : ℝ, β i = (r : EReal)) :
    outKv x1 x2 am W b γ β = outRv x1 x2 am W b γ β := by
  choose X1 hX1 using hx1
  choose X2 hX2 using hx2
  choose AM hAM using ham
  choose Wr hWr using hW
  choose Br hBr using hb
  choose G hG using hγ
  choose Bt hBt using hβ
  unfold outKv outRv
  funext i
  exact outK_eq_outR_of x1 x2 am W b γ β (yRr X1 X2 AM Wr Br) G Bt
    (yR_coe x1 x2 am W b X1 X2 AM Wr Br hX1 hX2 hAM hWr hBr)
    (yK_coe' x1 x2 am W b X1 X2 AM Wr Br hX1 hX2 hAM hWr hBr) hG hBt (i 0) (i 1)

end Cert.Exchange

end
-- ==== Proof.Finite.lean ====
/-
  Finiteness from the precondition.

  The precondition is the conjunction, over the seven float inputs, of "every entry `x` has `|x| < +∞`", each
  conjunct a reduction by `and` of the array of the entrywise comparisons down to one `i1` word. On the extended
  reals `|x| = max x (-x)` and the word `0x7F800000` is `⊤`; `max x (-x) < ⊤` excludes `x = ⊤` and `x = ⊥`, so
  `x` is (the embedding of) a real number. Hence, under the precondition, every entry of every input is real.
-/
import proofs.«148319_g18880676233904_cont_8to1_729_7_alg».proof.Pre_finite_inputs
import Idealize.ShloMosaic.Lib.ValueIdx
import Idealize.ShloMosaic.PureOps.Ideal
import Idealize.ShloMosaic.Lib.ReduceAll

namespace Cert.Exchange

open Idealize.ShloMosaic

namespace FiniteInputs

/-- The word of `+∞` denotes `⊤`. -/
theorem ofBits_inf : Ideal.ofBits .f32 0x7F800000#32 = (⊤ : EReal) := by
  simp [Ideal.ofBits, Ideal.ieee]

/-- One entry: if the comparison `|x| < +∞` answers 1 then `x` is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  rw [max_lt_iff] at hlt
  induction x using EReal.rec with
  | bot => exact absurd hlt.2 (by simp)
  | top => exact absurd hlt.1 (by simp)
  | coe r => exact ⟨r, rfl⟩

/-- One array, of any shape: if `all(|x| < +∞)` — the entrywise comparison against the broadcast `+∞` word, reduced
    by `and` over all axes to one word — is 1, then every entry of `x` is a real number. -/
theorem real_of_all_abs_lt_inf {s t u c : Shape} {axes : List (Fin s.rank)} [Subsingleton t.Idx]
    (x : FVec Ideal s .f32) (dims : Fin c.rank → Fin s.rank) (hb : c.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) c .f32 0x7F800000#32)))
          init hr hu j = 1#1) :
    ∀ i, ∃ r : ℝ, x i = (r : EReal) := fun i =>
  real_of_abs_lt_inf (x i) (Host.reduce_andi_all _ init hr hu j e i)

end FiniteInputs

/-- Under the precondition every entry of each of the seven inputs is a real number. -/
theorem finite_of_pre [Cert.Pre_finite_inputs.Facts]
    (a0 a1 : FVec Ideal Cert.Pre_finite_inputs.S4096x512 .f32)
    (a2 : FVec Ideal Cert.Pre_finite_inputs.S4096x4096 .f32)
    (a3 : FVec Ideal Cert.Pre_finite_inputs.S1024x512 .f32)
    (a4 a5 a6 : FVec Ideal Cert.Pre_finite_inputs.S512 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) := by
  -- the rank-0 result shape has one index, so each reduction is over all entries
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨FiniteInputs.real_of_all_abs_lt_inf a0 _ _ _ _ _ _ e0, FiniteInputs.real_of_all_abs_lt_inf a1 _ _ _ _ _ _ e1,
    FiniteInputs.real_of_all_abs_lt_inf a2 _ _ _ _ _ _ e2, FiniteInputs.real_of_all_abs_lt_inf a3 _ _ _ _ _ _ e3,
    FiniteInputs.real_of_all_abs_lt_inf a4 _ _ _ _ _ _ e4, FiniteInputs.real_of_all_abs_lt_inf a5 _ _ _ _ _ _ e5,
    FiniteInputs.real_of_all_abs_lt_inf a6 _ _ _ _ _ _ e6⟩

end Cert.Exchange
-- ==== Proof.lean ====
/-
  The exchange layer's fused kernel against its reference: the five claims.

  The kernel computes y = am · (x1 · W_top) + x2 · W_bottom + b in eight row blocks of 512, keeps y in a resident
  output buffer and the column sums of y and y² in two scratch rows, and at the last block normalises every row as
  max(y · scale + shift, 0) with scale = rsqrt(var + ε) · γ, shift = β − mean · scale, mean = sum / 4096 and
  var = sumsq / 4096 − mean². The reference computes y = concat(am · x1, x2) · W + b, the batch mean and the
  variance as the mean squared deviation, and max((y − mean) / sqrt(var + ε) · γ + β, 0).

  * The frames: each program terminates on every weakly fair execution without a fault and leaves its seven
    argument arrays unchanged — for the kernel (at the word level and at the extended reals) from the run of its
    pipeline, for the reference from the run of its host operations.
  * The idealized kernel is the kernel's own text read at the extended reals: nothing was rewritten.
  * At the extended reals, under finite inputs, the two results are one array: the kernel's output array ends at
    `outKv` of the arguments, the reference's at `outRv`, and the two functions agree on real arguments —
    the products re-associate, the two variance formulas agree, and rsqrt(s) = 1 / sqrt(s) for s > 0.
-/
import proofs.«148319_g18880676233904_cont_8to1_729_7_alg».proof.Defs
import proofs.«148319_g18880676233904_cont_8to1_729_7_alg».proof.Proof.Gen.Kernel
import proofs.«148319_g18880676233904_cont_8to1_729_7_alg».proof.Proof.Gen.KernelIdeal
import proofs.«148319_g18880676233904_cont_8to1_729_7_alg».proof.Proof.Gen.ReferenceIdeal
import proofs.«148319_g18880676233904_cont_8to1_729_7_alg».proof.Proof.Gen.Pre_finite_inputs
import proofs.«148319_g18880676233904_cont_8to1_729_7_alg».proof.Proof.KFrame
import proofs.«148319_g18880676233904_cont_8to1_729_7_alg».proof.Proof.KIFrame
import proofs.«148319_g18880676233904_cont_8to1_729_7_alg».proof.Proof.KIValue
import proofs.«148319_g18880676233904_cont_8to1_729_7_alg».proof.Proof.RefValue
import proofs.«148319_g18880676233904_cont_8to1_729_7_alg».proof.Proof.Algebra
import proofs.«148319_g18880676233904_cont_8to1_729_7_alg».proof.Proof.Finite
import Idealize.ShloMosaic.Adequacy
import Idealize.ShloMosaic.Init

noncomputable section

namespace Cert.Proof

open Idealize.ShloMosaic Idealize.SL.Sem

/-- The kernel at the word level runs and leaves its arguments unchanged. -/
theorem frame_kernel : Cert.frame_Kernel := fun m ρ _ => Cert.Kernel.Body.frame (F := Bits) m ρ

/-- So does the kernel read at the extended reals. -/
theorem frame_kernelIdeal : Cert.frame_KernelIdeal := fun m ρ _ => Cert.KernelIdeal.Body.frame (F := Ideal) m ρ

/-- The reference runs and leaves its arguments unchanged: its run with the result dropped. -/
theorem frame_reference : Cert.frame_ReferenceIdeal := fun m ρ _ =>
  (θ_run Cert.ReferenceIdeal.defs _ _).mono (fun _ h c => (h c).2) (Cert.Exchange.Ref.run m ρ)

/-- The idealization rewrote nothing. -/
theorem preserves : Cert.preserves_Kernel_KernelIdeal := trivial

/-- From finite arguments, the kernel's output array ends at `outKv` and the reference's at `outRv` of the same
    arguments, and the two are one array. -/
theorem algebraic : Cert.algebraic_KernelIdeal_ReferenceIdeal := by
  intro m ρ m' ρ' hpre hagree
  refine ⟨fun c => Cert.Exchange.outKv
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨Cert.KernelIdeal.Body.final_out m c _ (h c).1, (h c).2⟩)
      (Cert.KernelIdeal.Body.run_out (F := Ideal) m ρ)
  · refine (θ_run Cert.ReferenceIdeal.defs _ _).mono (fun _ h c => ⟨(h c).1.trans ?_, (h c).2⟩)
      (Cert.Exchange.Ref.run m' ρ')
    obtain ⟨f0, f1, f2, f3, f4, f5, f6⟩ := Cert.Exchange.finite_of_pre _ _ _ _ _ _ _ (hpre c)
    rw [(hagree c).1, (hagree c).2.1, (hagree c).2.2.1, (hagree c).2.2.2.1, (hagree c).2.2.2.2.1,
      (hagree c).2.2.2.2.2.1, (hagree c).2.2.2.2.2.2]
    exact (Cert.Exchange.outKv_eq_outRv _ _ _ _ _ _ _ f0 f1 f2 f3 f4 f5 f6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
